-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v6)) (v5 : (c : Dev Cert.KernelIdeal.nD) → Buf (Elt Ideal) ((c.tc : Thread Cert.KernelIdeal.nD Cert.KernelIdeal.τ).loc Cert.KernelIdeal.main_v8)) (v6 : (c : Dev Cert.KernelIdeal.nD) → Buf (Elt Ideal) ((c.tc : Thread Cert.KernelIdeal.nD Cert.KernelIdeal.τ).loc Cert.KernelIdeal.main_v8)) (v7 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_v8) = v5 c
          ∧ r.2.mem ((c.tc : Thread Cert.KernelIdeal.nD Cert.KernelIdeal.τ).loc Cert.KernelIdeal.main_v8) = v6 c
          ∧ r.2.mem ((c.tc : Thread Cert.KernelIdeal.nD Cert.KernelIdeal.τ).loc Cert.KernelIdeal.main_v5_0) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_v21) = v4 c
          ∧ r.2.mem ((c.tc : Thread Cert.ReferenceIdeal.nD Cert.ReferenceIdeal.τ).loc Cert.ReferenceIdeal.main_v33) = v5 c
          ∧ r.2.mem ((c.tc : Thread Cert.ReferenceIdeal.nD Cert.ReferenceIdeal.τ).loc Cert.ReferenceIdeal.main_v33) = v6 c
          ∧ r.2.mem ((c.tc : Thread Cert.ReferenceIdeal.nD Cert.ReferenceIdeal.τ).loc Cert.ReferenceIdeal.main_v11) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S128 .f32) (main_arg8 : FVec F S128x1 .f32) (main_arg9 : FVec F S1 .f32) (main_arg10 : FVec F S128x1 .f32) (main_arg11 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x1 .f32) (main_arg9 : FVec F S1 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x1 .f32) (main_arg9 : FVec F S1 .f32) (main_arg10 : FVec F S128x1 .f32) (main_arg11 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S10000x1 : Shape := ⟨2, ![10000, 1]⟩
abbrev S400x10000 : Shape := ⟨2, ![400, 10000]⟩
abbrev S400x128 : Shape := ⟨2, ![400, 128]⟩
abbrev S400x1 : Shape := ⟨2, ![400, 1]⟩
abbrev S10000 : Shape := ⟨1, ![10000]⟩
abbrev S_ : Shape := ⟨0, ![]⟩

abbrev nBuf : Space → Nat
  | .hbm => 24
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x1, .f32⟩
  | .hbm, ⟨11, _⟩ => ⟨S1, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x1, .f32⟩
  | .hbm, ⟨16, _⟩ => ⟨S1x1, .f32⟩
  | .hbm, ⟨17, _⟩ => ⟨S10000x128, .f32⟩
  | .hbm, ⟨18, _⟩ => ⟨S10000x1, .f32⟩
  | .hbm, ⟨19, _⟩ => ⟨S10000x1, .f32⟩
  | .hbm, ⟨20, _⟩ => ⟨S10000, .f32⟩
  | .hbm, ⟨21, _⟩ => ⟨S10000, .f32⟩
  | .hbm, ⟨22, _⟩ => ⟨S_, .f32⟩
  | .hbm, ⟨23, _⟩ => ⟨S10000, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S128x1, .f32⟩
  | .local _ .vmem, ⟨10, _⟩ => ⟨S1x1, .f32⟩
  | .local _ .vmem, ⟨11, _⟩ => ⟨S128x1, .f32⟩
  | .local _ .vmem, ⟨12, _⟩ => ⟨S1x1, .f32⟩
  | .local _ .vmem, ⟨13, _⟩ => ⟨S400x128, .f32⟩
  | .local _ .vmem, ⟨14, _⟩ => ⟨S400x128, .f32⟩
  | .local _ .vmem, ⟨15, _⟩ => ⟨S400x1, .f32⟩
  | .local _ .vmem, ⟨16, _⟩ => ⟨S400x1, .f32⟩
  | .local _ .vmem, ⟨17, _⟩ => ⟨S400x1, .f32⟩
  | .local _ .vmem, ⟨18, _⟩ => ⟨S400x1, .f32⟩
  | .local _ .vmem, ⟨19, _⟩ => ⟨S10000x128, .f32⟩
  | .local _ .vmem, ⟨20, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![2, 25], ![false, false]⟩

def k0_cond3 (i : grid0.Coords) : BitVec 1 :=
  let arg0 : BitVec 32 := BitVec.ofNat 32 (i 0).val
  let c0_i32_7 : BitVec 32 := 0#32
  let v13 : BitVec 1 := Scalar.cmpi .eq arg0 c0_i32_7
  let v14 : BitVec 32 := Scalar.extui v13
  let c0_i32_8 : BitVec 32 := 0#32
  let v15 : BitVec 1 := Scalar.cmpi .ne v14 c0_i32_8
  v15

def k0_off1 (i : grid0.Coords) : Fin 2 → Nat :=
  let arg1 : BitVec 32 := BitVec.ofNat 32 (i 1).val
  let c400_i32 : BitVec 32 := 400#32
  let v25 : BitVec 32 := Scalar.muli arg1 c400_i32
  let v26 : Index := Scalar.indexCast v25
  let c0_14 : Index := 0#32
  ![v26.toNat, 0]
def k0_cond4 (i : grid0.Coords) : BitVec 1 :=
  let arg0 : BitVec 32 := BitVec.ofNat 32 (i 0).val
  let c1_i32_9 : BitVec 32 := 1#32
  let v16 : BitVec 1 := Scalar.cmpi .eq arg0 c1_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.subi c24_i32 arg1
  let v2 : BitVec 32 := Scalar.select v0 arg1 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c24_i32 : BitVec 32 := 24#32
  let v1 : BitVec 32 := Scalar.subi c24_i32 v0
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c24_i32 : BitVec 32 := 24#32
  let v1 : BitVec 32 := Scalar.subi c24_i32 v0
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c24_i32 : BitVec 32 := 24#32
  let v1 : BitVec 32 := Scalar.subi c24_i32 v0
  let c0_i32 : BitVec 32 := 0#32
  let c0_i32_0 : BitVec 32 := 0#32
  ![v1.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S400x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S400x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S400x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S400x128_S400x128_0_0 : ∀ a, (![0, 0] : Fin 2 → Nat) a + S400x128.size a ≤ S400x128.size a
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S400x1 : S1x1.Broadcasts S400x1
  inb_S400x1_S400x1_0_0 : ∀ a, (![0, 0] : Fin 2 → Nat) a + S400x1.size a ≤ S400x1.size a
  h_S400x1 : 0 < S400x1.numel
  shapeCasts_S10000x1_S10000 : S10000x1.ShapeCasts S10000
  bcast_S_S10000 : S_.BroadcastsInDim S10000 (![] : Fin 0 → Fin S10000.rank)
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x1_S400x1_1_0_0_1_n_n_wf : DotDims.WF S400x128 S128x1 S400x1 [1] [0] [0] [1] [] []
  hrank0 : 0 < grid0.rank
  k0_off1_inb : ∀ i : grid0.Coords, ∀ (k0_h3 : k0_cond3 i = 1#1), ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .f32 = 32 ∨ (Rect.block (s := S128x1) S128x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S400x128.size a ≤ S10000x128.size a
  hwx0_12 : ∀ i : grid0.Coords, EltTy.bits .f32 = 32 ∨ (Rect.block (s := S10000x128) S400x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S400x1.size a ≤ S10000x1.size a
  hwx0_13 : ∀ i : grid0.Coords, EltTy.bits .f32 = 32 ∨ (Rect.block (s := S10000x1) S400x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S400x1.size a ≤ S10000x1.size a
  hwx0_14 : ∀ i : grid0.Coords, EltTy.bits .f32 = 32 ∨ (Rect.block (s := S10000x1) S400x1.size (cc0_transform_14 i) (hinb0_14 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x1_S400x1_1_0_0_1_n_n : DotDims S400x128 S128x1 S400x1 where
  lhsContracting := [1]
  rhsContracting := [0]
  lhsNonContracting := [0]
  rhsNonContracting := [1]
  lhsBatch := []
  rhsBatch := []
  wf := dot_S400x128_S128x1_S400x1_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5_0) S400x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v5_1) S400x1.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v5_2) S400x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond4 i == 1#1) | 13 => fun i => !(k0_cond4 i == 1#1) | 14 => fun i => !(k0_cond4 i == 1#1) | ⟨_ + 15, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S10000x1 : Shape := ⟨2, ![10000, 1]⟩
abbrev S1x1 : Shape := ⟨2, ![1, 1]⟩
abbrev S10000 : Shape := ⟨1, ![10000]⟩

abbrev nBuf : Space → Nat
  | .hbm => 55
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x1, .f32⟩
  | .hbm, ⟨11, _⟩ => ⟨S1, .f32⟩
  | .hbm, ⟨12, _⟩ => ⟨S10000x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S1x128, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S1x128, .f32⟩
  | .hbm, ⟨30, _⟩ => ⟨S10000x128, .f32⟩
  | .hbm, ⟨31, _⟩ => ⟨S10000x128, .f32⟩
  | .hbm, ⟨32, _⟩ => ⟨S_, .f32⟩
  | .hbm, ⟨33, _⟩ => ⟨S10000x128, .f32⟩
  | .hbm, ⟨34, _⟩ => ⟨S10000x128, .f32⟩
  | .hbm, ⟨35, _⟩ => ⟨S10000x1, .f32⟩
  | .hbm, ⟨36, _⟩ => ⟨S1x1, .f32⟩
  | .hbm, ⟨37, _⟩ => ⟨S10000x1, .f32⟩
  | .hbm, ⟨38, _⟩ => ⟨S10000x1, .f32⟩
  | .hbm, ⟨39, _⟩ => ⟨S10000, .f32⟩
  | .hbm, ⟨40, _⟩ => ⟨S10000x1, .f32⟩
  | .hbm, ⟨41, _⟩ => ⟨S1x1, .f32⟩
  | .hbm, ⟨42, _⟩ => ⟨S10000x1, .f32⟩
  | .hbm, ⟨43, _⟩ => ⟨S10000x1, .f32⟩
  | .hbm, ⟨44, _⟩ => ⟨S10000, .f32⟩
  | .hbm, ⟨45, _⟩ => ⟨S10000, .f32⟩
  | .hbm, ⟨46, _⟩ => ⟨S10000, .f32⟩
  | .hbm, ⟨47, _⟩ => ⟨S_, .f32⟩
  | .hbm, ⟨48, _⟩ => ⟨S10000, .f32⟩
  | .hbm, ⟨49, _⟩ => ⟨S10000, .f32⟩
  | .hbm, ⟨50, _⟩ => ⟨S_, .f32⟩
  | .hbm, ⟨51, _⟩ => ⟨S10000, .f32⟩
  | .hbm, ⟨52, _⟩ => ⟨S10000, .f32⟩
  | .hbm, ⟨53, _⟩ => ⟨S_, .f32⟩
  | .hbm, ⟨54, _⟩ => ⟨S10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call2_cst : Ref sig .tc := ⟨.hbm, 32, rfl⟩
abbrev main_call2_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_cst_0 : Ref sig .tc := ⟨.hbm, 50, rfl⟩
abbrev main_v31 : Ref sig .tc := ⟨.hbm, 51, rfl⟩
abbrev main_v32 : Ref sig .tc := ⟨.hbm, 52, rfl⟩
abbrev main_cst_1 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S10000x1_S10000 : S10000x1.ShapeCasts S10000
  bcast_S_S10000 : S_.BroadcastsInDim S10000 (![] : Fin 0 → Fin S10000.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x1_S10000x1_1_0_0_1_n_n_wf : DotDims.WF S10000x128 S128x1 S10000x1 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.K.Runs.lean ====
/-
  The four ways the body runs, told apart by the grid point (phase, row block): the first point of phase 0 (the
  input transform x · W1 is computed into the first scratch), the later points of phase 0, the first point of phase 1
  (the transform h1 · W2 replaces it) and the later points of phase 1. The conditions of the body's four branches
  as it computes them, and where on the grid of 2 × 25 points each holds.
-/
import proofs.«161254_g33749853012156_cont_8to1_b_320_22_alg».proof.Proof.Gen.Kernel.Frame
import proofs.«161254_g33749853012156_cont_8to1_b_320_22_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch: phase 0 and row block 0. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch: phase 1 and row block 0. -/
abbrev cond2 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- The third branch: phase 0. -/
abbrev cond3 (i : grid0.Coords) : Prop := k0_cond3 i = 1#1
/-- The fourth branch: phase 1. -/
abbrev cond4 (i : grid0.Coords) : Prop := k0_cond4 i = 1#1

/-- Point t of the 50 is (phase t / 25, block t % 25): the first branch is taken at point 0 only, -/
theorem hcond1 : ∀ t : Fin cfg0.N, cond1 (grid0.coords t) ↔ t.val = 0 :=
  (by decide +kernel : ∀ t : Fin grid0.N, cond1 (grid0.coords t) ↔ t.val = 0)
/-- the second at point 25 only, -/
theorem hcond2 : ∀ t : Fin cfg0.N, cond2 (grid0.coords t) ↔ t.val = 25 :=
  (by decide +kernel : ∀ t : Fin grid0.N, cond2 (grid0.coords t) ↔ t.val = 25)
/-- the third throughout phase 0, -/
theorem hcond3 : ∀ t : Fin cfg0.N, cond3 (grid0.coords t) ↔ t.val < 25 :=
  (by decide +kernel : ∀ t : Fin grid0.N, cond3 (grid0.coords t) ↔ t.val < 25)
/-- the fourth throughout phase 1. -/
theorem hcond4 : ∀ t : Fin cfg0.N, cond4 (grid0.coords t) ↔ 25 ≤ t.val :=
  (by decide +kernel : ∀ t : Fin grid0.N, cond4 (grid0.coords t) ↔ 25 ≤ t.val)

/-- The two scratch operands: whole buffers of the kernel's own. -/
abbrev scS : Memref sig .tc .vmem S10000x128 .f32 := Memref.whole cc0_scratch0
abbrev scH : Memref sig .tc .vmem S10000x128 .f32 := Memref.whole cc0_scratch1

end Cert.Kernel.Hand

end
-- ==== Proof.K.Data.lean ====
/-
  What the kernel carries from point to point, named.

  The grid is 2 phases × 25 row blocks, walked in order: point t is (t / 25, t % 25). Phase 0 fills the first layer
  h1 = max (adj · (x · W1) + b1) 0, 400 rows per point, into the second scratch; phase 1 computes from it, 400 rows per
  point (row blocks in reverse order), the second layer and the two heads. The first scratch holds the transform the
  phase multiplies the adjacency by: x · W1 throughout phase 0, h1 · W2 throughout phase 1. Each value below is the body's
  own arithmetic (the payload terms) applied to the blocks the pipeline hands it, so it is stated at any float instance.
-/
import proofs.«161254_g33749853012156_cont_8to1_b_320_22_alg».proof.Proof.K.Runs
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- The first point of each phase. -/
def t0 : Fin cfg0.N := ⟨0, by rw [N50]; omega⟩
def t25 : Fin cfg0.N := ⟨25, by rw [N50]; omega⟩

/-- x · W1: what the first point stores into the first scratch. -/
def S1 (c : Dev nD) : Vec F S10000x128 .f32 := k0_pay1 (iblk m c 1 t0) (iblk m c 2 t0)

/-- The 400 rows of the first layer that point t of phase 0 computes. -/
def H1blk (c : Dev nD) (t : Fin cfg0.N) : Vec F S400x128 .f32 := k0_pay4 (iblk m c 0 t) (S1 m c) (iblk m c 3 t)

/-- The first layer whole: row r is row r % 400 of the block point r / 400 computes. -/
def Hfull (c : Dev nD) : Vec F S10000x128 .f32 := fun idx =>
  H1blk m c ⟨(idx 0).val / 400, by rw [N50]; have := ValueIdx.idx2_lt0 idx; omega⟩
    (ValueIdx.ix2 ⟨(idx 0).val % 400, Nat.mod_lt _ (by omega)⟩ ⟨(idx 1).val, ValueIdx.idx2_lt1 idx⟩)

/-- h1 · W2: what the first point of phase 1 stores into the first scratch. -/
def S2 (c : Dev nD) : Vec F S10000x128 .f32 := k0_pay2 (Hfull m c) (iblk m c 4 t25)

/-- What point t of phase 1 stores into the three output blocks. -/
def O12 (c : Dev nD) (t : Fin cfg0.N) : Vec F S400x128 .f32 := k0_pay5 (iblk m c 0 t) (S2 m c) (iblk m c 5 t)
def O13 (c : Dev nD) (t : Fin cfg0.N) : Vec F S400x1 .f32 :=
  k0_pay6 (iblk m c 0 t) (S2 m c) (iblk m c 5 t) (iblk m c 6 t) (iblk m c 7 t) (iblk m c 8 t) (iblk m c 9 t)
def O14 (c : Dev nD) (t : Fin cfg0.N) : Vec F S400x1 .f32 :=
  k0_pay7 (iblk m c 0 t) (S2 m c) (iblk m c 5 t) (iblk m c 10 t) (iblk m c 11 t)

/-- The first scratch after point n: the transform of the phase point n is in. -/
def Sat (c : Dev nD) (n : ℕ) : Vec F S10000x128 .f32 := if n < 25 then S1 m c else S2 m c

/-- The second scratch with its first 400·k rows filled: those rows are the first layer's; nothing is said of the rest. -/
def Hgood (c : Dev nD) (k : ℕ) (h : Vec F S10000x128 .f32) : Prop :=
  ∀ idx : S10000x128.Idx, (idx 0).val < 400 * k → h idx = Hfull m c idx

/-- Once all 25 blocks are in, the second scratch IS the first layer. -/
theorem Hgood_full (c : Dev nD) (k : ℕ) (hk : 25 ≤ k) (h : Vec F S10000x128 .f32) (hg : Hgood m c k h) : h = Hfull m c :=
  funext fun idx => hg idx (by have := ValueIdx.idx2_lt0 idx; omega)

/-- The invariant before position n: before the first point the scratch buffers hold anything; after point n - 1 the
    first holds that point's phase's transform and the second has its first 400 · min n 25 rows filled. -/
def Phi (c : Dev nD) : (n : ℕ) → n ≤ cfg0.N → sProp 𝕄
  | 0, _ => Pipeline.ΦA spec0 c
  | n + 1, _ => iprop(owns (c : Thread nD τ) scS fullShare (Sat m c n)
      ∗ (∃ h, ⌜Hgood m c (n + 1) h⌝ ∗ owns (c : Thread nD τ) scH fullShare h) ∗ (∃ r, prngReg c r))

theorem Phi_zero (c : Dev nD) (n : ℕ) (h : n ≤ cfg0.N) (hz : n = 0) : Phi m c n h = Pipeline.ΦA spec0 c := by
  subst hz; rfl
theorem Phi_succ (c : Dev nD) (n : ℕ) (hn : n + 1 ≤ cfg0.N) :
    Phi m c (n + 1) hn = iprop(owns (c : Thread nD τ) scS fullShare (Sat m c n)
      ∗ (∃ h, ⌜Hgood m c (n + 1) h⌝ ∗ owns (c : Thread nD τ) scH fullShare h) ∗ (∃ r, prngReg c r)) := rfl
theorem Phi_pos (c : Dev nD) (n : ℕ) (h : n ≤ cfg0.N) (hz : n ≠ 0) :
    Phi m c n h = iprop(owns (c : Thread nD τ) scS fullShare (Sat m c (n - 1))
      ∗ (∃ h, ⌜Hgood m c n h⌝ ∗ owns (c : Thread nD τ) scH fullShare h) ∗ (∃ r, prngReg c r)) := by
  cases n with
  | zero => exact absurd rfl hz
  | succ n => rfl

/-- The class invariant with the two scratch buffers as memrefs owned at some contents. -/
theorem PhiA_eq (c : Dev nD) :
    (Pipeline.ΦA spec0 c : sProp 𝕄)
      = iprop(iprop((∃ d, owns (c : Thread nD τ) scS fullShare d) ∗ (∃ d, owns (c : Thread nD τ) scH fullShare d)) ∗ (∃ r, prngReg c r)) := by
  unfold Pipeline.ΦA; rw [scopedRest0_eq]; simp only [scS, scH, owns_whole]; try rfl

/-- The proof data on core c: the arrays as the region finds them; after the body at point t each input's buffer at
    its block and the three outputs' at the phase-1 values; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => O12 m c t
    | ⟨13, _⟩ => O13 m c t
    | ⟨14, _⟩ => O14 m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = O12 m c t := by dsimp only [dats]
theorem after_13 (c : Dev nD) (t : Fin cfg0.N) : (dats m 0 c).after 13 t = O13 m c t := by dsimp only [dats]
theorem after_14 (c : Dev nD) (t : Fin cfg0.N) : (dats m 0 c).after 14 t = O14 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

end Cert.Kernel.Hand

end
-- ==== Proof.K.Step.lean ====
/-
  One point of phase 0 extends the filled part of the second scratch by 400 rows: the store covers rows
  400·t … 400·t + 399 with the block of the first layer that point computes, and leaves every other row as it was. And
  where on the grid the three output windows are idle (all of phase 0, where nothing is stored into them and nothing
  is written back) and live (all of phase 1).
-/
import proofs.«161254_g33749853012156_cont_8to1_b_320_22_alg».proof.Proof.K.Data
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The rows point t of phase 0 stores: from row 400·t. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-- The block function respects equal points and equal positions. -/
theorem H1blk_congr (c : Dev nD) {t t' : Fin cfg0.N} (ht : t = t') {x x' : S400x128.Idx} (hx : x = x') :
    H1blk m c t x = H1blk m c t' x' := by subst ht; subst hx; rfl

/-- The step: rows below 400·t filled and rows 400·t … 400·t + 399 stored with point t's block give rows below
    400·(t + 1) filled. -/
theorem Hgood_step (c : Dev nD) (t : Fin cfg0.N) (ht : t.val < 25) (h : Vec F S10000x128 .f32) (hg : Hgood m c t.val h)
    (v : View sig .tc .vmem S10000x128 .f32) (f : v.ty.Contents (Elt F)) (hf : v.read (Elt F) f = h)
    (inb : ∀ a, k0_off1 (grid0.coords t) a + S400x128.size a ≤ S10000x128.size a) :
    Hgood m c (t.val + 1) (v.read (Elt F) (v.writes (Elt F) f
      [(⟨Rect.unit (s := S10000x128) (k0_off1 (grid0.coords t)) S400x128.size inb, H1blk m c t⟩ : View.Piece (Elt F) S10000x128 .f32)])) := by
  intro idx hlt
  have h1 : (idx 1).val < 128 := ValueIdx.idx2_lt1 idx
  by_cases hrow : 400 * t.val ≤ (idx 0).val
  · have hx0 : (idx 0).val - 400 * t.val < 400 := by omega
    rw [View.read_writes_cons_rows_of_mem v f inb (H1blk m c t) [] idx
      (ValueIdx.ix2 (⟨(idx 0).val - 400 * t.val, hx0⟩ : Fin 400) (⟨(idx 1).val, h1⟩ : Fin 128)) (off1_eq t ht)
      (by show (idx 0).val = 400 * t.val + ((idx 0).val - 400 * t.val); omega) rfl]
    unfold Hfull
    refine H1blk_congr m c (Fin.ext (by show t.val = (idx 0).val / 400; omega)) ?_
    have e2 : (⟨(idx 0).val - 400 * t.val, hx0⟩ : Fin 400) = ⟨(idx 0).val % 400, Nat.mod_lt _ (by omega)⟩ :=
      Fin.ext (by show (idx 0).val - 400 * t.val = (idx 0).val % 400; omega)
    rw [e2]
  · rw [View.read_writes_cons_rows_of_not_mem v f inb (H1blk m c t) [] idx (off1_eq t ht) rfl (Or.inl (by omega))]
    show v.read (Elt F) f idx = _
    rw [hf]
    exact hg idx (by omega)

/-! ### The output windows' schedule -/
theorem idle_12 : ∀ t : Fin cfg0.N, t.val < 25 → cfg0.idle 12 (grid0.coords t) = true :=
  (by decide +kernel : ∀ t : Fin grid0.N, t.val < 25 → idle0 12 (grid0.coords t) = true)
theorem noflush_12 : ∀ t : Fin cfg0.N, t.val < 25 → (cfg0.win 12).flush t = false :=
  (by decide +kernel : ∀ t : Fin grid0.N, t.val < 25 → win0_12.flush t = false)
theorem live_12 : ∀ t : Fin cfg0.N, 25 ≤ t.val → cfg0.idle 12 (grid0.coords t) = false :=
  (by decide +kernel : ∀ t : Fin grid0.N, 25 ≤ t.val → idle0 12 (grid0.coords t) = false)
theorem idle_13 : ∀ t : Fin cfg0.N, t.val < 25 → cfg0.idle 13 (grid0.coords t) = true :=
  (by decide +kernel : ∀ t : Fin grid0.N, t.val < 25 → idle0 13 (grid0.coords t) = true)
theorem noflush_13 : ∀ t : Fin cfg0.N, t.val < 25 → (cfg0.win 13).flush t = false :=
  (by decide +kernel : ∀ t : Fin grid0.N, t.val < 25 → win0_13.flush t = false)
theorem live_13 : ∀ t : Fin cfg0.N, 25 ≤ t.val → cfg0.idle 13 (grid0.coords t) = false :=
  (by decide +kernel : ∀ t : Fin grid0.N, 25 ≤ t.val → idle0 13 (grid0.coords t) = false)
theorem idle_14 : ∀ t : Fin cfg0.N, t.val < 25 → cfg0.idle 14 (grid0.coords t) = true :=
  (by decide +kernel : ∀ t : Fin grid0.N, t.val < 25 → idle0 14 (grid0.coords t) = true)
theorem noflush_14 : ∀ t : Fin cfg0.N, t.val < 25 → (cfg0.win 14).flush t = false :=
  (by decide +kernel : ∀ t : Fin grid0.N, t.val < 25 → win0_14.flush t = false)
theorem live_14 : ∀ t : Fin cfg0.N, 25 ≤ t.val → cfg0.idle 14 (grid0.coords t) = false :=
  (by decide +kernel : ∀ t : Fin grid0.N, 25 ≤ t.val → idle0 14 (grid0.coords t) = false)

end Cert.Kernel.Hand

end
-- ==== Proof.K.RunA.lean ====
/-
  The body at the first point of phase 0: it computes the input transform x · W1 into the first scratch, then multiplies
  the first 400 rows of the adjacency by it, adds the bias, takes the maximum with zero and stores the result into rows
  0 … 399 of the second scratch, whose other rows it leaves as they were.
-/
import proofs.«161254_g33749853012156_cont_8to1_b_320_22_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run: the body from the buffers it reads, at their named contents, to the same buffers with each one it stores
    into overwritten by the pieces it stored (the lists the run finds). -/
noncomputable def runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : cond1 i) (hc2 : ¬cond2 i) (hc3 : cond3 i) (hc4 : ¬cond4 i)
    (x3 : Vec F S10000x128 .f32) (x4 : Vec F S128x128 .f32) (x2 : Vec F S400x10000 .f32) (x5 : Vec F S1x128 .f32) (xs18 : Vec F S10000x128 .f32) :
    Σ' (L17 : List (View.Piece (Elt F) S10000x128 .f32)), { L18 : List (View.Piece (Elt F) S10000x128 .f32) //
      ∀ (E : Set ℕ) (K : PUnit → sProp 𝕄),
        iprop(owns (c : Thread nD τ) arg3 fullShare x3
            ∗ owns (c : Thread nD τ) arg4 fullShare x4
            ∗ owns (c : Thread nD τ) arg2 fullShare x2
            ∗ owns (c : Thread nD τ) arg5 fullShare x5
            ∗ (∃ d, owns (c : Thread nD τ) arg17 fullShare d)
            ∗ owns (c : Thread nD τ) arg18 fullShare xs18
            ∗ (iprop(owns (c : Thread nD τ) arg3 fullShare x3
                ∗ owns (c : Thread nD τ) arg4 fullShare x4
                ∗ owns (c : Thread nD τ) arg2 fullShare x2
                ∗ owns (c : Thread nD τ) arg5 fullShare x5
                ∗ (∃ f, arg17.view.loc (c : Thread nD τ) ↦[arg17.view.set]{fullShare} arg17.view.writes (Elt F) f L17)
                ∗ (arg18.view.loc (c : Thread nD τ) ↦[arg18.view.set]{fullShare} arg18.view.writes (Elt F) (harg18.unread xs18) L18)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0__body_eq_skeleton]; unfold cc0__body_skel
    unfold owns
    iintro ⟨⟨%f3, %hf3, H3⟩, ⟨%f4, %hf4, H4⟩, ⟨%f2, %hf2, H2⟩, ⟨%f5, %hf5, H5⟩, ⟨%d17, %f17, -, H17⟩, ⟨%f18, %hf18, H18⟩, Hk⟩
    obtain rfl := harg3.eq_unread hf3; obtain rfl := harg4.eq_unread hf4; obtain rfl := harg2.eq_unread hf2; obtain rfl := harg5.eq_unread hf5; obtain rfl := harg18.eq_unread hf18
    sl_exec (disch := first | exact hc1 | exact hc2 | exact hc3 | exact hc4)
    sl_step
    iapply Hk
    isplitl [H3]
    · iexists _; isplitr; · ipureintro; exact harg3.read_unread _
      iexact H3
    isplitl [H4]
    · iexists _; isplitr; · ipureintro; exact harg4.read_unread _
      iexact H4
    isplitl [H2]
    · iexists _; isplitr; · ipureintro; exact harg2.read_unread _
      iexact H2
    isplitl [H5]
    · iexists _; isplitr; · ipureintro; exact harg5.read_unread _
      iexact H5
    isplitl [H17]
    · iexists _; iexact H17
    iexact H18

end Cert.Kernel.Hand

end
-- ==== Proof.K.RunB.lean ====
/-
  The body at a later point of phase 0 (row block i > 0): it multiplies the point's 400 rows of the adjacency by the
  transform held in the first scratch, adds the bias, takes the maximum with zero, and stores the 400 × 128 result into
  rows 400·i … 400·i + 399 of the second scratch, whose other rows it leaves as they were.
-/
import proofs.«161254_g33749853012156_cont_8to1_b_320_22_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run: from the adjacency block x2, the bias row x5, the first scratch at xs17 and the second at xs18, the body
    ends with those three as they were and the second scratch at xs18 overwritten by the pieces it stored. -/
noncomputable def runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : cond3 i) (hc4 : ¬cond4 i)
    (x2 : Vec F S400x10000 .f32) (x5 : Vec F S1x128 .f32) (xs17 : Vec F S10000x128 .f32) (xs18 : Vec F S10000x128 .f32) :
    { L18 : List (View.Piece (Elt F) S10000x128 .f32) //
      ∀ (E : Set ℕ) (K : PUnit → sProp 𝕄),
        iprop(owns (c : Thread nD τ) arg2 fullShare x2 ∗ owns (c : Thread nD τ) arg5 fullShare x5
            ∗ owns (c : Thread nD τ) arg17 fullShare xs17 ∗ owns (c : Thread nD τ) arg18 fullShare xs18
            ∗ (iprop(owns (c : Thread nD τ) arg2 fullShare x2 ∗ owns (c : Thread nD τ) arg5 fullShare x5
                ∗ owns (c : Thread nD τ) arg17 fullShare xs17
                ∗ (arg18.view.loc (c : Thread nD τ) ↦[arg18.view.set]{fullShare} arg18.view.writes (Elt F) (harg18.unread xs18) L18)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0__body_eq_skeleton]; unfold cc0__body_skel
    unfold owns
    iintro ⟨⟨%f2, %hf2, H2⟩, ⟨%f5, %hf5, H5⟩, ⟨%f17, %hf17, H17⟩, ⟨%f18, %hf18, H18⟩, Hk⟩
    obtain rfl := harg2.eq_unread hf2; obtain rfl := harg5.eq_unread hf5
    obtain rfl := harg17.eq_unread hf17; obtain rfl := harg18.eq_unread hf18
    sl_exec (disch := first | exact hc1 | exact hc2 | exact hc3 | exact hc4)
    sl_step
    iapply Hk
    isplitl [H2]
    · iexists _; isplitr; · ipureintro; exact harg2.read_unread _
      iexact H2
    isplitl [H5]
    · iexists _; isplitr; · ipureintro; exact harg5.read_unread _
      iexact H5
    isplitl [H17]
    · iexists _; isplitr; · ipureintro; exact harg17.read_unread _
      iexact H17
    iexact H18

end Cert.Kernel.Hand

end
-- ==== Proof.K.RunC.lean ====
/-
  The body at the first point of phase 1: it replaces the first scratch by the transform h1 · W2 of the first layer held
  in the second scratch, then computes the point's 400 rows of the second layer and of the two heads and stores them
  into the three output blocks.
-/
import proofs.«161254_g33749853012156_cont_8to1_b_320_22_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run: the body from the buffers it reads, at their named contents, to the same buffers with each one it stores
    into overwritten by the pieces it stored (the lists the run finds). -/
noncomputable def runC (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i)
    (xs18 : Vec F S10000x128 .f32) (x6 : Vec F S128x128 .f32) (x2 : Vec F S400x10000 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    Σ' (L17 : List (View.Piece (Elt F) S10000x128 .f32)), Σ' (L14 : List (View.Piece (Elt F) S400x128 .f32)), Σ' (L15 : List (View.Piece (Elt F) S400x1 .f32)), { L16 : List (View.Piece (Elt F) S400x1 .f32) //
      ∀ (E : Set ℕ) (K : PUnit → sProp 𝕄),
        iprop(owns (c : Thread nD τ) arg18 fullShare xs18
            ∗ owns (c : Thread nD τ) arg6 fullShare x6
            ∗ owns (c : Thread nD τ) arg2 fullShare x2
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ (∃ d, owns (c : Thread nD τ) arg17 fullShare d)
            ∗ (∃ d, owns (c : Thread nD τ) arg14 fullShare d)
            ∗ (∃ d, owns (c : Thread nD τ) arg15 fullShare d)
            ∗ (∃ d, owns (c : Thread nD τ) arg16 fullShare d)
            ∗ (iprop(owns (c : Thread nD τ) arg18 fullShare xs18
                ∗ owns (c : Thread nD τ) arg6 fullShare x6
                ∗ owns (c : Thread nD τ) arg2 fullShare x2
                ∗ owns (c : Thread nD τ) arg7 fullShare x7
                ∗ owns (c : Thread nD τ) arg8 fullShare x8
                ∗ owns (c : Thread nD τ) arg9 fullShare x9
                ∗ owns (c : Thread nD τ) arg10 fullShare x10
                ∗ owns (c : Thread nD τ) arg11 fullShare x11
                ∗ owns (c : Thread nD τ) arg12 fullShare x12
                ∗ owns (c : Thread nD τ) arg13 fullShare x13
                ∗ (∃ f, arg17.view.loc (c : Thread nD τ) ↦[arg17.view.set]{fullShare} arg17.view.writes (Elt F) f L17)
                ∗ (∃ f, arg14.view.loc (c : Thread nD τ) ↦[arg14.view.set]{fullShare} arg14.view.writes (Elt F) f L14)
                ∗ (∃ f, arg15.view.loc (c : Thread nD τ) ↦[arg15.view.set]{fullShare} arg15.view.writes (Elt F) f L15)
                ∗ (∃ f, arg16.view.loc (c : Thread nD τ) ↦[arg16.view.set]{fullShare} arg16.view.writes (Elt F) f L16)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0__body_eq_skeleton]; unfold cc0__body_skel
    unfold owns
    iintro ⟨⟨%f18, %hf18, H18⟩, ⟨%f6, %hf6, H6⟩, ⟨%f2, %hf2, H2⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d17, %f17, -, H17⟩, ⟨%d14, %f14, -, H14⟩, ⟨%d15, %f15, -, H15⟩, ⟨%d16, %f16, -, H16⟩, Hk⟩
    obtain rfl := harg18.eq_unread hf18; obtain rfl := harg6.eq_unread hf6; obtain rfl := harg2.eq_unread hf2; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | exact hc1 | exact hc2 | exact hc3 | exact hc4)
    sl_step
    iapply Hk
    isplitl [H18]
    · iexists _; isplitr; · ipureintro; exact harg18.read_unread _
      iexact H18
    isplitl [H6]
    · iexists _; isplitr; · ipureintro; exact harg6.read_unread _
      iexact H6
    isplitl [H2]
    · iexists _; isplitr; · ipureintro; exact harg2.read_unread _
      iexact H2
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H17]
    · iexists _; iexact H17
    isplitl [H14]
    · iexists _; iexact H14
    isplitl [H15]
    · iexists _; iexact H15
    iexists _; iexact H16

end Cert.Kernel.Hand

end
-- ==== Proof.K.RunD.lean ====
/-
  The body at a later point of phase 1: from the transform held in the first scratch it computes the point's 400 rows
  of the second layer and of the two heads and stores them into the three output blocks.
-/
import proofs.«161254_g33749853012156_cont_8to1_b_320_22_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run: the body from the buffers it reads, at their named contents, to the same buffers with each one it stores
    into overwritten by the pieces it stored (the lists the run finds). -/
noncomputable def runD (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : ¬cond3 i) (hc4 : cond4 i)
    (x2 : Vec F S400x10000 .f32) (xs17 : Vec F S10000x128 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    Σ' (L14 : List (View.Piece (Elt F) S400x128 .f32)), Σ' (L15 : List (View.Piece (Elt F) S400x1 .f32)), { L16 : List (View.Piece (Elt F) S400x1 .f32) //
      ∀ (E : Set ℕ) (K : PUnit → sProp 𝕄),
        iprop(owns (c : Thread nD τ) arg2 fullShare x2
            ∗ owns (c : Thread nD τ) arg17 fullShare xs17
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ (∃ d, owns (c : Thread nD τ) arg14 fullShare d)
            ∗ (∃ d, owns (c : Thread nD τ) arg15 fullShare d)
            ∗ (∃ d, owns (c : Thread nD τ) arg16 fullShare d)
            ∗ (iprop(owns (c : Thread nD τ) arg2 fullShare x2
                ∗ owns (c : Thread nD τ) arg17 fullShare xs17
                ∗ owns (c : Thread nD τ) arg7 fullShare x7
                ∗ owns (c : Thread nD τ) arg8 fullShare x8
                ∗ owns (c : Thread nD τ) arg9 fullShare x9
                ∗ owns (c : Thread nD τ) arg10 fullShare x10
                ∗ owns (c : Thread nD τ) arg11 fullShare x11
                ∗ owns (c : Thread nD τ) arg12 fullShare x12
                ∗ owns (c : Thread nD τ) arg13 fullShare x13
                ∗ (∃ f, arg14.view.loc (c : Thread nD τ) ↦[arg14.view.set]{fullShare} arg14.view.writes (Elt F) f L14)
                ∗ (∃ f, arg15.view.loc (c : Thread nD τ) ↦[arg15.view.set]{fullShare} arg15.view.writes (Elt F) f L15)
                ∗ (∃ f, arg16.view.loc (c : Thread nD τ) ↦[arg16.view.set]{fullShare} arg16.view.writes (Elt F) f L16)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0__body_eq_skeleton]; unfold cc0__body_skel
    unfold owns
    iintro ⟨⟨%f2, %hf2, H2⟩, ⟨%f17, %hf17, H17⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
    obtain rfl := harg2.eq_unread hf2; obtain rfl := harg17.eq_unread hf17; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | exact hc1 | exact hc2 | exact hc3 | exact hc4)
    sl_step
    iapply Hk
    isplitl [H2]
    · iexists _; isplitr; · ipureintro; exact harg2.read_unread _
      iexact H2
    isplitl [H17]
    · iexists _; isplitr; · ipureintro; exact harg17.read_unread _
      iexact H17
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; iexact H14
    isplitl [H15]
    · iexists _; iexact H15
    iexists _; iexact H16

end Cert.Kernel.Hand

end
-- ==== Proof.K.Pieces.lean ====
/-
  What the four runs stored, read off: each list the run found is ONE unit-stride piece whose payload is the body's
  arithmetic of the values it was handed. A value loaded whole from a buffer is that buffer's contents, and the first
  scratch read back right after it was stored whole is what was stored.
-/
import proofs.«161254_g33749853012156_cont_8to1_b_320_22_alg».proof.Proof.K.RunA
import proofs.«161254_g33749853012156_cont_8to1_b_320_22_alg».proof.Proof.K.RunB
import proofs.«161254_g33749853012156_cont_8to1_b_320_22_alg».proof.Proof.K.RunC
import proofs.«161254_g33749853012156_cont_8to1_b_320_22_alg».proof.Proof.K.RunD
import Idealize.ShloMosaic.Lib.Pipeline.Value
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as a function. -/
theorem hz2 : (![0, 0] : Fin 2 → ℕ) = fun _ => 0 := by funext a; fin_cases a <;> rfl

/-- One store through the whole-buffer rectangle leaves its payload, whatever the buffer held. -/
theorem read_whole {sp : Space} {S : Shape} {e : EltTy} (v : View sig .tc sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩)]
  exact View.canon_unit_zero h inb w

theorem runA_L17 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : cond1 i) (hc2 : ¬cond2 i) (hc3 : cond3 i) (hc4 : ¬cond4 i) (x3 : Vec F S10000x128 .f32) (x4 : Vec F S128x128 .f32) (x2 : Vec F S400x10000 .f32) (x5 : Vec F S1x128 .f32) (xs18 : Vec F S10000x128 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x3 x4 x2 x5 xs18).1 = [⟨Rect.unit (s := S10000x128) ![0, 0] S10000x128.size inb_S10000x128_S10000x128_0_0, k0_pay1 x3 x4⟩] := by
  unfold runA; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]

theorem runA_L18 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : cond1 i) (hc2 : ¬cond2 i) (hc3 : cond3 i) (hc4 : ¬cond4 i) (x3 : Vec F S10000x128 .f32) (x4 : Vec F S128x128 .f32) (x2 : Vec F S400x10000 .f32) (x5 : Vec F S1x128 .f32) (xs18 : Vec F S10000x128 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x3 x4 x2 x5 xs18).2.1 = [⟨Rect.unit (s := S10000x128) (k0_off1 i) S400x128.size (k0_off1_inb i hc3), k0_pay4 x2 (k0_pay1 x3 x4) x5⟩] := by
  unfold runA; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]
theorem runB_L18 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : cond3 i) (hc4 : ¬cond4 i) (x2 : Vec F S400x10000 .f32) (x5 : Vec F S1x128 .f32) (xs17 : Vec F S10000x128 .f32) (xs18 : Vec F S10000x128 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x5 xs17 xs18).1 = [⟨Rect.unit (s := S10000x128) (k0_off1 i) S400x128.size (k0_off1_inb i hc3), k0_pay4 x2 xs17 x5⟩] := by
  unfold runB; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]
theorem runC_L17 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (xs18 : Vec F S10000x128 .f32) (x6 : Vec F S128x128 .f32) (x2 : Vec F S400x10000 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 xs18 x6 x2 x7 x8 x9 x10 x11 x12 x13).1 = [⟨Rect.unit (s := S10000x128) ![0, 0] S10000x128.size inb_S10000x128_S10000x128_0_0, k0_pay2 xs18 x6⟩] := by
  unfold runC; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]

theorem runC_L14 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (xs18 : Vec F S10000x128 .f32) (x6 : Vec F S128x128 .f32) (x2 : Vec F S400x10000 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 xs18 x6 x2 x7 x8 x9 x10 x11 x12 x13).2.1 = [⟨Rect.unit (s := S400x128) ![0, 0] S400x128.size inb_S400x128_S400x128_0_0, k0_pay5 x2 (k0_pay2 xs18 x6) x7⟩] := by
  unfold runC; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]

theorem runC_L15 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (xs18 : Vec F S10000x128 .f32) (x6 : Vec F S128x128 .f32) (x2 : Vec F S400x10000 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 xs18 x6 x2 x7 x8 x9 x10 x11 x12 x13).2.2.1 = [⟨Rect.unit (s := S400x1) ![0, 0] S400x1.size inb_S400x1_S400x1_0_0, k0_pay6 x2 (k0_pay2 xs18 x6) x7 x8 x9 x10 x11⟩] := by
  unfold runC; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]

theorem runC_L16 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (xs18 : Vec F S10000x128 .f32) (x6 : Vec F S128x128 .f32) (x2 : Vec F S400x10000 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 xs18 x6 x2 x7 x8 x9 x10 x11 x12 x13).2.2.2.1 = [⟨Rect.unit (s := S400x1) ![0, 0] S400x1.size inb_S400x1_S400x1_0_0, k0_pay7 x2 (k0_pay2 xs18 x6) x7 x12 x13⟩] := by
  unfold runC; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]

theorem runD_L14 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : ¬cond3 i) (hc4 : cond4 i) (x2 : Vec F S400x10000 .f32) (xs17 : Vec F S10000x128 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 xs17 x7 x8 x9 x10 x11 x12 x13).1 = [⟨Rect.unit (s := S400x128) ![0, 0] S400x128.size inb_S400x128_S400x128_0_0, k0_pay5 x2 xs17 x7⟩] := by
  unfold runD; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]

theorem runD_L15 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : ¬cond3 i) (hc4 : cond4 i) (x2 : Vec F S400x10000 .f32) (xs17 : Vec F S10000x128 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 xs17 x7 x8 x9 x10 x11 x12 x13).2.1 = [⟨Rect.unit (s := S400x1) ![0, 0] S400x1.size inb_S400x1_S400x1_0_0, k0_pay6 x2 xs17 x7 x8 x9 x10 x11⟩] := by
  unfold runD; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]

theorem runD_L16 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : ¬cond3 i) (hc4 : cond4 i) (x2 : Vec F S400x10000 .f32) (xs17 : Vec F S10000x128 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 xs17 x7 x8 x9 x10 x11 x12 x13).2.2.1 = [⟨Rect.unit (s := S400x1) ![0, 0] S400x1.size inb_S400x1_S400x1_0_0, k0_pay7 x2 xs17 x7 x12 x13⟩] := by
  unfold runD; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]

end Cert.Kernel.Hand

end
-- ==== Proof.K.BodyCommon.lean ====
/-
  The body obligation's two sides at a point, written out window by window: what the body is called with (the
  invariant, nothing owed, each window's current staging buffer at what it holds) and what it returns.
-/
import proofs.«161254_g33749853012156_cont_8to1_b_320_22_alg».proof.Proof.K.Step
import proofs.«161254_g33749853012156_cont_8to1_b_320_22_alg».proof.Proof.K.Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Each window's current staging memref at point t, as the pipeline passes it to the body. -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)
abbrev ms10 (t : Fin cfg0.N) := win0_10.stage (cfg0.slots t 10)
abbrev hs10 (t : Fin cfg0.N) : (ms10 t).IsWhole := hstage0_10 ((cfg0.slots t 10).cast nbuf0_10)
abbrev ms11 (t : Fin cfg0.N) := win0_11.stage (cfg0.slots t 11)
abbrev hs11 (t : Fin cfg0.N) : (ms11 t).IsWhole := hstage0_11 ((cfg0.slots t 11).cast nbuf0_11)
abbrev ms12 (t : Fin cfg0.N) := win0_12.stage (cfg0.slots t 12)
abbrev hs12 (t : Fin cfg0.N) : (ms12 t).IsWhole := hstage0_12 ((cfg0.slots t 12).cast nbuf0_12)
abbrev ms13 (t : Fin cfg0.N) := win0_13.stage (cfg0.slots t 13)
abbrev hs13 (t : Fin cfg0.N) : (ms13 t).IsWhole := hstage0_13 ((cfg0.slots t 13).cast nbuf0_13)
abbrev ms14 (t : Fin cfg0.N) := win0_14.stage (cfg0.slots t 14)
abbrev hs14 (t : Fin cfg0.N) : (ms14 t).IsWhole := hstage0_14 ((cfg0.slots t 14).cast nbuf0_14)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- The same two sides with the inputs' buffers at their blocks (an input's buffer holds its block at every point,
    fetched there or not, and the body leaves it so). -/
def bodyPre' (c : Dev nD) (t : Fin cfg0.N) : sProp 𝕄 :=
  iprop(Phi m c t.val (Nat.le_of_lt t.isLt) ∗ (dats m 0 c).owesAt () t.castSucc
    ∗ (∃ d : (cfg0.win 0).block.Idx → Elt F (cfg0.win 0).elt, owns (c : Thread nD τ) (ms0 t) fullShare (iblk m c 0 t))
    ∗ (∃ d : (cfg0.win 1).block.Idx → Elt F (cfg0.win 1).elt, owns (c : Thread nD τ) (ms1 t) fullShare (iblk m c 1 t))
    ∗ (∃ d : (cfg0.win 2).block.Idx → Elt F (cfg0.win 2).elt, owns (c : Thread nD τ) (ms2 t) fullShare (iblk m c 2 t))
    ∗ (∃ d : (cfg0.win 3).block.Idx → Elt F (cfg0.win 3).elt, owns (c : Thread nD τ) (ms3 t) fullShare (iblk m c 3 t))
    ∗ (∃ d : (cfg0.win 4).block.Idx → Elt F (cfg0.win 4).elt, owns (c : Thread nD τ) (ms4 t) fullShare (iblk m c 4 t))
    ∗ (∃ d : (cfg0.win 5).block.Idx → Elt F (cfg0.win 5).elt, owns (c : Thread nD τ) (ms5 t) fullShare (iblk m c 5 t))
    ∗ (∃ d : (cfg0.win 6).block.Idx → Elt F (cfg0.win 6).elt, owns (c : Thread nD τ) (ms6 t) fullShare (iblk m c 6 t))
    ∗ (∃ d : (cfg0.win 7).block.Idx → Elt F (cfg0.win 7).elt, owns (c : Thread nD τ) (ms7 t) fullShare (iblk m c 7 t))
    ∗ (∃ d : (cfg0.win 8).block.Idx → Elt F (cfg0.win 8).elt, owns (c : Thread nD τ) (ms8 t) fullShare (iblk m c 8 t))
    ∗ (∃ d : (cfg0.win 9).block.Idx → Elt F (cfg0.win 9).elt, owns (c : Thread nD τ) (ms9 t) fullShare (iblk m c 9 t))
    ∗ (∃ d : (cfg0.win 10).block.Idx → Elt F (cfg0.win 10).elt, owns (c : Thread nD τ) (ms10 t) fullShare (iblk m c 10 t))
    ∗ (∃ d : (cfg0.win 11).block.Idx → Elt F (cfg0.win 11).elt, owns (c : Thread nD τ) (ms11 t) fullShare (iblk m c 11 t))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

def bodyPost' (c : Dev nD) (t : Fin cfg0.N) : sProp 𝕄 :=
  iprop(Phi m c (t.val + 1) t.isLt ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare (iblk m c 6 t)
    ∗ owns (c : Thread nD τ) (ms7 t) fullShare (iblk m c 7 t)
    ∗ owns (c : Thread nD τ) (ms8 t) fullShare (iblk m c 8 t)
    ∗ owns (c : Thread nD τ) (ms9 t) fullShare (iblk m c 9 t)
    ∗ owns (c : Thread nD τ) (ms10 t) fullShare (iblk m c 10 t)
    ∗ owns (c : Thread nD τ) (ms11 t) fullShare (iblk m c 11 t)
    ∗ (dats m 0 c).leavesExact 12 t
    ∗ (dats m 0 c).leavesExact 13 t
    ∗ (dats m 0 c).leavesExact 14 t)

theorem bodyPre_eq (c : Dev nD) (t : Fin cfg0.N) : bodyPre m c t = bodyPre' m c t := by
  unfold bodyPre bodyPre'
  simp only [before_0, before_1, before_2, before_3, before_4, before_5, before_6, before_7, before_8, before_9, before_10, before_11]
  rw [Phi_castSucc]

theorem bodyPost_eq (c : Dev nD) (t : Fin cfg0.N) : bodyPost m c t = bodyPost' m c t := by
  unfold bodyPost bodyPost'
  rw [show (dats m 0 c).owesAt () t.succ = (dats m 0 c).owesAt () t.castSucc from rfl]
  rw [show (dats m 0 c).Φ t.succ = Phi m c (t.val + 1) t.isLt from rfl]
  rw [show (dats m 0 c).leavesExact 0 t = owns (c : Thread nD τ) (ms0 t) fullShare (iblk m c 0 t) from by
    unfold Dat.leavesExact; rw [show cfg0.idle 0 (grid0.coords t) = false from rfl, after_0]]
  rw [show (dats m 0 c).leavesExact 1 t = owns (c : Thread nD τ) (ms1 t) fullShare (iblk m c 1 t) from by
    unfold Dat.leavesExact; rw [show cfg0.idle 1 (grid0.coords t) = false from rfl, after_1]]
  rw [show (dats m 0 c).leavesExact 2 t = owns (c : Thread nD τ) (ms2 t) fullShare (iblk m c 2 t) from by
    unfold Dat.leavesExact; rw [show cfg0.idle 2 (grid0.coords t) = false from rfl, after_2]]
  rw [show (dats m 0 c).leavesExact 3 t = owns (c : Thread nD τ) (ms3 t) fullShare (iblk m c 3 t) from by
    unfold Dat.leavesExact; rw [show cfg0.idle 3 (grid0.coords t) = false from rfl, after_3]]
  rw [show (dats m 0 c).leavesExact 4 t = owns (c : Thread nD τ) (ms4 t) fullShare (iblk m c 4 t) from by
    unfold Dat.leavesExact; rw [show cfg0.idle 4 (grid0.coords t) = false from rfl, after_4]]
  rw [show (dats m 0 c).leavesExact 5 t = owns (c : Thread nD τ) (ms5 t) fullShare (iblk m c 5 t) from by
    unfold Dat.leavesExact; rw [show cfg0.idle 5 (grid0.coords t) = false from rfl, after_5]]
  rw [show (dats m 0 c).leavesExact 6 t = owns (c : Thread nD τ) (ms6 t) fullShare (iblk m c 6 t) from by
    unfold Dat.leavesExact; rw [show cfg0.idle 6 (grid0.coords t) = false from rfl, after_6]]
  rw [show (dats m 0 c).leavesExact 7 t = owns (c : Thread nD τ) (ms7 t) fullShare (iblk m c 7 t) from by
    unfold Dat.leavesExact; rw [show cfg0.idle 7 (grid0.coords t) = false from rfl, after_7]]
  rw [show (dats m 0 c).leavesExact 8 t = owns (c : Thread nD τ) (ms8 t) fullShare (iblk m c 8 t) from by
    unfold Dat.leavesExact; rw [show cfg0.idle 8 (grid0.coords t) = false from rfl, after_8]]
  rw [show (dats m 0 c).leavesExact 9 t = owns (c : Thread nD τ) (ms9 t) fullShare (iblk m c 9 t) from by
    unfold Dat.leavesExact; rw [show cfg0.idle 9 (grid0.coords t) = false from rfl, after_9]]
  rw [show (dats m 0 c).leavesExact 10 t = owns (c : Thread nD τ) (ms10 t) fullShare (iblk m c 10 t) from by
    unfold Dat.leavesExact; rw [show cfg0.idle 10 (grid0.coords t) = false from rfl, after_10]]
  rw [show (dats m 0 c).leavesExact 11 t = owns (c : Thread nD τ) (ms11 t) fullShare (iblk m c 11 t) from by
    unfold Dat.leavesExact; rw [show cfg0.idle 11 (grid0.coords t) = false from rfl, after_11]]

end Cert.Kernel.Hand

end
-- ==== Proof.K.SoundA.lean ====
/-
  The body obligation at the first point (t = 0): both scratch buffers hold anything; the run stores x · W1 into the
  first and the first 400 rows of the first layer into the second, which comes back with 400 rows filled; the outputs,
  idle here, go back untouched.
-/
import proofs.«161254_g33749853012156_cont_8to1_b_320_22_alg».proof.Proof.K.BodyCommon

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_A (c : Dev nD) (t : Fin cfg0.N) (hz : t.val = 0) :
    bodyPre' m c t ⊢ wp frame (wpE (defs₀ (F := F)) Variants.none c none) Set.univ (bodyAt0 t) (fun _ => bodyPost' m c t) := by
  have ht : t.val < 25 := by omega
  have et : t = t0 := Fin.ext hz
  unfold bodyPre' bodyPost' bodyAt0
  rw [Dat.leavesExact_idle (dats m 0 c) 12 t (idle_12 t ht) (noflush_12 t ht)]
  rw [Dat.leavesExact_idle (dats m 0 c) 13 t (idle_13 t ht) (noflush_13 t ht)]
  rw [Dat.leavesExact_idle (dats m 0 c) 14 t (idle_14 t ht) (noflush_14 t ht)]
  rw [Phi_zero m c _ _ hz, PhiA_eq, Phi_succ]
  have hS' : Sat m c t.val = Hand.S1 m c := if_pos ht
  rw [hS']
  have hc1 : cond1 (grid0.coords t) := (hcond1 t).mpr (by omega)
  have hc2 : ¬cond2 (grid0.coords t) := fun h => by have := (hcond2 t).mp h; omega
  have hc3 : cond3 (grid0.coords t) := (hcond3 t).mpr (by omega)
  have hc4 : ¬cond4 (grid0.coords t) := fun h => by have := (hcond4 t).mp h; omega
  iintro ⟨⟨⟨⟨%d17, HS⟩, ⟨%d18, HH⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have hg0 : Hgood m c t.val d18 := fun idx h => by rw [hz] at h; omega
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scS (Memref.isWhole_whole _) scH (Memref.isWhole_whole _) hc1 hc2 hc3 hc4 (iblk m c 1 t) (iblk m c 2 t) (iblk m c 0 t) (iblk m c 3 t) d18).2.2 Set.univ _)
  isplitl [H1]; · iexact H1
  isplitl [H2]; · iexact H2
  isplitl [H0]; · iexact H0
  isplitl [H3]; · iexact H3
  isplitl [HS]; · iexists d17; iexact HS
  isplitl [HH]; · iexact HH
  iintro ⟨H1, H2, H0, H3, ⟨%f17, HS⟩, HH⟩
  isplitl [HS HH Hg]
  · isplitl [HS]
    · unfold owns; iexists _; isplitr
      swap; · iexact HS
      ipureintro; rw [runA_L17, read_whole _ _ hz2]; subst et; rfl
    isplitl [HH]
    · iexists (scH.view.read (Elt F) (scH.view.writes (Elt F) ((Memref.isWhole_whole _ : scH.IsWhole).unread d18) (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scS (Memref.isWhole_whole _) scH (Memref.isWhole_whole _) hc1 hc2 hc3 hc4 (iblk m c 1 t) (iblk m c 2 t) (iblk m c 0 t) (iblk m c 3 t) d18).2.1))
      isplitr
      · ipureintro
        rw [runA_L18]
        have := Hgood_step m c t ht d18 hg0 scH.view _ (Memref.IsWhole.read_unread (Memref.isWhole_whole _ : scH.IsWhole) d18) (k0_off1_inb (grid0.coords t) hc3)
        subst et
        exact this
      · unfold owns; iexists _; isplitr
        swap; · iexact HH
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d12; iexact H12
  isplitl [H13]; · iexists d13; iexact H13
  iexists d14; iexact H14

end Cert.Kernel.Hand

end
-- ==== Proof.K.SoundB.lean ====
/-
  The body obligation at a later point of phase 0 (0 < t < 25): the invariant hands the run the first scratch at x · W1
  and the second with its first 400·t rows filled; the run stores point t's block of the first layer into rows
  400·t …, so the second scratch comes back with 400·(t + 1) rows filled; the outputs, idle here, go back untouched.
-/
import proofs.«161254_g33749853012156_cont_8to1_b_320_22_alg».proof.Proof.K.BodyCommon

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_B (c : Dev nD) (t : Fin cfg0.N) (hz : t.val ≠ 0) (ht : t.val < 25) :
    bodyPre' m c t ⊢ wp frame (wpE (defs₀ (F := F)) Variants.none c none) Set.univ (bodyAt0 t) (fun _ => bodyPost' m c t) := by
  unfold bodyPre' bodyPost' bodyAt0
  rw [Dat.leavesExact_idle (dats m 0 c) 12 t (idle_12 t ht) (noflush_12 t ht)]
  rw [Dat.leavesExact_idle (dats m 0 c) 13 t (idle_13 t ht) (noflush_13 t ht)]
  rw [Dat.leavesExact_idle (dats m 0 c) 14 t (idle_14 t ht) (noflush_14 t ht)]
  rw [Phi_pos m c _ _ hz, Phi_succ]
  have hS : Sat m c (t.val - 1) = Hand.S1 m c := if_pos (by omega)
  have hS' : Sat m c t.val = Hand.S1 m c := if_pos ht
  rw [hS, hS']
  have hc1 : ¬cond1 (grid0.coords t) := fun h => hz ((hcond1 t).mp h)
  have hc2 : ¬cond2 (grid0.coords t) := fun h => by have := (hcond2 t).mp h; omega
  have hc3 : cond3 (grid0.coords t) := (hcond3 t).mpr ht
  have hc4 : ¬cond4 (grid0.coords t) := fun h => by have := (hcond4 t).mp h; omega
  iintro ⟨⟨HS, ⟨%h, %hg, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scS (Memref.isWhole_whole _) scH (Memref.isWhole_whole _) hc1 hc2 hc3 hc4 (iblk m c 0 t) (iblk m c 3 t) (Hand.S1 m c) h).2 Set.univ _)
  isplitl [H0]; · iexact H0
  isplitl [H3]; · iexact H3
  isplitl [HS]; · iexact HS
  isplitl [HH]; · iexact HH
  iintro ⟨H0, H3, HS, HH⟩
  isplitl [HS HH Hg]
  · isplitl [HS]; · iexact HS
    isplitl [HH]
    · iexists (scH.view.read (Elt F) (scH.view.writes (Elt F) ((Memref.isWhole_whole _ : scH.IsWhole).unread h)
        (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scS (Memref.isWhole_whole _) scH (Memref.isWhole_whole _) hc1 hc2 hc3 hc4 (iblk m c 0 t) (iblk m c 3 t) (Hand.S1 m c) h).1))
      isplitr
      · ipureintro
        rw [runB_L18]
        exact Hgood_step m c t ht h hg scH.view _ (Memref.IsWhole.read_unread _ h) _
      · unfold owns; iexists _; isplitr
        swap; · iexact HH
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d12; iexact H12
  isplitl [H13]; · iexists d13; iexact H13
  iexists d14; iexact H14

end Cert.Kernel.Hand

end
-- ==== Proof.K.SoundC.lean ====
/-
  The body obligation at the first point of phase 1 (t = 25): all 25 blocks are in, so the second scratch IS the first
  layer; the run replaces the first scratch by h1 · W2 and stores the point's rows of the second layer and of the two
  heads into the three output blocks.
-/
import proofs.«161254_g33749853012156_cont_8to1_b_320_22_alg».proof.Proof.K.BodyCommon

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_C (c : Dev nD) (t : Fin cfg0.N) (h25 : t.val = 25) :
    bodyPre' m c t ⊢ wp frame (wpE (defs₀ (F := F)) Variants.none c none) Set.univ (bodyAt0 t) (fun _ => bodyPost' m c t) := by
  have ht : 25 ≤ t.val := by omega
  have hz : t.val ≠ 0 := by omega
  have et : t = t25 := Fin.ext h25
  unfold bodyPre' bodyPost' bodyAt0
  rw [show (dats m 0 c).leavesExact 12 t = owns (c : Thread nD τ) (ms12 t) fullShare (O12 m c t) from by
    unfold Dat.leavesExact; rw [live_12 t ht, after_12]]
  rw [show (dats m 0 c).leavesExact 13 t = owns (c : Thread nD τ) (ms13 t) fullShare (O13 m c t) from by
    unfold Dat.leavesExact; rw [live_13 t ht, after_13]]
  rw [show (dats m 0 c).leavesExact 14 t = owns (c : Thread nD τ) (ms14 t) fullShare (O14 m c t) from by
    unfold Dat.leavesExact; rw [live_14 t ht, after_14]]
  rw [Phi_pos m c _ _ hz, Phi_succ]
  have hS' : Sat m c t.val = Hand.S2 m c := if_neg (by omega)
  rw [hS']
  have hc1 : ¬cond1 (grid0.coords t) := fun h => by have := (hcond1 t).mp h; omega
  have hc2 : cond2 (grid0.coords t) := (hcond2 t).mpr (by omega)
  have hc3 : ¬cond3 (grid0.coords t) := fun h => by have := (hcond3 t).mp h; omega
  have hc4 : cond4 (grid0.coords t) := (hcond4 t).mpr (by omega)
  iintro ⟨⟨HS, ⟨%h, %hg, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  obtain rfl : h = Hfull m c := Hgood_full m c t.val ht h hg
  iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scS (Memref.isWhole_whole _) scH (Memref.isWhole_whole _) hc1 hc2 hc3 hc4 (Hfull m c) (iblk m c 4 t) (iblk m c 0 t) (iblk m c 5 t) (iblk m c 6 t) (iblk m c 7 t) (iblk m c 8 t) (iblk m c 9 t) (iblk m c 10 t) (iblk m c 11 t)).2.2.2.2 Set.univ _)
  isplitl [HH]; · iexact HH
  isplitl [H4]; · iexact H4
  isplitl [H0]; · iexact H0
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexists _; iexact HS
  isplitl [H12]; · iexists _; iexact H12
  isplitl [H13]; · iexists _; iexact H13
  isplitl [H14]; · iexists _; iexact H14
  iintro ⟨HH, H4, H0, H5, H6, H7, H8, H9, H10, H11, ⟨%f17, HS⟩, ⟨%f12, H12⟩, ⟨%f13, H13⟩, ⟨%f14, H14⟩⟩
  isplitl [HS HH Hg]
  · isplitl [HS]
    · unfold owns; iexists _; isplitr
      swap; · iexact HS
      ipureintro; rw [runC_L17, read_whole _ _ hz2]; subst et; rfl
    isplitl [HH]
    · iexists (Hfull m c); isplitr
      · ipureintro; exact fun idx _ => rfl
      · iexact HH
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; rw [runC_L14, read_whole _ _ hz2]; subst et; rfl
  isplitl [H13]
  · unfold owns; iexists _; isplitr
    swap; · iexact H13
    ipureintro; rw [runC_L15, read_whole _ _ hz2]; subst et; rfl
  unfold owns; iexists _; isplitr
  swap; · iexact H14
  ipureintro; rw [runC_L16, read_whole _ _ hz2]; subst et; rfl

end Cert.Kernel.Hand

end
-- ==== Proof.K.SoundD.lean ====
/-
  The body obligation at a later point of phase 1 (25 < t): the first scratch holds h1 · W2 and the second the whole
  first layer, both unchanged by the run; the three output blocks come back at the point's rows of the second layer and
  of the two heads.
-/
import proofs.«161254_g33749853012156_cont_8to1_b_320_22_alg».proof.Proof.K.BodyCommon

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_D (c : Dev nD) (t : Fin cfg0.N) (ht : 25 ≤ t.val) (hz25 : t.val ≠ 25) :
    bodyPre' m c t ⊢ wp frame (wpE (defs₀ (F := F)) Variants.none c none) Set.univ (bodyAt0 t) (fun _ => bodyPost' m c t) := by
  have hz : t.val ≠ 0 := by omega
  have hN : t.val < 50 := lt_of_lt_of_eq t.isLt N50
  unfold bodyPre' bodyPost' bodyAt0
  rw [show (dats m 0 c).leavesExact 12 t = owns (c : Thread nD τ) (ms12 t) fullShare (O12 m c t) from by
    unfold Dat.leavesExact; rw [live_12 t ht, after_12]]
  rw [show (dats m 0 c).leavesExact 13 t = owns (c : Thread nD τ) (ms13 t) fullShare (O13 m c t) from by
    unfold Dat.leavesExact; rw [live_13 t ht, after_13]]
  rw [show (dats m 0 c).leavesExact 14 t = owns (c : Thread nD τ) (ms14 t) fullShare (O14 m c t) from by
    unfold Dat.leavesExact; rw [live_14 t ht, after_14]]
  rw [Phi_pos m c _ _ hz, Phi_succ]
  have hS : Sat m c (t.val - 1) = Hand.S2 m c := if_neg (by omega)
  have hS' : Sat m c t.val = Hand.S2 m c := if_neg (by omega)
  rw [hS, hS']
  have hc1 : ¬cond1 (grid0.coords t) := fun h => by have := (hcond1 t).mp h; omega
  have hc2 : ¬cond2 (grid0.coords t) := fun h => by have := (hcond2 t).mp h; omega
  have hc3 : ¬cond3 (grid0.coords t) := fun h => by have := (hcond3 t).mp h; omega
  have hc4 : cond4 (grid0.coords t) := (hcond4 t).mpr (by omega)
  iintro ⟨⟨HS, ⟨%h, %hg, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have eh : h = Hfull m c := Hgood_full m c t.val ht h hg
  iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scS (Memref.isWhole_whole _) scH (Memref.isWhole_whole _) hc1 hc2 hc3 hc4 (iblk m c 0 t) (Hand.S2 m c) (iblk m c 5 t) (iblk m c 6 t) (iblk m c 7 t) (iblk m c 8 t) (iblk m c 9 t) (iblk m c 10 t) (iblk m c 11 t)).2.2.2 Set.univ _)
  isplitl [H0]; · iexact H0
  isplitl [HS]; · iexact HS
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iintro ⟨H0, HS, H5, H6, H7, H8, H9, H10, H11, ⟨%f12, H12⟩, ⟨%f13, H13⟩, ⟨%f14, H14⟩⟩
  isplitl [HS HH Hg]
  · isplitl [HS]; · iexact HS
    isplitl [HH]
    · iexists h; isplitr
      · ipureintro; rw [eh]; exact fun idx _ => rfl
      · iexact HH
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; rw [runD_L14, read_whole _ _ hz2]; rfl
  isplitl [H13]
  · unfold owns; iexists _; isplitr
    swap; · iexact H13
    ipureintro; rw [runD_L15, read_whole _ _ hz2]; rfl
  unfold owns; iexists _; isplitr
  swap; · iexact H14
  ipureintro; rw [runD_L16, read_whole _ _ hz2]; rfl

end Cert.Kernel.Hand

end
-- ==== Proof.K.Frame.lean ====
/-
  The body obligation at every point, from its four cases, and the run of the whole program: the class invariant
  yields the tracking invariant before the first point (nothing is claimed of the scratch there) and gets it back
  after the last (what the scratch holds is forgotten); so every weakly fair execution terminates, nothing faults, each
  output array ends at what the points wrote back, and every other buffer as the host lines after the region leave it.
-/
import proofs.«161254_g33749853012156_cont_8to1_b_320_22_alg».proof.Proof.K.SoundA
import proofs.«161254_g33749853012156_cont_8to1_b_320_22_alg».proof.Proof.K.SoundB
import proofs.«161254_g33749853012156_cont_8to1_b_320_22_alg».proof.Proof.K.SoundC
import proofs.«161254_g33749853012156_cont_8to1_b_320_22_alg».proof.Proof.K.SoundD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: which of the four cases the point is in is read off its number. -/
theorem sound_body (c : Dev nD) (t : Fin cfg0.N) :
    bodyPre m c t ⊢ wp frame (wpE (defs₀ (F := F)) Variants.none c none) Set.univ (bodyAt0 t) (fun _ => bodyPost m c t) := by
  rw [bodyPre_eq, bodyPost_eq]
  have hN : t.val < 50 := lt_of_lt_of_eq t.isLt N50
  by_cases h0 : t.val = 0
  · exact sound_A m c t h0
  by_cases h1 : t.val < 25
  · exact sound_B m c t h0 h1
  by_cases h2 : t.val = 25
  · exact sound_C m c t h2
  exact sound_D m c t (by omega) h2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last, N50]; omega), PhiA_eq]
  iintro ⟨HS, ⟨%h, -, HH⟩, Hg⟩
  isplitl [HS HH]
  · isplitl [HS]
    · iexists _; iexact HS
    iexists _; iexact HH
  iexact Hg

set_option backward.isDefEq.respectTransparency.types false in
/-- The run of @main: every weakly fair execution terminates, nothing faults, and the final state has every array of
    the pipeline at what the proof data compute and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.Kernel.Hand

end
-- ==== Proof.KI.Runs.lean ====
/-
  The four ways the body runs, told apart by the grid point (phase, row block): the first point of phase 0 (the
  input transform x · W1 is computed into the first scratch), the later points of phase 0, the first point of phase 1
  (the transform h1 · W2 replaces it) and the later points of phase 1. The conditions of the body's four branches
  as it computes them, and where on the grid of 2 × 25 points each holds.
-/
import proofs.«161254_g33749853012156_cont_8to1_b_320_22_alg».proof.Proof.Gen.KernelIdeal.Frame
import proofs.«161254_g33749853012156_cont_8to1_b_320_22_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch: phase 0 and row block 0. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch: phase 1 and row block 0. -/
abbrev cond2 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- The third branch: phase 0. -/
abbrev cond3 (i : grid0.Coords) : Prop := k0_cond3 i = 1#1
/-- The fourth branch: phase 1. -/
abbrev cond4 (i : grid0.Coords) : Prop := k0_cond4 i = 1#1

/-- Point t of the 50 is (phase t / 25, block t % 25): the first branch is taken at point 0 only, -/
theorem hcond1 : ∀ t : Fin cfg0.N, cond1 (grid0.coords t) ↔ t.val = 0 :=
  (by decide +kernel : ∀ t : Fin grid0.N, cond1 (grid0.coords t) ↔ t.val = 0)
/-- the second at point 25 only, -/
theorem hcond2 : ∀ t : Fin cfg0.N, cond2 (grid0.coords t) ↔ t.val = 25 :=
  (by decide +kernel : ∀ t : Fin grid0.N, cond2 (grid0.coords t) ↔ t.val = 25)
/-- the third throughout phase 0, -/
theorem hcond3 : ∀ t : Fin cfg0.N, cond3 (grid0.coords t) ↔ t.val < 25 :=
  (by decide +kernel : ∀ t : Fin grid0.N, cond3 (grid0.coords t) ↔ t.val < 25)
/-- the fourth throughout phase 1. -/
theorem hcond4 : ∀ t : Fin cfg0.N, cond4 (grid0.coords t) ↔ 25 ≤ t.val :=
  (by decide +kernel : ∀ t : Fin grid0.N, cond4 (grid0.coords t) ↔ 25 ≤ t.val)

/-- The two scratch operands: whole buffers of the kernel's own. -/
abbrev scS : Memref sig .tc .vmem S10000x128 .f32 := Memref.whole cc0_scratch0
abbrev scH : Memref sig .tc .vmem S10000x128 .f32 := Memref.whole cc0_scratch1

end Cert.KernelIdeal.Hand

end
-- ==== Proof.KI.Data.lean ====
/-
  What the kernel carries from point to point, named.

  The grid is 2 phases × 25 row blocks, walked in order: point t is (t / 25, t % 25). Phase 0 fills the first layer
  h1 = max (adj · (x · W1) + b1) 0, 400 rows per point, into the second scratch; phase 1 computes from it, 400 rows per
  point (row blocks in reverse order), the second layer and the two heads. The first scratch holds the transform the
  phase multiplies the adjacency by: x · W1 throughout phase 0, h1 · W2 throughout phase 1. Each value below is the body's
  own arithmetic (the payload terms) applied to the blocks the pipeline hands it, so it is stated at any float instance.
-/
import proofs.«161254_g33749853012156_cont_8to1_b_320_22_alg».proof.Proof.KI.Runs
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- The first point of each phase. -/
def t0 : Fin cfg0.N := ⟨0, by rw [N50]; omega⟩
def t25 : Fin cfg0.N := ⟨25, by rw [N50]; omega⟩

/-- x · W1: what the first point stores into the first scratch. -/
def S1 (c : Dev nD) : Vec F S10000x128 .f32 := k0_pay1 (iblk m c 1 t0) (iblk m c 2 t0)

/-- The 400 rows of the first layer that point t of phase 0 computes. -/
def H1blk (c : Dev nD) (t : Fin cfg0.N) : Vec F S400x128 .f32 := k0_pay4 (iblk m c 0 t) (S1 m c) (iblk m c 3 t)

/-- The first layer whole: row r is row r % 400 of the block point r / 400 computes. -/
def Hfull (c : Dev nD) : Vec F S10000x128 .f32 := fun idx =>
  H1blk m c ⟨(idx 0).val / 400, by rw [N50]; have := ValueIdx.idx2_lt0 idx; omega⟩
    (ValueIdx.ix2 ⟨(idx 0).val % 400, Nat.mod_lt _ (by omega)⟩ ⟨(idx 1).val, ValueIdx.idx2_lt1 idx⟩)

/-- h1 · W2: what the first point of phase 1 stores into the first scratch. -/
def S2 (c : Dev nD) : Vec F S10000x128 .f32 := k0_pay2 (Hfull m c) (iblk m c 4 t25)

/-- What point t of phase 1 stores into the three output blocks. -/
def O12 (c : Dev nD) (t : Fin cfg0.N) : Vec F S400x128 .f32 := k0_pay5 (iblk m c 0 t) (S2 m c) (iblk m c 5 t)
def O13 (c : Dev nD) (t : Fin cfg0.N) : Vec F S400x1 .f32 :=
  k0_pay6 (iblk m c 0 t) (S2 m c) (iblk m c 5 t) (iblk m c 6 t) (iblk m c 7 t) (iblk m c 8 t) (iblk m c 9 t)
def O14 (c : Dev nD) (t : Fin cfg0.N) : Vec F S400x1 .f32 :=
  k0_pay7 (iblk m c 0 t) (S2 m c) (iblk m c 5 t) (iblk m c 10 t) (iblk m c 11 t)

/-- The first scratch after point n: the transform of the phase point n is in. -/
def Sat (c : Dev nD) (n : ℕ) : Vec F S10000x128 .f32 := if n < 25 then S1 m c else S2 m c

/-- The second scratch with its first 400·k rows filled: those rows are the first layer's; nothing is said of the rest. -/
def Hgood (c : Dev nD) (k : ℕ) (h : Vec F S10000x128 .f32) : Prop :=
  ∀ idx : S10000x128.Idx, (idx 0).val < 400 * k → h idx = Hfull m c idx

/-- Once all 25 blocks are in, the second scratch IS the first layer. -/
theorem Hgood_full (c : Dev nD) (k : ℕ) (hk : 25 ≤ k) (h : Vec F S10000x128 .f32) (hg : Hgood m c k h) : h = Hfull m c :=
  funext fun idx => hg idx (by have := ValueIdx.idx2_lt0 idx; omega)

/-- The invariant before position n: before the first point the scratch buffers hold anything; after point n - 1 the
    first holds that point's phase's transform and the second has its first 400 · min n 25 rows filled. -/
def Phi (c : Dev nD) : (n : ℕ) → n ≤ cfg0.N → sProp 𝕄
  | 0, _ => Pipeline.ΦA spec0 c
  | n + 1, _ => iprop(owns (c : Thread nD τ) scS fullShare (Sat m c n)
      ∗ (∃ h, ⌜Hgood m c (n + 1) h⌝ ∗ owns (c : Thread nD τ) scH fullShare h) ∗ (∃ r, prngReg c r))

theorem Phi_zero (c : Dev nD) (n : ℕ) (h : n ≤ cfg0.N) (hz : n = 0) : Phi m c n h = Pipeline.ΦA spec0 c := by
  subst hz; rfl
theorem Phi_succ (c : Dev nD) (n : ℕ) (hn : n + 1 ≤ cfg0.N) :
    Phi m c (n + 1) hn = iprop(owns (c : Thread nD τ) scS fullShare (Sat m c n)
      ∗ (∃ h, ⌜Hgood m c (n + 1) h⌝ ∗ owns (c : Thread nD τ) scH fullShare h) ∗ (∃ r, prngReg c r)) := rfl
theorem Phi_pos (c : Dev nD) (n : ℕ) (h : n ≤ cfg0.N) (hz : n ≠ 0) :
    Phi m c n h = iprop(owns (c : Thread nD τ) scS fullShare (Sat m c (n - 1))
      ∗ (∃ h, ⌜Hgood m c n h⌝ ∗ owns (c : Thread nD τ) scH fullShare h) ∗ (∃ r, prngReg c r)) := by
  cases n with
  | zero => exact absurd rfl hz
  | succ n => rfl

/-- The class invariant with the two scratch buffers as memrefs owned at some contents. -/
theorem PhiA_eq (c : Dev nD) :
    (Pipeline.ΦA spec0 c : sProp 𝕄)
      = iprop(iprop((∃ d, owns (c : Thread nD τ) scS fullShare d) ∗ (∃ d, owns (c : Thread nD τ) scH fullShare d)) ∗ (∃ r, prngReg c r)) := by
  unfold Pipeline.ΦA; rw [scopedRest0_eq]; simp only [scS, scH, owns_whole]; try rfl

/-- The proof data on core c: the arrays as the region finds them; after the body at point t each input's buffer at
    its block and the three outputs' at the phase-1 values; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => O12 m c t
    | ⟨13, _⟩ => O13 m c t
    | ⟨14, _⟩ => O14 m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = O12 m c t := by dsimp only [dats]
theorem after_13 (c : Dev nD) (t : Fin cfg0.N) : (dats m 0 c).after 13 t = O13 m c t := by dsimp only [dats]
theorem after_14 (c : Dev nD) (t : Fin cfg0.N) : (dats m 0 c).after 14 t = O14 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

end Cert.KernelIdeal.Hand

end
-- ==== Proof.KI.Step.lean ====
/-
  One point of phase 0 extends the filled part of the second scratch by 400 rows: the store covers rows
  400·t … 400·t + 399 with the block of the first layer that point computes, and leaves every other row as it was. And
  where on the grid the three output windows are idle (all of phase 0, where nothing is stored into them and nothing
  is written back) and live (all of phase 1).
-/
import proofs.«161254_g33749853012156_cont_8to1_b_320_22_alg».proof.Proof.KI.Data
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The rows point t of phase 0 stores: from row 400·t. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-- The block function respects equal points and equal positions. -/
theorem H1blk_congr (c : Dev nD) {t t' : Fin cfg0.N} (ht : t = t') {x x' : S400x128.Idx} (hx : x = x') :
    H1blk m c t x = H1blk m c t' x' := by subst ht; subst hx; rfl

/-- The step: rows below 400·t filled and rows 400·t … 400·t + 399 stored with point t's block give rows below
    400·(t + 1) filled. -/
theorem Hgood_step (c : Dev nD) (t : Fin cfg0.N) (ht : t.val < 25) (h : Vec F S10000x128 .f32) (hg : Hgood m c t.val h)
    (v : View sig .tc .vmem S10000x128 .f32) (f : v.ty.Contents (Elt F)) (hf : v.read (Elt F) f = h)
    (inb : ∀ a, k0_off1 (grid0.coords t) a + S400x128.size a ≤ S10000x128.size a) :
    Hgood m c (t.val + 1) (v.read (Elt F) (v.writes (Elt F) f
      [(⟨Rect.unit (s := S10000x128) (k0_off1 (grid0.coords t)) S400x128.size inb, H1blk m c t⟩ : View.Piece (Elt F) S10000x128 .f32)])) := by
  intro idx hlt
  have h1 : (idx 1).val < 128 := ValueIdx.idx2_lt1 idx
  by_cases hrow : 400 * t.val ≤ (idx 0).val
  · have hx0 : (idx 0).val - 400 * t.val < 400 := by omega
    rw [View.read_writes_cons_rows_of_mem v f inb (H1blk m c t) [] idx
      (ValueIdx.ix2 (⟨(idx 0).val - 400 * t.val, hx0⟩ : Fin 400) (⟨(idx 1).val, h1⟩ : Fin 128)) (off1_eq t ht)
      (by show (idx 0).val = 400 * t.val + ((idx 0).val - 400 * t.val); omega) rfl]
    unfold Hfull
    refine H1blk_congr m c (Fin.ext (by show t.val = (idx 0).val / 400; omega)) ?_
    have e2 : (⟨(idx 0).val - 400 * t.val, hx0⟩ : Fin 400) = ⟨(idx 0).val % 400, Nat.mod_lt _ (by omega)⟩ :=
      Fin.ext (by show (idx 0).val - 400 * t.val = (idx 0).val % 400; omega)
    rw [e2]
  · rw [View.read_writes_cons_rows_of_not_mem v f inb (H1blk m c t) [] idx (off1_eq t ht) rfl (Or.inl (by omega))]
    show v.read (Elt F) f idx = _
    rw [hf]
    exact hg idx (by omega)

/-! ### The output windows' schedule -/
theorem idle_12 : ∀ t : Fin cfg0.N, t.val < 25 → cfg0.idle 12 (grid0.coords t) = true :=
  (by decide +kernel : ∀ t : Fin grid0.N, t.val < 25 → idle0 12 (grid0.coords t) = true)
theorem noflush_12 : ∀ t : Fin cfg0.N, t.val < 25 → (cfg0.win 12).flush t = false :=
  (by decide +kernel : ∀ t : Fin grid0.N, t.val < 25 → win0_12.flush t = false)
theorem live_12 : ∀ t : Fin cfg0.N, 25 ≤ t.val → cfg0.idle 12 (grid0.coords t) = false :=
  (by decide +kernel : ∀ t : Fin grid0.N, 25 ≤ t.val → idle0 12 (grid0.coords t) = false)
theorem idle_13 : ∀ t : Fin cfg0.N, t.val < 25 → cfg0.idle 13 (grid0.coords t) = true :=
  (by decide +kernel : ∀ t : Fin grid0.N, t.val < 25 → idle0 13 (grid0.coords t) = true)
theorem noflush_13 : ∀ t : Fin cfg0.N, t.val < 25 → (cfg0.win 13).flush t = false :=
  (by decide +kernel : ∀ t : Fin grid0.N, t.val < 25 → win0_13.flush t = false)
theorem live_13 : ∀ t : Fin cfg0.N, 25 ≤ t.val → cfg0.idle 13 (grid0.coords t) = false :=
  (by decide +kernel : ∀ t : Fin grid0.N, 25 ≤ t.val → idle0 13 (grid0.coords t) = false)
theorem idle_14 : ∀ t : Fin cfg0.N, t.val < 25 → cfg0.idle 14 (grid0.coords t) = true :=
  (by decide +kernel : ∀ t : Fin grid0.N, t.val < 25 → idle0 14 (grid0.coords t) = true)
theorem noflush_14 : ∀ t : Fin cfg0.N, t.val < 25 → (cfg0.win 14).flush t = false :=
  (by decide +kernel : ∀ t : Fin grid0.N, t.val < 25 → win0_14.flush t = false)
theorem live_14 : ∀ t : Fin cfg0.N, 25 ≤ t.val → cfg0.idle 14 (grid0.coords t) = false :=
  (by decide +kernel : ∀ t : Fin grid0.N, 25 ≤ t.val → idle0 14 (grid0.coords t) = false)

end Cert.KernelIdeal.Hand

end
-- ==== Proof.KI.RunA.lean ====
/-
  The body at the first point of phase 0: it computes the input transform x · W1 into the first scratch, then multiplies
  the first 400 rows of the adjacency by it, adds the bias, takes the maximum with zero and stores the result into rows
  0 … 399 of the second scratch, whose other rows it leaves as they were.
-/
import proofs.«161254_g33749853012156_cont_8to1_b_320_22_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run: the body from the buffers it reads, at their named contents, to the same buffers with each one it stores
    into overwritten by the pieces it stored (the lists the run finds). -/
noncomputable def runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : cond1 i) (hc2 : ¬cond2 i) (hc3 : cond3 i) (hc4 : ¬cond4 i)
    (x3 : Vec F S10000x128 .f32) (x4 : Vec F S128x128 .f32) (x2 : Vec F S400x10000 .f32) (x5 : Vec F S1x128 .f32) (xs18 : Vec F S10000x128 .f32) :
    Σ' (L17 : List (View.Piece (Elt F) S10000x128 .f32)), { L18 : List (View.Piece (Elt F) S10000x128 .f32) //
      ∀ (E : Set ℕ) (K : PUnit → sProp 𝕄),
        iprop(owns (c : Thread nD τ) arg3 fullShare x3
            ∗ owns (c : Thread nD τ) arg4 fullShare x4
            ∗ owns (c : Thread nD τ) arg2 fullShare x2
            ∗ owns (c : Thread nD τ) arg5 fullShare x5
            ∗ (∃ d, owns (c : Thread nD τ) arg17 fullShare d)
            ∗ owns (c : Thread nD τ) arg18 fullShare xs18
            ∗ (iprop(owns (c : Thread nD τ) arg3 fullShare x3
                ∗ owns (c : Thread nD τ) arg4 fullShare x4
                ∗ owns (c : Thread nD τ) arg2 fullShare x2
                ∗ owns (c : Thread nD τ) arg5 fullShare x5
                ∗ (∃ f, arg17.view.loc (c : Thread nD τ) ↦[arg17.view.set]{fullShare} arg17.view.writes (Elt F) f L17)
                ∗ (arg18.view.loc (c : Thread nD τ) ↦[arg18.view.set]{fullShare} arg18.view.writes (Elt F) (harg18.unread xs18) L18)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0__body_eq_skeleton]; unfold cc0__body_skel
    unfold owns
    iintro ⟨⟨%f3, %hf3, H3⟩, ⟨%f4, %hf4, H4⟩, ⟨%f2, %hf2, H2⟩, ⟨%f5, %hf5, H5⟩, ⟨%d17, %f17, -, H17⟩, ⟨%f18, %hf18, H18⟩, Hk⟩
    obtain rfl := harg3.eq_unread hf3; obtain rfl := harg4.eq_unread hf4; obtain rfl := harg2.eq_unread hf2; obtain rfl := harg5.eq_unread hf5; obtain rfl := harg18.eq_unread hf18
    sl_exec (disch := first | exact hc1 | exact hc2 | exact hc3 | exact hc4)
    sl_step
    iapply Hk
    isplitl [H3]
    · iexists _; isplitr; · ipureintro; exact harg3.read_unread _
      iexact H3
    isplitl [H4]
    · iexists _; isplitr; · ipureintro; exact harg4.read_unread _
      iexact H4
    isplitl [H2]
    · iexists _; isplitr; · ipureintro; exact harg2.read_unread _
      iexact H2
    isplitl [H5]
    · iexists _; isplitr; · ipureintro; exact harg5.read_unread _
      iexact H5
    isplitl [H17]
    · iexists _; iexact H17
    iexact H18

end Cert.KernelIdeal.Hand

end
-- ==== Proof.KI.RunB.lean ====
/-
  The body at a later point of phase 0 (row block i > 0): it multiplies the point's 400 rows of the adjacency by the
  transform held in the first scratch, adds the bias, takes the maximum with zero, and stores the 400 × 128 result into
  rows 400·i … 400·i + 399 of the second scratch, whose other rows it leaves as they were.
-/
import proofs.«161254_g33749853012156_cont_8to1_b_320_22_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run: from the adjacency block x2, the bias row x5, the first scratch at xs17 and the second at xs18, the body
    ends with those three as they were and the second scratch at xs18 overwritten by the pieces it stored. -/
noncomputable def runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : cond3 i) (hc4 : ¬cond4 i)
    (x2 : Vec F S400x10000 .f32) (x5 : Vec F S1x128 .f32) (xs17 : Vec F S10000x128 .f32) (xs18 : Vec F S10000x128 .f32) :
    { L18 : List (View.Piece (Elt F) S10000x128 .f32) //
      ∀ (E : Set ℕ) (K : PUnit → sProp 𝕄),
        iprop(owns (c : Thread nD τ) arg2 fullShare x2 ∗ owns (c : Thread nD τ) arg5 fullShare x5
            ∗ owns (c : Thread nD τ) arg17 fullShare xs17 ∗ owns (c : Thread nD τ) arg18 fullShare xs18
            ∗ (iprop(owns (c : Thread nD τ) arg2 fullShare x2 ∗ owns (c : Thread nD τ) arg5 fullShare x5
                ∗ owns (c : Thread nD τ) arg17 fullShare xs17
                ∗ (arg18.view.loc (c : Thread nD τ) ↦[arg18.view.set]{fullShare} arg18.view.writes (Elt F) (harg18.unread xs18) L18)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0__body_eq_skeleton]; unfold cc0__body_skel
    unfold owns
    iintro ⟨⟨%f2, %hf2, H2⟩, ⟨%f5, %hf5, H5⟩, ⟨%f17, %hf17, H17⟩, ⟨%f18, %hf18, H18⟩, Hk⟩
    obtain rfl := harg2.eq_unread hf2; obtain rfl := harg5.eq_unread hf5
    obtain rfl := harg17.eq_unread hf17; obtain rfl := harg18.eq_unread hf18
    sl_exec (disch := first | exact hc1 | exact hc2 | exact hc3 | exact hc4)
    sl_step
    iapply Hk
    isplitl [H2]
    · iexists _; isplitr; · ipureintro; exact harg2.read_unread _
      iexact H2
    isplitl [H5]
    · iexists _; isplitr; · ipureintro; exact harg5.read_unread _
      iexact H5
    isplitl [H17]
    · iexists _; isplitr; · ipureintro; exact harg17.read_unread _
      iexact H17
    iexact H18

end Cert.KernelIdeal.Hand

end
-- ==== Proof.KI.RunC.lean ====
/-
  The body at the first point of phase 1: it replaces the first scratch by the transform h1 · W2 of the first layer held
  in the second scratch, then computes the point's 400 rows of the second layer and of the two heads and stores them
  into the three output blocks.
-/
import proofs.«161254_g33749853012156_cont_8to1_b_320_22_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run: the body from the buffers it reads, at their named contents, to the same buffers with each one it stores
    into overwritten by the pieces it stored (the lists the run finds). -/
noncomputable def runC (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i)
    (xs18 : Vec F S10000x128 .f32) (x6 : Vec F S128x128 .f32) (x2 : Vec F S400x10000 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    Σ' (L17 : List (View.Piece (Elt F) S10000x128 .f32)), Σ' (L14 : List (View.Piece (Elt F) S400x128 .f32)), Σ' (L15 : List (View.Piece (Elt F) S400x1 .f32)), { L16 : List (View.Piece (Elt F) S400x1 .f32) //
      ∀ (E : Set ℕ) (K : PUnit → sProp 𝕄),
        iprop(owns (c : Thread nD τ) arg18 fullShare xs18
            ∗ owns (c : Thread nD τ) arg6 fullShare x6
            ∗ owns (c : Thread nD τ) arg2 fullShare x2
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ (∃ d, owns (c : Thread nD τ) arg17 fullShare d)
            ∗ (∃ d, owns (c : Thread nD τ) arg14 fullShare d)
            ∗ (∃ d, owns (c : Thread nD τ) arg15 fullShare d)
            ∗ (∃ d, owns (c : Thread nD τ) arg16 fullShare d)
            ∗ (iprop(owns (c : Thread nD τ) arg18 fullShare xs18
                ∗ owns (c : Thread nD τ) arg6 fullShare x6
                ∗ owns (c : Thread nD τ) arg2 fullShare x2
                ∗ owns (c : Thread nD τ) arg7 fullShare x7
                ∗ owns (c : Thread nD τ) arg8 fullShare x8
                ∗ owns (c : Thread nD τ) arg9 fullShare x9
                ∗ owns (c : Thread nD τ) arg10 fullShare x10
                ∗ owns (c : Thread nD τ) arg11 fullShare x11
                ∗ owns (c : Thread nD τ) arg12 fullShare x12
                ∗ owns (c : Thread nD τ) arg13 fullShare x13
                ∗ (∃ f, arg17.view.loc (c : Thread nD τ) ↦[arg17.view.set]{fullShare} arg17.view.writes (Elt F) f L17)
                ∗ (∃ f, arg14.view.loc (c : Thread nD τ) ↦[arg14.view.set]{fullShare} arg14.view.writes (Elt F) f L14)
                ∗ (∃ f, arg15.view.loc (c : Thread nD τ) ↦[arg15.view.set]{fullShare} arg15.view.writes (Elt F) f L15)
                ∗ (∃ f, arg16.view.loc (c : Thread nD τ) ↦[arg16.view.set]{fullShare} arg16.view.writes (Elt F) f L16)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0__body_eq_skeleton]; unfold cc0__body_skel
    unfold owns
    iintro ⟨⟨%f18, %hf18, H18⟩, ⟨%f6, %hf6, H6⟩, ⟨%f2, %hf2, H2⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d17, %f17, -, H17⟩, ⟨%d14, %f14, -, H14⟩, ⟨%d15, %f15, -, H15⟩, ⟨%d16, %f16, -, H16⟩, Hk⟩
    obtain rfl := harg18.eq_unread hf18; obtain rfl := harg6.eq_unread hf6; obtain rfl := harg2.eq_unread hf2; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | exact hc1 | exact hc2 | exact hc3 | exact hc4)
    sl_step
    iapply Hk
    isplitl [H18]
    · iexists _; isplitr; · ipureintro; exact harg18.read_unread _
      iexact H18
    isplitl [H6]
    · iexists _; isplitr; · ipureintro; exact harg6.read_unread _
      iexact H6
    isplitl [H2]
    · iexists _; isplitr; · ipureintro; exact harg2.read_unread _
      iexact H2
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H17]
    · iexists _; iexact H17
    isplitl [H14]
    · iexists _; iexact H14
    isplitl [H15]
    · iexists _; iexact H15
    iexists _; iexact H16

end Cert.KernelIdeal.Hand

end
-- ==== Proof.KI.RunD.lean ====
/-
  The body at a later point of phase 1: from the transform held in the first scratch it computes the point's 400 rows
  of the second layer and of the two heads and stores them into the three output blocks.
-/
import proofs.«161254_g33749853012156_cont_8to1_b_320_22_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run: the body from the buffers it reads, at their named contents, to the same buffers with each one it stores
    into overwritten by the pieces it stored (the lists the run finds). -/
noncomputable def runD (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : ¬cond3 i) (hc4 : cond4 i)
    (x2 : Vec F S400x10000 .f32) (xs17 : Vec F S10000x128 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    Σ' (L14 : List (View.Piece (Elt F) S400x128 .f32)), Σ' (L15 : List (View.Piece (Elt F) S400x1 .f32)), { L16 : List (View.Piece (Elt F) S400x1 .f32) //
      ∀ (E : Set ℕ) (K : PUnit → sProp 𝕄),
        iprop(owns (c : Thread nD τ) arg2 fullShare x2
            ∗ owns (c : Thread nD τ) arg17 fullShare xs17
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ (∃ d, owns (c : Thread nD τ) arg14 fullShare d)
            ∗ (∃ d, owns (c : Thread nD τ) arg15 fullShare d)
            ∗ (∃ d, owns (c : Thread nD τ) arg16 fullShare d)
            ∗ (iprop(owns (c : Thread nD τ) arg2 fullShare x2
                ∗ owns (c : Thread nD τ) arg17 fullShare xs17
                ∗ owns (c : Thread nD τ) arg7 fullShare x7
                ∗ owns (c : Thread nD τ) arg8 fullShare x8
                ∗ owns (c : Thread nD τ) arg9 fullShare x9
                ∗ owns (c : Thread nD τ) arg10 fullShare x10
                ∗ owns (c : Thread nD τ) arg11 fullShare x11
                ∗ owns (c : Thread nD τ) arg12 fullShare x12
                ∗ owns (c : Thread nD τ) arg13 fullShare x13
                ∗ (∃ f, arg14.view.loc (c : Thread nD τ) ↦[arg14.view.set]{fullShare} arg14.view.writes (Elt F) f L14)
                ∗ (∃ f, arg15.view.loc (c : Thread nD τ) ↦[arg15.view.set]{fullShare} arg15.view.writes (Elt F) f L15)
                ∗ (∃ f, arg16.view.loc (c : Thread nD τ) ↦[arg16.view.set]{fullShare} arg16.view.writes (Elt F) f L16)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0__body_eq_skeleton]; unfold cc0__body_skel
    unfold owns
    iintro ⟨⟨%f2, %hf2, H2⟩, ⟨%f17, %hf17, H17⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
    obtain rfl := harg2.eq_unread hf2; obtain rfl := harg17.eq_unread hf17; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | exact hc1 | exact hc2 | exact hc3 | exact hc4)
    sl_step
    iapply Hk
    isplitl [H2]
    · iexists _; isplitr; · ipureintro; exact harg2.read_unread _
      iexact H2
    isplitl [H17]
    · iexists _; isplitr; · ipureintro; exact harg17.read_unread _
      iexact H17
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; iexact H14
    isplitl [H15]
    · iexists _; iexact H15
    iexists _; iexact H16

end Cert.KernelIdeal.Hand

end
-- ==== Proof.KI.Pieces.lean ====
/-
  What the four runs stored, read off: each list the run found is ONE unit-stride piece whose payload is the body's
  arithmetic of the values it was handed. A value loaded whole from a buffer is that buffer's contents, and the first
  scratch read back right after it was stored whole is what was stored.
-/
import proofs.«161254_g33749853012156_cont_8to1_b_320_22_alg».proof.Proof.KI.RunA
import proofs.«161254_g33749853012156_cont_8to1_b_320_22_alg».proof.Proof.KI.RunB
import proofs.«161254_g33749853012156_cont_8to1_b_320_22_alg».proof.Proof.KI.RunC
import proofs.«161254_g33749853012156_cont_8to1_b_320_22_alg».proof.Proof.KI.RunD
import Idealize.ShloMosaic.Lib.Pipeline.Value
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as a function. -/
theorem hz2 : (![0, 0] : Fin 2 → ℕ) = fun _ => 0 := by funext a; fin_cases a <;> rfl

/-- One store through the whole-buffer rectangle leaves its payload, whatever the buffer held. -/
theorem read_whole {sp : Space} {S : Shape} {e : EltTy} (v : View sig .tc sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩)]
  exact View.canon_unit_zero h inb w

theorem runA_L17 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : cond1 i) (hc2 : ¬cond2 i) (hc3 : cond3 i) (hc4 : ¬cond4 i) (x3 : Vec F S10000x128 .f32) (x4 : Vec F S128x128 .f32) (x2 : Vec F S400x10000 .f32) (x5 : Vec F S1x128 .f32) (xs18 : Vec F S10000x128 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x3 x4 x2 x5 xs18).1 = [⟨Rect.unit (s := S10000x128) ![0, 0] S10000x128.size inb_S10000x128_S10000x128_0_0, k0_pay1 x3 x4⟩] := by
  unfold runA; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]

theorem runA_L18 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : cond1 i) (hc2 : ¬cond2 i) (hc3 : cond3 i) (hc4 : ¬cond4 i) (x3 : Vec F S10000x128 .f32) (x4 : Vec F S128x128 .f32) (x2 : Vec F S400x10000 .f32) (x5 : Vec F S1x128 .f32) (xs18 : Vec F S10000x128 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x3 x4 x2 x5 xs18).2.1 = [⟨Rect.unit (s := S10000x128) (k0_off1 i) S400x128.size (k0_off1_inb i hc3), k0_pay4 x2 (k0_pay1 x3 x4) x5⟩] := by
  unfold runA; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]
theorem runB_L18 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : cond3 i) (hc4 : ¬cond4 i) (x2 : Vec F S400x10000 .f32) (x5 : Vec F S1x128 .f32) (xs17 : Vec F S10000x128 .f32) (xs18 : Vec F S10000x128 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 x5 xs17 xs18).1 = [⟨Rect.unit (s := S10000x128) (k0_off1 i) S400x128.size (k0_off1_inb i hc3), k0_pay4 x2 xs17 x5⟩] := by
  unfold runB; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]
theorem runC_L17 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (xs18 : Vec F S10000x128 .f32) (x6 : Vec F S128x128 .f32) (x2 : Vec F S400x10000 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 xs18 x6 x2 x7 x8 x9 x10 x11 x12 x13).1 = [⟨Rect.unit (s := S10000x128) ![0, 0] S10000x128.size inb_S10000x128_S10000x128_0_0, k0_pay2 xs18 x6⟩] := by
  unfold runC; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]

theorem runC_L14 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (xs18 : Vec F S10000x128 .f32) (x6 : Vec F S128x128 .f32) (x2 : Vec F S400x10000 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 xs18 x6 x2 x7 x8 x9 x10 x11 x12 x13).2.1 = [⟨Rect.unit (s := S400x128) ![0, 0] S400x128.size inb_S400x128_S400x128_0_0, k0_pay5 x2 (k0_pay2 xs18 x6) x7⟩] := by
  unfold runC; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]

theorem runC_L15 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (xs18 : Vec F S10000x128 .f32) (x6 : Vec F S128x128 .f32) (x2 : Vec F S400x10000 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 xs18 x6 x2 x7 x8 x9 x10 x11 x12 x13).2.2.1 = [⟨Rect.unit (s := S400x1) ![0, 0] S400x1.size inb_S400x1_S400x1_0_0, k0_pay6 x2 (k0_pay2 xs18 x6) x7 x8 x9 x10 x11⟩] := by
  unfold runC; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]

theorem runC_L16 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (xs18 : Vec F S10000x128 .f32) (x6 : Vec F S128x128 .f32) (x2 : Vec F S400x10000 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 xs18 x6 x2 x7 x8 x9 x10 x11 x12 x13).2.2.2.1 = [⟨Rect.unit (s := S400x1) ![0, 0] S400x1.size inb_S400x1_S400x1_0_0, k0_pay7 x2 (k0_pay2 xs18 x6) x7 x12 x13⟩] := by
  unfold runC; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]

theorem runD_L14 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : ¬cond3 i) (hc4 : cond4 i) (x2 : Vec F S400x10000 .f32) (xs17 : Vec F S10000x128 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 xs17 x7 x8 x9 x10 x11 x12 x13).1 = [⟨Rect.unit (s := S400x128) ![0, 0] S400x128.size inb_S400x128_S400x128_0_0, k0_pay5 x2 xs17 x7⟩] := by
  unfold runD; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]

theorem runD_L15 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : ¬cond3 i) (hc4 : cond4 i) (x2 : Vec F S400x10000 .f32) (xs17 : Vec F S10000x128 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 xs17 x7 x8 x9 x10 x11 x12 x13).2.1 = [⟨Rect.unit (s := S400x1) ![0, 0] S400x1.size inb_S400x1_S400x1_0_0, k0_pay6 x2 xs17 x7 x8 x9 x10 x11⟩] := by
  unfold runD; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]

theorem runD_L16 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : ¬cond3 i) (hc4 : cond4 i) (x2 : Vec F S400x10000 .f32) (xs17 : Vec F S10000x128 .f32) (x7 : Vec F S1x128 .f32) (x8 : Vec F S128x128 .f32) (x9 : Vec F S1x128 .f32) (x10 : Vec F S128x1 .f32) (x11 : Vec F S1x1 .f32) (x12 : Vec F S128x1 .f32) (x13 : Vec F S1x1 .f32) :
    (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x2 xs17 x7 x8 x9 x10 x11 x12 x13).2.2.1 = [⟨Rect.unit (s := S400x1) ![0, 0] S400x1.size inb_S400x1_S400x1_0_0, k0_pay7 x2 xs17 x7 x12 x13⟩] := by
  unfold runD; dsimp only; sl_unfold_run_names
  simp only [View.readAt_eq_ld, Memref.IsWhole.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.ld_unit_zero (S := S400x128) hz2, View.ld_unit_zero (S := S400x1) hz2, View.readCov_unit_zero (S := S10000x128) _ hz2]

end Cert.KernelIdeal.Hand

end
-- ==== Proof.KI.BodyCommon.lean ====
/-
  The body obligation's two sides at a point, written out window by window: what the body is called with (the
  invariant, nothing owed, each window's current staging buffer at what it holds) and what it returns.
-/
import proofs.«161254_g33749853012156_cont_8to1_b_320_22_alg».proof.Proof.KI.Step
import proofs.«161254_g33749853012156_cont_8to1_b_320_22_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Each window's current staging memref at point t, as the pipeline passes it to the body. -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)
abbrev ms10 (t : Fin cfg0.N) := win0_10.stage (cfg0.slots t 10)
abbrev hs10 (t : Fin cfg0.N) : (ms10 t).IsWhole := hstage0_10 ((cfg0.slots t 10).cast nbuf0_10)
abbrev ms11 (t : Fin cfg0.N) := win0_11.stage (cfg0.slots t 11)
abbrev hs11 (t : Fin cfg0.N) : (ms11 t).IsWhole := hstage0_11 ((cfg0.slots t 11).cast nbuf0_11)
abbrev ms12 (t : Fin cfg0.N) := win0_12.stage (cfg0.slots t 12)
abbrev hs12 (t : Fin cfg0.N) : (ms12 t).IsWhole := hstage0_12 ((cfg0.slots t 12).cast nbuf0_12)
abbrev ms13 (t : Fin cfg0.N) := win0_13.stage (cfg0.slots t 13)
abbrev hs13 (t : Fin cfg0.N) : (ms13 t).IsWhole := hstage0_13 ((cfg0.slots t 13).cast nbuf0_13)
abbrev ms14 (t : Fin cfg0.N) := win0_14.stage (cfg0.slots t 14)
abbrev hs14 (t : Fin cfg0.N) : (ms14 t).IsWhole := hstage0_14 ((cfg0.slots t 14).cast nbuf0_14)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- The same two sides with the inputs' buffers at their blocks (an input's buffer holds its block at every point,
    fetched there or not, and the body leaves it so). -/
def bodyPre' (c : Dev nD) (t : Fin cfg0.N) : sProp 𝕄 :=
  iprop(Phi m c t.val (Nat.le_of_lt t.isLt) ∗ (dats m 0 c).owesAt () t.castSucc
    ∗ (∃ d : (cfg0.win 0).block.Idx → Elt F (cfg0.win 0).elt, owns (c : Thread nD τ) (ms0 t) fullShare (iblk m c 0 t))
    ∗ (∃ d : (cfg0.win 1).block.Idx → Elt F (cfg0.win 1).elt, owns (c : Thread nD τ) (ms1 t) fullShare (iblk m c 1 t))
    ∗ (∃ d : (cfg0.win 2).block.Idx → Elt F (cfg0.win 2).elt, owns (c : Thread nD τ) (ms2 t) fullShare (iblk m c 2 t))
    ∗ (∃ d : (cfg0.win 3).block.Idx → Elt F (cfg0.win 3).elt, owns (c : Thread nD τ) (ms3 t) fullShare (iblk m c 3 t))
    ∗ (∃ d : (cfg0.win 4).block.Idx → Elt F (cfg0.win 4).elt, owns (c : Thread nD τ) (ms4 t) fullShare (iblk m c 4 t))
    ∗ (∃ d : (cfg0.win 5).block.Idx → Elt F (cfg0.win 5).elt, owns (c : Thread nD τ) (ms5 t) fullShare (iblk m c 5 t))
    ∗ (∃ d : (cfg0.win 6).block.Idx → Elt F (cfg0.win 6).elt, owns (c : Thread nD τ) (ms6 t) fullShare (iblk m c 6 t))
    ∗ (∃ d : (cfg0.win 7).block.Idx → Elt F (cfg0.win 7).elt, owns (c : Thread nD τ) (ms7 t) fullShare (iblk m c 7 t))
    ∗ (∃ d : (cfg0.win 8).block.Idx → Elt F (cfg0.win 8).elt, owns (c : Thread nD τ) (ms8 t) fullShare (iblk m c 8 t))
    ∗ (∃ d : (cfg0.win 9).block.Idx → Elt F (cfg0.win 9).elt, owns (c : Thread nD τ) (ms9 t) fullShare (iblk m c 9 t))
    ∗ (∃ d : (cfg0.win 10).block.Idx → Elt F (cfg0.win 10).elt, owns (c : Thread nD τ) (ms10 t) fullShare (iblk m c 10 t))
    ∗ (∃ d : (cfg0.win 11).block.Idx → Elt F (cfg0.win 11).elt, owns (c : Thread nD τ) (ms11 t) fullShare (iblk m c 11 t))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

def bodyPost' (c : Dev nD) (t : Fin cfg0.N) : sProp 𝕄 :=
  iprop(Phi m c (t.val + 1) t.isLt ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare (iblk m c 6 t)
    ∗ owns (c : Thread nD τ) (ms7 t) fullShare (iblk m c 7 t)
    ∗ owns (c : Thread nD τ) (ms8 t) fullShare (iblk m c 8 t)
    ∗ owns (c : Thread nD τ) (ms9 t) fullShare (iblk m c 9 t)
    ∗ owns (c : Thread nD τ) (ms10 t) fullShare (iblk m c 10 t)
    ∗ owns (c : Thread nD τ) (ms11 t) fullShare (iblk m c 11 t)
    ∗ (dats m 0 c).leavesExact 12 t
    ∗ (dats m 0 c).leavesExact 13 t
    ∗ (dats m 0 c).leavesExact 14 t)

theorem bodyPre_eq (c : Dev nD) (t : Fin cfg0.N) : bodyPre m c t = bodyPre' m c t := by
  unfold bodyPre bodyPre'
  simp only [before_0, before_1, before_2, before_3, before_4, before_5, before_6, before_7, before_8, before_9, before_10, before_11]
  rw [Phi_castSucc]

theorem bodyPost_eq (c : Dev nD) (t : Fin cfg0.N) : bodyPost m c t = bodyPost' m c t := by
  unfold bodyPost bodyPost'
  rw [show (dats m 0 c).owesAt () t.succ = (dats m 0 c).owesAt () t.castSucc from rfl]
  rw [show (dats m 0 c).Φ t.succ = Phi m c (t.val + 1) t.isLt from rfl]
  rw [show (dats m 0 c).leavesExact 0 t = owns (c : Thread nD τ) (ms0 t) fullShare (iblk m c 0 t) from by
    unfold Dat.leavesExact; rw [show cfg0.idle 0 (grid0.coords t) = false from rfl, after_0]]
  rw [show (dats m 0 c).leavesExact 1 t = owns (c : Thread nD τ) (ms1 t) fullShare (iblk m c 1 t) from by
    unfold Dat.leavesExact; rw [show cfg0.idle 1 (grid0.coords t) = false from rfl, after_1]]
  rw [show (dats m 0 c).leavesExact 2 t = owns (c : Thread nD τ) (ms2 t) fullShare (iblk m c 2 t) from by
    unfold Dat.leavesExact; rw [show cfg0.idle 2 (grid0.coords t) = false from rfl, after_2]]
  rw [show (dats m 0 c).leavesExact 3 t = owns (c : Thread nD τ) (ms3 t) fullShare (iblk m c 3 t) from by
    unfold Dat.leavesExact; rw [show cfg0.idle 3 (grid0.coords t) = false from rfl, after_3]]
  rw [show (dats m 0 c).leavesExact 4 t = owns (c : Thread nD τ) (ms4 t) fullShare (iblk m c 4 t) from by
    unfold Dat.leavesExact; rw [show cfg0.idle 4 (grid0.coords t) = false from rfl, after_4]]
  rw [show (dats m 0 c).leavesExact 5 t = owns (c : Thread nD τ) (ms5 t) fullShare (iblk m c 5 t) from by
    unfold Dat.leavesExact; rw [show cfg0.idle 5 (grid0.coords t) = false from rfl, after_5]]
  rw [show (dats m 0 c).leavesExact 6 t = owns (c : Thread nD τ) (ms6 t) fullShare (iblk m c 6 t) from by
    unfold Dat.leavesExact; rw [show cfg0.idle 6 (grid0.coords t) = false from rfl, after_6]]
  rw [show (dats m 0 c).leavesExact 7 t = owns (c : Thread nD τ) (ms7 t) fullShare (iblk m c 7 t) from by
    unfold Dat.leavesExact; rw [show cfg0.idle 7 (grid0.coords t) = false from rfl, after_7]]
  rw [show (dats m 0 c).leavesExact 8 t = owns (c : Thread nD τ) (ms8 t) fullShare (iblk m c 8 t) from by
    unfold Dat.leavesExact; rw [show cfg0.idle 8 (grid0.coords t) = false from rfl, after_8]]
  rw [show (dats m 0 c).leavesExact 9 t = owns (c : Thread nD τ) (ms9 t) fullShare (iblk m c 9 t) from by
    unfold Dat.leavesExact; rw [show cfg0.idle 9 (grid0.coords t) = false from rfl, after_9]]
  rw [show (dats m 0 c).leavesExact 10 t = owns (c : Thread nD τ) (ms10 t) fullShare (iblk m c 10 t) from by
    unfold Dat.leavesExact; rw [show cfg0.idle 10 (grid0.coords t) = false from rfl, after_10]]
  rw [show (dats m 0 c).leavesExact 11 t = owns (c : Thread nD τ) (ms11 t) fullShare (iblk m c 11 t) from by
    unfold Dat.leavesExact; rw [show cfg0.idle 11 (grid0.coords t) = false from rfl, after_11]]

end Cert.KernelIdeal.Hand

end
-- ==== Proof.KI.SoundA.lean ====
/-
  The body obligation at the first point (t = 0): both scratch buffers hold anything; the run stores x · W1 into the
  first and the first 400 rows of the first layer into the second, which comes back with 400 rows filled; the outputs,
  idle here, go back untouched.
-/
import proofs.«161254_g33749853012156_cont_8to1_b_320_22_alg».proof.Proof.KI.BodyCommon

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_A (c : Dev nD) (t : Fin cfg0.N) (hz : t.val = 0) :
    bodyPre' m c t ⊢ wp frame (wpE (defs₀ (F := F)) Variants.none c none) Set.univ (bodyAt0 t) (fun _ => bodyPost' m c t) := by
  have ht : t.val < 25 := by omega
  have et : t = t0 := Fin.ext hz
  unfold bodyPre' bodyPost' bodyAt0
  rw [Dat.leavesExact_idle (dats m 0 c) 12 t (idle_12 t ht) (noflush_12 t ht)]
  rw [Dat.leavesExact_idle (dats m 0 c) 13 t (idle_13 t ht) (noflush_13 t ht)]
  rw [Dat.leavesExact_idle (dats m 0 c) 14 t (idle_14 t ht) (noflush_14 t ht)]
  rw [Phi_zero m c _ _ hz, PhiA_eq, Phi_succ]
  have hS' : Sat m c t.val = Hand.S1 m c := if_pos ht
  rw [hS']
  have hc1 : cond1 (grid0.coords t) := (hcond1 t).mpr (by omega)
  have hc2 : ¬cond2 (grid0.coords t) := fun h => by have := (hcond2 t).mp h; omega
  have hc3 : cond3 (grid0.coords t) := (hcond3 t).mpr (by omega)
  have hc4 : ¬cond4 (grid0.coords t) := fun h => by have := (hcond4 t).mp h; omega
  iintro ⟨⟨⟨⟨%d17, HS⟩, ⟨%d18, HH⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have hg0 : Hgood m c t.val d18 := fun idx h => by rw [hz] at h; omega
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scS (Memref.isWhole_whole _) scH (Memref.isWhole_whole _) hc1 hc2 hc3 hc4 (iblk m c 1 t) (iblk m c 2 t) (iblk m c 0 t) (iblk m c 3 t) d18).2.2 Set.univ _)
  isplitl [H1]; · iexact H1
  isplitl [H2]; · iexact H2
  isplitl [H0]; · iexact H0
  isplitl [H3]; · iexact H3
  isplitl [HS]; · iexists d17; iexact HS
  isplitl [HH]; · iexact HH
  iintro ⟨H1, H2, H0, H3, ⟨%f17, HS⟩, HH⟩
  isplitl [HS HH Hg]
  · isplitl [HS]
    · unfold owns; iexists _; isplitr
      swap; · iexact HS
      ipureintro; rw [runA_L17, read_whole _ _ hz2]; subst et; rfl
    isplitl [HH]
    · iexists (scH.view.read (Elt F) (scH.view.writes (Elt F) ((Memref.isWhole_whole _ : scH.IsWhole).unread d18) (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scS (Memref.isWhole_whole _) scH (Memref.isWhole_whole _) hc1 hc2 hc3 hc4 (iblk m c 1 t) (iblk m c 2 t) (iblk m c 0 t) (iblk m c 3 t) d18).2.1))
      isplitr
      · ipureintro
        rw [runA_L18]
        have := Hgood_step m c t ht d18 hg0 scH.view _ (Memref.IsWhole.read_unread (Memref.isWhole_whole _ : scH.IsWhole) d18) (k0_off1_inb (grid0.coords t) hc3)
        subst et
        exact this
      · unfold owns; iexists _; isplitr
        swap; · iexact HH
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d12; iexact H12
  isplitl [H13]; · iexists d13; iexact H13
  iexists d14; iexact H14

end Cert.KernelIdeal.Hand

end
-- ==== Proof.KI.SoundB.lean ====
/-
  The body obligation at a later point of phase 0 (0 < t < 25): the invariant hands the run the first scratch at x · W1
  and the second with its first 400·t rows filled; the run stores point t's block of the first layer into rows
  400·t …, so the second scratch comes back with 400·(t + 1) rows filled; the outputs, idle here, go back untouched.
-/
import proofs.«161254_g33749853012156_cont_8to1_b_320_22_alg».proof.Proof.KI.BodyCommon

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_B (c : Dev nD) (t : Fin cfg0.N) (hz : t.val ≠ 0) (ht : t.val < 25) :
    bodyPre' m c t ⊢ wp frame (wpE (defs₀ (F := F)) Variants.none c none) Set.univ (bodyAt0 t) (fun _ => bodyPost' m c t) := by
  unfold bodyPre' bodyPost' bodyAt0
  rw [Dat.leavesExact_idle (dats m 0 c) 12 t (idle_12 t ht) (noflush_12 t ht)]
  rw [Dat.leavesExact_idle (dats m 0 c) 13 t (idle_13 t ht) (noflush_13 t ht)]
  rw [Dat.leavesExact_idle (dats m 0 c) 14 t (idle_14 t ht) (noflush_14 t ht)]
  rw [Phi_pos m c _ _ hz, Phi_succ]
  have hS : Sat m c (t.val - 1) = Hand.S1 m c := if_pos (by omega)
  have hS' : Sat m c t.val = Hand.S1 m c := if_pos ht
  rw [hS, hS']
  have hc1 : ¬cond1 (grid0.coords t) := fun h => hz ((hcond1 t).mp h)
  have hc2 : ¬cond2 (grid0.coords t) := fun h => by have := (hcond2 t).mp h; omega
  have hc3 : cond3 (grid0.coords t) := (hcond3 t).mpr ht
  have hc4 : ¬cond4 (grid0.coords t) := fun h => by have := (hcond4 t).mp h; omega
  iintro ⟨⟨HS, ⟨%h, %hg, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scS (Memref.isWhole_whole _) scH (Memref.isWhole_whole _) hc1 hc2 hc3 hc4 (iblk m c 0 t) (iblk m c 3 t) (Hand.S1 m c) h).2 Set.univ _)
  isplitl [H0]; · iexact H0
  isplitl [H3]; · iexact H3
  isplitl [HS]; · iexact HS
  isplitl [HH]; · iexact HH
  iintro ⟨H0, H3, HS, HH⟩
  isplitl [HS HH Hg]
  · isplitl [HS]; · iexact HS
    isplitl [HH]
    · iexists (scH.view.read (Elt F) (scH.view.writes (Elt F) ((Memref.isWhole_whole _ : scH.IsWhole).unread h)
        (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scS (Memref.isWhole_whole _) scH (Memref.isWhole_whole _) hc1 hc2 hc3 hc4 (iblk m c 0 t) (iblk m c 3 t) (Hand.S1 m c) h).1))
      isplitr
      · ipureintro
        rw [runB_L18]
        exact Hgood_step m c t ht h hg scH.view _ (Memref.IsWhole.read_unread _ h) _
      · unfold owns; iexists _; isplitr
        swap; · iexact HH
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d12; iexact H12
  isplitl [H13]; · iexists d13; iexact H13
  iexists d14; iexact H14

end Cert.KernelIdeal.Hand

end
-- ==== Proof.KI.SoundC.lean ====
/-
  The body obligation at the first point of phase 1 (t = 25): all 25 blocks are in, so the second scratch IS the first
  layer; the run replaces the first scratch by h1 · W2 and stores the point's rows of the second layer and of the two
  heads into the three output blocks.
-/
import proofs.«161254_g33749853012156_cont_8to1_b_320_22_alg».proof.Proof.KI.BodyCommon

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_C (c : Dev nD) (t : Fin cfg0.N) (h25 : t.val = 25) :
    bodyPre' m c t ⊢ wp frame (wpE (defs₀ (F := F)) Variants.none c none) Set.univ (bodyAt0 t) (fun _ => bodyPost' m c t) := by
  have ht : 25 ≤ t.val := by omega
  have hz : t.val ≠ 0 := by omega
  have et : t = t25 := Fin.ext h25
  unfold bodyPre' bodyPost' bodyAt0
  rw [show (dats m 0 c).leavesExact 12 t = owns (c : Thread nD τ) (ms12 t) fullShare (O12 m c t) from by
    unfold Dat.leavesExact; rw [live_12 t ht, after_12]]
  rw [show (dats m 0 c).leavesExact 13 t = owns (c : Thread nD τ) (ms13 t) fullShare (O13 m c t) from by
    unfold Dat.leavesExact; rw [live_13 t ht, after_13]]
  rw [show (dats m 0 c).leavesExact 14 t = owns (c : Thread nD τ) (ms14 t) fullShare (O14 m c t) from by
    unfold Dat.leavesExact; rw [live_14 t ht, after_14]]
  rw [Phi_pos m c _ _ hz, Phi_succ]
  have hS' : Sat m c t.val = Hand.S2 m c := if_neg (by omega)
  rw [hS']
  have hc1 : ¬cond1 (grid0.coords t) := fun h => by have := (hcond1 t).mp h; omega
  have hc2 : cond2 (grid0.coords t) := (hcond2 t).mpr (by omega)
  have hc3 : ¬cond3 (grid0.coords t) := fun h => by have := (hcond3 t).mp h; omega
  have hc4 : cond4 (grid0.coords t) := (hcond4 t).mpr (by omega)
  iintro ⟨⟨HS, ⟨%h, %hg, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  obtain rfl : h = Hfull m c := Hgood_full m c t.val ht h hg
  iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scS (Memref.isWhole_whole _) scH (Memref.isWhole_whole _) hc1 hc2 hc3 hc4 (Hfull m c) (iblk m c 4 t) (iblk m c 0 t) (iblk m c 5 t) (iblk m c 6 t) (iblk m c 7 t) (iblk m c 8 t) (iblk m c 9 t) (iblk m c 10 t) (iblk m c 11 t)).2.2.2.2 Set.univ _)
  isplitl [HH]; · iexact HH
  isplitl [H4]; · iexact H4
  isplitl [H0]; · iexact H0
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexists _; iexact HS
  isplitl [H12]; · iexists _; iexact H12
  isplitl [H13]; · iexists _; iexact H13
  isplitl [H14]; · iexists _; iexact H14
  iintro ⟨HH, H4, H0, H5, H6, H7, H8, H9, H10, H11, ⟨%f17, HS⟩, ⟨%f12, H12⟩, ⟨%f13, H13⟩, ⟨%f14, H14⟩⟩
  isplitl [HS HH Hg]
  · isplitl [HS]
    · unfold owns; iexists _; isplitr
      swap; · iexact HS
      ipureintro; rw [runC_L17, read_whole _ _ hz2]; subst et; rfl
    isplitl [HH]
    · iexists (Hfull m c); isplitr
      · ipureintro; exact fun idx _ => rfl
      · iexact HH
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; rw [runC_L14, read_whole _ _ hz2]; subst et; rfl
  isplitl [H13]
  · unfold owns; iexists _; isplitr
    swap; · iexact H13
    ipureintro; rw [runC_L15, read_whole _ _ hz2]; subst et; rfl
  unfold owns; iexists _; isplitr
  swap; · iexact H14
  ipureintro; rw [runC_L16, read_whole _ _ hz2]; subst et; rfl

end Cert.KernelIdeal.Hand

end
-- ==== Proof.KI.SoundD.lean ====
/-
  The body obligation at a later point of phase 1 (25 < t): the first scratch holds h1 · W2 and the second the whole
  first layer, both unchanged by the run; the three output blocks come back at the point's rows of the second layer and
  of the two heads.
-/
import proofs.«161254_g33749853012156_cont_8to1_b_320_22_alg».proof.Proof.KI.BodyCommon

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_D (c : Dev nD) (t : Fin cfg0.N) (ht : 25 ≤ t.val) (hz25 : t.val ≠ 25) :
    bodyPre' m c t ⊢ wp frame (wpE (defs₀ (F := F)) Variants.none c none) Set.univ (bodyAt0 t) (fun _ => bodyPost' m c t) := by
  have hz : t.val ≠ 0 := by omega
  have hN : t.val < 50 := lt_of_lt_of_eq t.isLt N50
  unfold bodyPre' bodyPost' bodyAt0
  rw [show (dats m 0 c).leavesExact 12 t = owns (c : Thread nD τ) (ms12 t) fullShare (O12 m c t) from by
    unfold Dat.leavesExact; rw [live_12 t ht, after_12]]
  rw [show (dats m 0 c).leavesExact 13 t = owns (c : Thread nD τ) (ms13 t) fullShare (O13 m c t) from by
    unfold Dat.leavesExact; rw [live_13 t ht, after_13]]
  rw [show (dats m 0 c).leavesExact 14 t = owns (c : Thread nD τ) (ms14 t) fullShare (O14 m c t) from by
    unfold Dat.leavesExact; rw [live_14 t ht, after_14]]
  rw [Phi_pos m c _ _ hz, Phi_succ]
  have hS : Sat m c (t.val - 1) = Hand.S2 m c := if_neg (by omega)
  have hS' : Sat m c t.val = Hand.S2 m c := if_neg (by omega)
  rw [hS, hS']
  have hc1 : ¬cond1 (grid0.coords t) := fun h => by have := (hcond1 t).mp h; omega
  have hc2 : ¬cond2 (grid0.coords t) := fun h => by have := (hcond2 t).mp h; omega
  have hc3 : ¬cond3 (grid0.coords t) := fun h => by have := (hcond3 t).mp h; omega
  have hc4 : cond4 (grid0.coords t) := (hcond4 t).mpr (by omega)
  iintro ⟨⟨HS, ⟨%h, %hg, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have eh : h = Hfull m c := Hgood_full m c t.val ht h hg
  iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scS (Memref.isWhole_whole _) scH (Memref.isWhole_whole _) hc1 hc2 hc3 hc4 (iblk m c 0 t) (Hand.S2 m c) (iblk m c 5 t) (iblk m c 6 t) (iblk m c 7 t) (iblk m c 8 t) (iblk m c 9 t) (iblk m c 10 t) (iblk m c 11 t)).2.2.2 Set.univ _)
  isplitl [H0]; · iexact H0
  isplitl [HS]; · iexact HS
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iintro ⟨H0, HS, H5, H6, H7, H8, H9, H10, H11, ⟨%f12, H12⟩, ⟨%f13, H13⟩, ⟨%f14, H14⟩⟩
  isplitl [HS HH Hg]
  · isplitl [HS]; · iexact HS
    isplitl [HH]
    · iexists h; isplitr
      · ipureintro; rw [eh]; exact fun idx _ => rfl
      · iexact HH
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; rw [runD_L14, read_whole _ _ hz2]; rfl
  isplitl [H13]
  · unfold owns; iexists _; isplitr
    swap; · iexact H13
    ipureintro; rw [runD_L15, read_whole _ _ hz2]; rfl
  unfold owns; iexists _; isplitr
  swap; · iexact H14
  ipureintro; rw [runD_L16, read_whole _ _ hz2]; rfl

end Cert.KernelIdeal.Hand

end
-- ==== Proof.KI.Frame.lean ====
/-
  The body obligation at every point, from its four cases, and the run of the whole program: the class invariant
  yields the tracking invariant before the first point (nothing is claimed of the scratch there) and gets it back
  after the last (what the scratch holds is forgotten); so every weakly fair execution terminates, nothing faults, each
  output array ends at what the points wrote back, and every other buffer as the host lines after the region leave it.
-/
import proofs.«161254_g33749853012156_cont_8to1_b_320_22_alg».proof.Proof.KI.SoundA
import proofs.«161254_g33749853012156_cont_8to1_b_320_22_alg».proof.Proof.KI.SoundB
import proofs.«161254_g33749853012156_cont_8to1_b_320_22_alg».proof.Proof.KI.SoundC
import proofs.«161254_g33749853012156_cont_8to1_b_320_22_alg».proof.Proof.KI.SoundD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: which of the four cases the point is in is read off its number. -/
theorem sound_body (c : Dev nD) (t : Fin cfg0.N) :
    bodyPre m c t ⊢ wp frame (wpE (defs₀ (F := F)) Variants.none c none) Set.univ (bodyAt0 t) (fun _ => bodyPost m c t) := by
  rw [bodyPre_eq, bodyPost_eq]
  have hN : t.val < 50 := lt_of_lt_of_eq t.isLt N50
  by_cases h0 : t.val = 0
  · exact sound_A m c t h0
  by_cases h1 : t.val < 25
  · exact sound_B m c t h0 h1
  by_cases h2 : t.val = 25
  · exact sound_C m c t h2
  exact sound_D m c t (by omega) h2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last, N50]; omega), PhiA_eq]
  iintro ⟨HS, ⟨%h, -, HH⟩, Hg⟩
  isplitl [HS HH]
  · isplitl [HS]
    · iexists _; iexact HS
    iexists _; iexact HH
  iexact Hg

set_option backward.isDefEq.respectTransparency.types false in
/-- The run of @main: every weakly fair execution terminates, nothing faults, and the final state has every array of
    the pipeline at what the proof data compute and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Hand

end
-- ==== Proof.Spec.lean ====
/-
  The mathematics both programs compute, entry by entry, on the extended reals.

  A two-layer graph convolution over a dense adjacency followed by two small heads:
    h1  = max (adj · (x · W1) + b1) 0          (10000 × 128)
    rep = max (adj · (h1 · W2) + b2) 0         (10000 × 128)
    tau = max (rep · Wt1 + bt1) 0 · Wt2 + bt2  (10000)
    e   = 1 / (1 + exp (−(rep · Wp + bp)))     (10000)
  Every product is the plain sum over the contracted coordinate; a bias is added along the rows. Nothing here
  depends on how the rows are tiled or in which order the tiles are visited.
-/
import Idealize.ShloMosaic.PureOps.Ideal
import Idealize.ShloMosaic.Lib.ValueIdx

noncomputable section

open scoped BigOperators

namespace Cert.Spec

open Idealize.ShloMosaic Idealize.ShloMosaic.ValueIdx

/-- An a × b array of extended reals, and a vector of length a. -/
abbrev Mat (a b : Nat) : Type := (⟨2, ![a, b]⟩ : Shape).Idx → EReal
abbrev Vct (a : Nat) : Type := (⟨1, ![a]⟩ : Shape).Idx → EReal

/-- An array from its entries by coordinates. -/
def mat {a b : Nat} (f : Fin a → Fin b → EReal) : Mat a b :=
  fun i => f ⟨(i 0).val, idx2_lt0 i⟩ ⟨(i 1).val, idx2_lt1 i⟩
theorem mat_ix2 {a b : Nat} (f : Fin a → Fin b → EReal) (p : Fin a) (q : Fin b) : mat f (ix2 p q) = f p q := rfl

/-- A vector from its entries. -/
def vct {a : Nat} (f : Fin a → EReal) : Vct a := fun i => f ⟨(i 0).val, (i 0).isLt⟩
theorem vct_ix1 {a : Nat} (f : Fin a → EReal) (p : Fin a) : vct f (ix1 p) = f p := rfl

/-- Entry (p, q) of the product l · r. -/
def mm {N K M : Nat} (l : Mat N K) (r : Mat K M) (p : Fin N) (q : Fin M) : EReal :=
  ∑ k : Fin K, l (ix2 p k) * r (ix2 k q)

/-- Entry (p, q) of max (l · r + b) 0, the bias b added along the rows. -/
def layer {N K M : Nat} (l : Mat N K) (r : Mat K M) (b : Vct M) (p : Fin N) (q : Fin M) : EReal :=
  max (mm l r p q + b (ix1 q)) 0

/-- The first layer. -/
def h1 (x : Mat 10000 128) (adj : Mat 10000 10000) (W1 : Mat 128 128) (b1 : Vct 128) : Mat 10000 128 :=
  mat (layer adj (mat (mm x W1)) b1)

/-- The second layer: the representation. -/
def rep (x : Mat 10000 128) (adj : Mat 10000 10000) (W1 : Mat 128 128) (b1 : Vct 128) (W2 : Mat 128 128) (b2 : Vct 128) :
    Mat 10000 128 :=
  mat (layer adj (mat (mm (h1 x adj W1 b1) W2)) b2)

/-- The first head, from a representation R: max (R · Wt1 + bt1) 0 · Wt2 + bt2, a vector over the rows. -/
def tauOf (R : Mat 10000 128) (Wt1 : Mat 128 128) (bt1 : Vct 128) (Wt2 : Mat 128 1) (bt2 : Vct 1) : Vct 10000 :=
  vct fun r => mm (mat (layer R Wt1 bt1)) Wt2 r 0 + bt2 (ix1 0)

/-- The second head, from a representation R: the logistic function of R · Wp + bp. -/
def eOf (R : Mat 10000 128) (Wp : Mat 128 1) (bp : Vct 1) : Vct 10000 :=
  vct fun r => Ideal.logistic (mm R Wp r 0 + bp (ix1 0))

/-- The zero vector. -/
def zeros : Vct 10000 := fun _ => 0

end Cert.Spec

end
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.PayIdeal.lean ====
/-
  The kernel body's arithmetic, entry by entry, at the extended reals.

  The body computes seven values from what it loads. Each is built from matrix products into a zero accumulator,
  a bias row added to every row, a maximum against zero, and (for the last) the logistic function. Read at an entry
  (p, q), a product is the plain sum over the contracted coordinate of the operands' products, the bias row
  contributes its entry at column q, and the pointwise operations act on the entries. The statements below say
  exactly this for each of the seven values; nothing in them depends on which block of rows the body is working on.
-/
import proofs.«161254_g33749853012156_cont_8to1_b_320_22_alg».proof.Proof.Gen.KernelIdeal.Skeleton
import proofs.«161254_g33749853012156_cont_8to1_b_320_22_alg».proof.Proof.Spec
import proofs.«161254_g33749853012156_cont_8to1_b_320_22_alg».proof.Proof.LibDotPlain
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.PayIdeal

open Cert.KernelIdeal Cert.KernelIdeal.Gen Idealize.ShloMosaic Idealize.ShloMosaic.ValueIdx

/-! ## The four products, read at an entry

For each of the four dimension records the body uses: the left operand is read at (row of the entry, contracted
coordinate) and the right operand at (contracted coordinate, column of the entry), so the product into a zero
accumulator is the plain sum. -/

/-- The product [10000x128] × [128x128] → [10000x128] into a zero accumulator, at entry (p, q). -/
theorem matmul_xw_apply (l : FVec Ideal S10000x128 .f32) (r : FVec Ideal S128x128 .f32) (p : Fin 10000) (q : Fin 128) :
    FloatOps.matmul dot_S10000x128_S128x128_S10000x128_1_0_0_1_n_n none l r (constant (F := Ideal) S10000x128 .f32 0x00000000#32) (ix2 p q) = Cert.Spec.mm l r p q :=
  Cert.LibDotPlain.matmul_zero_plain dot_S10000x128_S128x128_S10000x128_1_0_0_1_n_n rfl rfl
    (fun i k => by
      unfold DotDims.lhsIdx
      rw [dif_neg (show ¬(0 : Fin S10000x128.rank) ∈ dot_S10000x128_S128x128_S10000x128_1_0_0_1_n_n.lhsBatch by decide),
        dif_pos (show (0 : Fin S10000x128.rank) ∈ dot_S10000x128_S128x128_S10000x128_1_0_0_1_n_n.lhsNonContracting by decide)]
      rfl)
    (fun i k => dot_S10000x128_S128x128_S10000x128_1_0_0_1_n_n.lhsIdx_val_of_single rfl i k)
    (fun i k => dot_S10000x128_S128x128_S10000x128_1_0_0_1_n_n.rhsIdx_val_of_single rfl i k)
    (fun i k => by
      unfold DotDims.rhsIdx
      rw [dif_neg (show ¬(1 : Fin S128x128.rank) ∈ dot_S10000x128_S128x128_S10000x128_1_0_0_1_n_n.rhsBatch by decide),
        dif_pos (show (1 : Fin S128x128.rank) ∈ dot_S10000x128_S128x128_S10000x128_1_0_0_1_n_n.rhsNonContracting by decide)]
      rfl)
    none l r p q

/-- The product [400x10000] × [10000x128] → [400x128] into a zero accumulator, at entry (p, q). -/
theorem matmul_adj_apply (l : FVec Ideal S400x10000 .f32) (r : FVec Ideal S10000x128 .f32) (p : Fin 400) (q : Fin 128) :
    FloatOps.matmul dot_S400x10000_S10000x128_S400x128_1_0_0_1_n_n none l r (constant (F := Ideal) S400x128 .f32 0x00000000#32) (ix2 p q) = Cert.Spec.mm l r p q :=
  Cert.LibDotPlain.matmul_zero_plain dot_S400x10000_S10000x128_S400x128_1_0_0_1_n_n rfl rfl
    (fun i k => by
      unfold DotDims.lhsIdx
      rw [dif_neg (show ¬(0 : Fin S400x10000.rank) ∈ dot_S400x10000_S10000x128_S400x128_1_0_0_1_n_n.lhsBatch by decide),
        dif_pos (show (0 : Fin S400x10000.rank) ∈ dot_S400x10000_S10000x128_S400x128_1_0_0_1_n_n.lhsNonContracting by decide)]
      rfl)
    (fun i k => dot_S400x10000_S10000x128_S400x128_1_0_0_1_n_n.lhsIdx_val_of_single rfl i k)
    (fun i k => dot_S400x10000_S10000x128_S400x128_1_0_0_1_n_n.rhsIdx_val_of_single rfl i k)
    (fun i k => by
      unfold DotDims.rhsIdx
      rw [dif_neg (show ¬(1 : Fin S10000x128.rank) ∈ dot_S400x10000_S10000x128_S400x128_1_0_0_1_n_n.rhsBatch by decide),
        dif_pos (show (1 : Fin S10000x128.rank) ∈ dot_S400x10000_S10000x128_S400x128_1_0_0_1_n_n.rhsNonContracting by decide)]
      rfl)
    none l r p q

/-- The product [400x128] × [128x128] → [400x128] into a zero accumulator, at entry (p, q). -/
theorem matmul_hid_apply (l : FVec Ideal S400x128 .f32) (r : FVec Ideal S128x128 .f32) (p : Fin 400) (q : Fin 128) :
    FloatOps.matmul dot_S400x128_S128x128_S400x128_1_0_0_1_n_n none l r (constant (F := Ideal) S400x128 .f32 0x00000000#32) (ix2 p q) = Cert.Spec.mm l r p q :=
  Cert.LibDotPlain.matmul_zero_plain dot_S400x128_S128x128_S400x128_1_0_0_1_n_n rfl rfl
    (fun i k => by
      unfold DotDims.lhsIdx
      rw [dif_neg (show ¬(0 : Fin S400x128.rank) ∈ dot_S400x128_S128x128_S400x128_1_0_0_1_n_n.lhsBatch by decide),
        dif_pos (show (0 : Fin S400x128.rank) ∈ dot_S400x128_S128x128_S400x128_1_0_0_1_n_n.lhsNonContracting by decide)]
      rfl)
    (fun i k => dot_S400x128_S128x128_S400x128_1_0_0_1_n_n.lhsIdx_val_of_single rfl i k)
    (fun i k => dot_S400x128_S128x128_S400x128_1_0_0_1_n_n.rhsIdx_val_of_single rfl i k)
    (fun i k => by
      unfold DotDims.rhsIdx
      rw [dif_neg (show ¬(1 : Fin S128x128.rank) ∈ dot_S400x128_S128x128_S400x128_1_0_0_1_n_n.rhsBatch by decide),
        dif_pos (show (1 : Fin S128x128.rank) ∈ dot_S400x128_S128x128_S400x128_1_0_0_1_n_n.rhsNonContracting by decide)]
      rfl)
    none l r p q

/-- The product [400x128] × [128x1] → [400x1] into a zero accumulator, at entry (p, q). -/
theorem matmul_col_apply (l : FVec Ideal S400x128 .f32) (r : FVec Ideal S128x1 .f32) (p : Fin 400) (q : Fin 1) :
    FloatOps.matmul dot_S400x128_S128x1_S400x1_1_0_0_1_n_n none l r (constant (F := Ideal) S400x1 .f32 0x00000000#32) (ix2 p q) = Cert.Spec.mm l r p q :=
  Cert.LibDotPlain.matmul_zero_plain dot_S400x128_S128x1_S400x1_1_0_0_1_n_n rfl rfl
    (fun i k => by
      unfold DotDims.lhsIdx
      rw [dif_neg (show ¬(0 : Fin S400x128.rank) ∈ dot_S400x128_S128x1_S400x1_1_0_0_1_n_n.lhsBatch by decide),
        dif_pos (show (0 : Fin S400x128.rank) ∈ dot_S400x128_S128x1_S400x1_1_0_0_1_n_n.lhsNonContracting by decide)]
      rfl)
    (fun i k => dot_S400x128_S128x1_S400x1_1_0_0_1_n_n.lhsIdx_val_of_single rfl i k)
    (fun i k => dot_S400x128_S128x1_S400x1_1_0_0_1_n_n.rhsIdx_val_of_single rfl i k)
    (fun i k => by
      unfold DotDims.rhsIdx
      rw [dif_neg (show ¬(1 : Fin S128x1.rank) ∈ dot_S400x128_S128x1_S400x1_1_0_0_1_n_n.rhsBatch by decide),
        dif_pos (show (1 : Fin S128x1.rank) ∈ dot_S400x128_S128x1_S400x1_1_0_0_1_n_n.rhsNonContracting by decide)]
      rfl)
    none l r p q

/-! ## A bias row and a maximum against zero; a one-column head -/

/-- A bias row added to every row, then a maximum against zero, at entry (p, q). -/
theorem relu_bias_apply (x : FVec Ideal S400x128 .f32) (b : FVec Ideal S1x128 .f32) (p : Fin 400) (q : Fin 128) :
    maximumf (addf x (broadcastTo S400x128 (shapeCast S1x128 b shapeCasts_S1x128_S1x128) broadcasts_S1x128_S400x128))
        (broadcast S400x128 (Scalar.ofBits (F := Ideal) .f32 0x00000000#32)) (ix2 p q)
      = max (x (ix2 p q) + b (ix2 0 q)) 0 := by
  show max (x (ix2 p q) + broadcastTo S400x128 (shapeCast S1x128 b shapeCasts_S1x128_S1x128) broadcasts_S1x128_S400x128 (ix2 p q))
      (Ideal.ofBits .f32 0x00000000#32) = _
  rw [shapeCast_self, broadcastTo_1b_ab_apply, Ideal.ofBits_zero_f32]

/-- A product with a one-column matrix plus a one-entry bias, at row p. -/
theorem head_apply (h : FVec Ideal S400x128 .f32) (w : FVec Ideal S128x1 .f32) (b : FVec Ideal S1x1 .f32) (p : Fin 400) :
    addf (matmul dot_S400x128_S128x1_S400x1_1_0_0_1_n_n none h w (constant (F := Ideal) S400x1 .f32 0x00000000#32))
        (broadcastTo S400x1 (shapeCast S1x1 b shapeCasts_S1x1_S1x1) broadcasts_S1x1_S400x1) (ix2 p 0)
      = Cert.Spec.mm h w p 0 + b (ix2 0 0) := by
  show FloatOps.matmul dot_S400x128_S128x1_S400x1_1_0_0_1_n_n none h w (constant (F := Ideal) S400x1 .f32 0x00000000#32) (ix2 p 0)
      + broadcastTo S400x1 (shapeCast S1x1 b shapeCasts_S1x1_S1x1) broadcasts_S1x1_S400x1 (ix2 p 0) = _
  rw [matmul_col_apply, shapeCast_self, broadcastTo_1b_ab_apply]

/-! ## The seven values -/

/-- The features times the first weight matrix, staged for the first layer. -/
theorem pay1_apply (v19 : Vec Ideal S10000x128 .f32) (v20 : Vec Ideal S128x128 .f32) (k : Fin 10000) (q : Fin 128) :
    k0_pay1 (F := Ideal) v19 v20 (ix2 k q) = Cert.Spec.mm v19 v20 k q := by
  unfold k0_pay1
  exact (congrFun (shapeCast_self _ _) (ix2 k q)).trans (matmul_xw_apply v19 v20 k q)

/-- The first layer's output times the second weight matrix, staged for the second layer. -/
theorem pay2_apply (v19 : Vec Ideal S10000x128 .f32) (v20 : Vec Ideal S128x128 .f32) (k : Fin 10000) (q : Fin 128) :
    k0_pay2 (F := Ideal) v19 v20 (ix2 k q) = Cert.Spec.mm v19 v20 k q := by
  unfold k0_pay2
  exact (congrFun (shapeCast_self _ _) (ix2 k q)).trans (matmul_xw_apply v19 v20 k q)

/-- The product of the adjacency block with the staged product. -/
theorem pay3_apply (v10 : Vec Ideal S400x10000 .f32) (v11 : Vec Ideal S10000x128 .f32) (p : Fin 400) (q : Fin 128) :
    k0_pay3 (F := Ideal) v10 v11 (ix2 p q) = Cert.Spec.mm v10 v11 p q := by
  unfold k0_pay3
  exact matmul_adj_apply v10 v11 p q

/-- A block of the first layer: the adjacency product plus the bias row, against zero. -/
theorem pay4_apply (v10 : Vec Ideal S400x10000 .f32) (v11 : Vec Ideal S10000x128 .f32) (v19 : Vec Ideal S1x128 .f32)
    (p : Fin 400) (q : Fin 128) :
    k0_pay4 (F := Ideal) v10 v11 v19 (ix2 p q) = max (Cert.Spec.mm v10 v11 p q + v19 (ix2 0 q)) 0 := by
  unfold k0_pay4
  refine (congrFun (shapeCast_self _ _) (ix2 p q)).trans ?_
  refine (relu_bias_apply _ v19 p q).trans ?_
  rw [pay3_apply]

/-- A block of the second layer: the same expression of its own operands. -/
theorem pay5_apply (v10 : Vec Ideal S400x10000 .f32) (v11 : Vec Ideal S10000x128 .f32) (v19 : Vec Ideal S1x128 .f32)
    (p : Fin 400) (q : Fin 128) :
    k0_pay5 (F := Ideal) v10 v11 v19 (ix2 p q) = max (Cert.Spec.mm v10 v11 p q + v19 (ix2 0 q)) 0 := by
  unfold k0_pay5
  refine (relu_bias_apply _ v19 p q).trans ?_
  rw [pay3_apply]

/-- The first head on a block of the second layer: a hidden layer against zero, then a one-column product plus a bias. -/
theorem pay6_apply (v10 : Vec Ideal S400x10000 .f32) (v11 : Vec Ideal S10000x128 .f32) (v19 : Vec Ideal S1x128 .f32)
    (v26 : Vec Ideal S128x128 .f32) (v28 : Vec Ideal S1x128 .f32) (v34 : Vec Ideal S128x1 .f32) (v36 : Vec Ideal S1x1 .f32)
    (p : Fin 400) :
    k0_pay6 (F := Ideal) v10 v11 v19 v26 v28 v34 v36 (ix2 p 0) =
      Cert.Spec.mm (Cert.Spec.mat fun p' q' => max (Cert.Spec.mm (k0_pay5 (F := Ideal) v10 v11 v19) v26 p' q' + v28 (ix2 0 q')) 0)
        v34 p 0 + v36 (ix2 0 0) := by
  unfold k0_pay6
  refine (head_apply _ v34 v36 p).trans ?_
  refine congrArg (fun h => Cert.Spec.mm h v34 p 0 + v36 (ix2 0 0)) (funext fun j => ?_)
  obtain ⟨p', q', rfl⟩ : ∃ (p' : Fin 400) (q' : Fin 128), j = ix2 p' q' := ⟨j 0, j 1, eq_ix2 j⟩
  rw [Cert.Spec.mat_ix2]
  refine (relu_bias_apply _ v28 p' q').trans ?_
  exact congrArg (fun t => max (t + v28 (ix2 0 q')) 0) (matmul_hid_apply _ v26 p' q')

/-- The second head on a block of the second layer: the logistic function of a one-column product plus a bias. -/
theorem pay7_apply (v10 : Vec Ideal S400x10000 .f32) (v11 : Vec Ideal S10000x128 .f32) (v19 : Vec Ideal S1x128 .f32)
    (v41 : Vec Ideal S128x1 .f32) (v43 : Vec Ideal S1x1 .f32) (p : Fin 400) :
    k0_pay7 (F := Ideal) v10 v11 v19 v41 v43 (ix2 p 0) =
      Ideal.logistic (Cert.Spec.mm (k0_pay5 (F := Ideal) v10 v11 v19) v41 p 0 + v43 (ix2 0 0)) := by
  unfold k0_pay7
  exact congrArg Ideal.logistic (head_apply _ v41 v43 p)

end Cert.PayIdeal

end
-- ==== Proof.KI.Values.lean ====
/-
  The values the kernel carries, at the extended reals, are the specification's.

  The pipeline hands the body, at each grid point, a block of each input array. All inputs but the adjacency are
  handed whole; the adjacency is handed 400 rows at a time, block t in the first phase and block 49 - t in the
  second. The three bias rows and the two one-entry biases reach the kernel as [1, n] arrays with the entries of
  the [n] arguments. Reading the blocks this way, the body's arithmetic (a product is a plain sum over the
  contracted coordinate, a bias is added along the rows, then a maximum against zero or the logistic function)
  gives, row block by row block, the two-layer graph convolution and its two heads of the specification.
-/
import proofs.«161254_g33749853012156_cont_8to1_b_320_22_alg».proof.Proof.KI.Data
import proofs.«161254_g33749853012156_cont_8to1_b_320_22_alg».proof.Proof.PayIdeal
import proofs.«161254_g33749853012156_cont_8to1_b_320_22_alg».proof.Proof.Spec
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ) (c : Dev nD)

/-! ## The argument arrays -/

/-- The argument arrays as the kernel's memory has them. -/
def A0 : Cert.Spec.Mat 10000 128 := m ((c.tc : Thread nD τ).loc main_arg0)
def A1 : Cert.Spec.Mat 10000 10000 := m ((c.tc : Thread nD τ).loc main_arg1)
def A2 : Cert.Spec.Mat 128 128 := m ((c.tc : Thread nD τ).loc main_arg2)
def A3 : Cert.Spec.Vct 128 := m ((c.tc : Thread nD τ).loc main_arg3)
def A4 : Cert.Spec.Mat 128 128 := m ((c.tc : Thread nD τ).loc main_arg4)
def A5 : Cert.Spec.Vct 128 := m ((c.tc : Thread nD τ).loc main_arg5)
def A6 : Cert.Spec.Mat 128 128 := m ((c.tc : Thread nD τ).loc main_arg6)
def A7 : Cert.Spec.Vct 128 := m ((c.tc : Thread nD τ).loc main_arg7)
def A8 : Cert.Spec.Mat 128 1 := m ((c.tc : Thread nD τ).loc main_arg8)
def A9 : Cert.Spec.Vct 1 := m ((c.tc : Thread nD τ).loc main_arg9)
def A10 : Cert.Spec.Mat 128 1 := m ((c.tc : Thread nD τ).loc main_arg10)
def A11 : Cert.Spec.Vct 1 := m ((c.tc : Thread nD τ).loc main_arg11)

/-- The representation, from the kernel's argument arrays. -/
def R : Cert.Spec.Mat 10000 128 :=
  Cert.Spec.rep (A0 m c) (A1 m c) (A2 m c) (A3 m c) (A4 m c) (A5 m c)

/-! ## The blocks the pipeline hands the body -/

/-- The printed index maps, decided over the grid: the adjacency's row block is t in the first phase and 49 - t in
    the second; every other input is one block. -/
theorem idx_facts : ∀ t : Fin cfg0.N,
    (win0_0.index t (0 : Fin 2) = (if t.val < 25 then t.val else 49 - t.val) ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-- The adjacency's block at point t is its 400 rows from row 400 · (t or 49 - t) on. -/
theorem adj_row (t : Fin cfg0.N) (p : Fin 400) (r : Fin 10000)
    (hr : r.val = 400 * (if t.val < 25 then t.val else 49 - t.val) + p.val) (k : Fin 10000) :
    (iblk m c 0 t : Vec Ideal S400x10000 .f32) (ix2 p k) = A1 m c (ix2 r k) := by
  obtain ⟨⟨e0, e1⟩, -⟩ := idx_facts t
  unfold iblk A1
  rw [View.read_apply]
  show V m c main_arg1 _ = m (c.tc.loc main_arg1) _
  rw [V_main_arg1]
  congr 1
  funext a
  apply Fin.ext
  match a with
  | ⟨0, _⟩ => show win0_0.index t 0 * 400 + 1 * p.val = r.val; rw [e0, hr]; omega
  | ⟨1, _⟩ => show win0_0.index t 1 * 10000 + 1 * k.val = k.val; rw [e1]; omega

/-! The inputs handed whole. -/

theorem x_blk (t : Fin cfg0.N) : (iblk m c 1 t : Vec Ideal S10000x128 .f32) = A0 m c := by
  obtain ⟨-, ⟨e0, e1⟩, -⟩ := idx_facts t
  funext x
  unfold iblk A0
  rw [View.read_apply]
  show V m c main_arg0 _ = m (c.tc.loc main_arg0) _
  rw [V_main_arg0]
  congr 1
  funext a
  apply Fin.ext
  match a with
  | ⟨0, _⟩ => show win0_1.index t 0 * 10000 + 1 * (x 0).val = (x 0).val; rw [e0]; omega
  | ⟨1, _⟩ => show win0_1.index t 1 * 128 + 1 * (x 1).val = (x 1).val; rw [e1]; omega

theorem w1_blk (t : Fin cfg0.N) : (iblk m c 2 t : Vec Ideal S128x128 .f32) = A2 m c := by
  obtain ⟨-, -, ⟨e0, e1⟩, -⟩ := idx_facts t
  funext x
  unfold iblk A2
  rw [View.read_apply]
  show V m c main_arg2 _ = m (c.tc.loc main_arg2) _
  rw [V_main_arg2]
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

theorem w2_blk (t : Fin cfg0.N) : (iblk m c 4 t : Vec Ideal S128x128 .f32) = A4 m c := by
  obtain ⟨-, -, -, -, ⟨e0, e1⟩, -⟩ := idx_facts t
  funext x
  unfold iblk A4
  rw [View.read_apply]
  show V m c main_arg4 _ = m (c.tc.loc main_arg4) _
  rw [V_main_arg4]
  congr 1
  funext a
  apply Fin.ext
  match a with
  | ⟨0, _⟩ => show win0_4.index t 0 * 128 + 1 * (x 0).val = (x 0).val; rw [e0]; omega
  | ⟨1, _⟩ => show win0_4.index t 1 * 128 + 1 * (x 1).val = (x 1).val; rw [e1]; omega

theorem wt1_blk (t : Fin cfg0.N) : (iblk m c 6 t : Vec Ideal S128x128 .f32) = A6 m c := by
  obtain ⟨-, -, -, -, -, -, ⟨e0, e1⟩, -⟩ := idx_facts t
  funext x
  unfold iblk A6
  rw [View.read_apply]
  show V m c main_arg6 _ = m (c.tc.loc main_arg6) _
  rw [V_main_arg6]
  congr 1
  funext a
  apply Fin.ext
  match a with
  | ⟨0, _⟩ => show win0_6.index t 0 * 128 + 1 * (x 0).val = (x 0).val; rw [e0]; omega
  | ⟨1, _⟩ => show win0_6.index t 1 * 128 + 1 * (x 1).val = (x 1).val; rw [e1]; omega

theorem wt2_blk (t : Fin cfg0.N) : (iblk m c 8 t : Vec Ideal S128x1 .f32) = A8 m c := by
  obtain ⟨-, -, -, -, -, -, -, -, ⟨e0, e1⟩, -⟩ := idx_facts t
  funext x
  unfold iblk A8
  rw [View.read_apply]
  show V m c main_arg8 _ = m (c.tc.loc main_arg8) _
  rw [V_main_arg8]
  congr 1
  funext a
  apply Fin.ext
  match a with
  | ⟨0, _⟩ => show win0_8.index t 0 * 128 + 1 * (x 0).val = (x 0).val; rw [e0]; omega
  | ⟨1, _⟩ => show win0_8.index t 1 * 1 + 1 * (x 1).val = (x 1).val; rw [e1]; omega

theorem wp_blk (t : Fin cfg0.N) : (iblk m c 10 t : Vec Ideal S128x1 .f32) = A10 m c := by
  obtain ⟨-, -, -, -, -, -, -, -, -, -, ⟨e0, e1⟩, -⟩ := idx_facts t
  funext x
  unfold iblk A10
  rw [View.read_apply]
  show V m c main_arg10 _ = m (c.tc.loc main_arg10) _
  rw [V_main_arg10]
  congr 1
  funext a
  apply Fin.ext
  match a with
  | ⟨0, _⟩ => show win0_10.index t 0 * 128 + 1 * (x 0).val = (x 0).val; rw [e0]; omega
  | ⟨1, _⟩ => show win0_10.index t 1 * 1 + 1 * (x 1).val = (x 1).val; rw [e1]; omega

/-! The biases: each [n] argument reaches the kernel as a [1, n] array with the same entries. -/

theorem V_b1 : (V m c main_v0 : S1x128.Idx → EReal) = shapeCast S1x128 (A3 m c) shapeCasts_S128_S1x128 := by
  dsimp only [Gen.V, Gen.V0]
  simp only [Gen.hostOps0, List.flatten_cons, List.flatten_nil, List.append_nil, List.cons_append, List.nil_append]
  after_results
  rfl

theorem b1_blk (t : Fin cfg0.N) (q : Fin 128) :
    (iblk m c 3 t : Vec Ideal S1x128 .f32) (ix2 0 q) = A3 m c (ix1 q) := by
  obtain ⟨-, -, -, ⟨e0, e1⟩, -⟩ := idx_facts t
  unfold iblk
  rw [View.read_apply]
  show (V m c main_v0 : S1x128.Idx → EReal) _ = _
  rw [V_b1]
  refine (congrArg (shapeCast S1x128 (A3 m c) shapeCasts_S128_S1x128) (?_ : _ = ix2 (0 : Fin 1) q)).trans
    (shapeCast_a_1a_apply (A3 m c) shapeCasts_S128_S1x128 0 q)
  funext a
  apply Fin.ext
  match a with
  | ⟨0, _⟩ => show win0_3.index t 0 * 1 + 1 * 0 = 0; rw [e0]
  | ⟨1, _⟩ => show win0_3.index t 1 * 128 + 1 * q.val = q.val; rw [e1]; omega

theorem V_b2 : (V m c main_v1 : S1x128.Idx → EReal) = shapeCast S1x128 (A5 m c) shapeCasts_S128_S1x128 := by
  dsimp only [Gen.V, Gen.V0]
  simp only [Gen.hostOps0, List.flatten_cons, List.flatten_nil, List.append_nil, List.cons_append, List.nil_append]
  after_results
  rfl

theorem b2_blk (t : Fin cfg0.N) (q : Fin 128) :
    (iblk m c 5 t : Vec Ideal S1x128 .f32) (ix2 0 q) = A5 m c (ix1 q) := by
  obtain ⟨-, -, -, -, -, ⟨e0, e1⟩, -⟩ := idx_facts t
  unfold iblk
  rw [View.read_apply]
  show (V m c main_v1 : S1x128.Idx → EReal) _ = _
  rw [V_b2]
  refine (congrArg (shapeCast S1x128 (A5 m c) shapeCasts_S128_S1x128) (?_ : _ = ix2 (0 : Fin 1) q)).trans
    (shapeCast_a_1a_apply (A5 m c) shapeCasts_S128_S1x128 0 q)
  funext a
  apply Fin.ext
  match a with
  | ⟨0, _⟩ => show win0_5.index t 0 * 1 + 1 * 0 = 0; rw [e0]
  | ⟨1, _⟩ => show win0_5.index t 1 * 128 + 1 * q.val = q.val; rw [e1]; omega

theorem V_bt1 : (V m c main_v2 : S1x128.Idx → EReal) = shapeCast S1x128 (A7 m c) shapeCasts_S128_S1x128 := by
  dsimp only [Gen.V, Gen.V0]
  simp only [Gen.hostOps0, List.flatten_cons, List.flatten_nil, List.append_nil, List.cons_append, List.nil_append]
  after_results
  rfl

theorem bt1_blk (t : Fin cfg0.N) (q : Fin 128) :
    (iblk m c 7 t : Vec Ideal S1x128 .f32) (ix2 0 q) = A7 m c (ix1 q) := by
  obtain ⟨-, -, -, -, -, -, -, ⟨e0, e1⟩, -⟩ := idx_facts t
  unfold iblk
  rw [View.read_apply]
  show (V m c main_v2 : S1x128.Idx → EReal) _ = _
  rw [V_bt1]
  refine (congrArg (shapeCast S1x128 (A7 m c) shapeCasts_S128_S1x128) (?_ : _ = ix2 (0 : Fin 1) q)).trans
    (shapeCast_a_1a_apply (A7 m c) shapeCasts_S128_S1x128 0 q)
  funext a
  apply Fin.ext
  match a with
  | ⟨0, _⟩ => show win0_7.index t 0 * 1 + 1 * 0 = 0; rw [e0]
  | ⟨1, _⟩ => show win0_7.index t 1 * 128 + 1 * q.val = q.val; rw [e1]; omega

theorem V_bt2 : (V m c main_v3 : S1x1.Idx → EReal) = shapeCast S1x1 (A9 m c) shapeCasts_S1_S1x1 := by
  dsimp only [Gen.V, Gen.V0]
  simp only [Gen.hostOps0, List.flatten_cons, List.flatten_nil, List.append_nil, List.cons_append, List.nil_append]
  after_results
  rfl

theorem bt2_blk (t : Fin cfg0.N) (q : Fin 1) :
    (iblk m c 9 t : Vec Ideal S1x1 .f32) (ix2 0 q) = A9 m c (ix1 q) := by
  obtain ⟨-, -, -, -, -, -, -, -, -, ⟨e0, e1⟩, -⟩ := idx_facts t
  unfold iblk
  rw [View.read_apply]
  show (V m c main_v3 : S1x1.Idx → EReal) _ = _
  rw [V_bt2]
  refine (congrArg (shapeCast S1x1 (A9 m c) shapeCasts_S1_S1x1) (?_ : _ = ix2 (0 : Fin 1) q)).trans
    (shapeCast_a_1a_apply (A9 m c) shapeCasts_S1_S1x1 0 q)
  funext a
  apply Fin.ext
  match a with
  | ⟨0, _⟩ => show win0_9.index t 0 * 1 + 1 * 0 = 0; rw [e0]
  | ⟨1, _⟩ => show win0_9.index t 1 * 1 + 1 * q.val = q.val; rw [e1]; omega

theorem V_bp : (V m c main_v4 : S1x1.Idx → EReal) = shapeCast S1x1 (A11 m c) shapeCasts_S1_S1x1 := by
  dsimp only [Gen.V, Gen.V0]
  simp only [Gen.hostOps0, List.flatten_cons, List.flatten_nil, List.append_nil, List.cons_append, List.nil_append]
  after_results
  rfl

theorem bp_blk (t : Fin cfg0.N) (q : Fin 1) :
    (iblk m c 11 t : Vec Ideal S1x1 .f32) (ix2 0 q) = A11 m c (ix1 q) := by
  obtain ⟨-, -, -, -, -, -, -, -, -, -, -, ⟨e0, e1⟩⟩ := idx_facts t
  unfold iblk
  rw [View.read_apply]
  show (V m c main_v4 : S1x1.Idx → EReal) _ = _
  rw [V_bp]
  refine (congrArg (shapeCast S1x1 (A11 m c) shapeCasts_S1_S1x1) (?_ : _ = ix2 (0 : Fin 1) q)).trans
    (shapeCast_a_1a_apply (A11 m c) shapeCasts_S1_S1x1 0 q)
  funext a
  apply Fin.ext
  match a with
  | ⟨0, _⟩ => show win0_11.index t 0 * 1 + 1 * 0 = 0; rw [e0]
  | ⟨1, _⟩ => show win0_11.index t 1 * 1 + 1 * q.val = q.val; rw [e1]; omega

/-! ## The values, against the specification -/

/-- Two products agree at an entry when the left operands agree along the row and the right operands along the
    column. -/
theorem mm_congr {N N' K M M' : Nat} (l : Cert.Spec.Mat N K) (l' : Cert.Spec.Mat N' K) (r : Cert.Spec.Mat K M)
    (r' : Cert.Spec.Mat K M') (p : Fin N) (p' : Fin N') (q : Fin M) (q' : Fin M')
    (hl : ∀ k, l (ix2 p k) = l' (ix2 p' k)) (hr : ∀ k, r (ix2 k q) = r' (ix2 k q')) :
    Cert.Spec.mm l r p q = Cert.Spec.mm l' r' p' q' := by
  unfold Cert.Spec.mm
  exact Finset.sum_congr rfl fun k _ => by rw [hl k, hr k]

/-- The first scratch in the first phase: the features times the first weight matrix. -/
theorem S1_eq : Hand.S1 (F := Ideal) m c = Cert.Spec.mat (Cert.Spec.mm (A0 m c) (A2 m c)) := by
  funext j
  obtain ⟨p, q, rfl⟩ : ∃ (p : Fin 10000) (q : Fin 128), j = ix2 p q := ⟨j 0, j 1, eq_ix2 j⟩
  rw [Cert.Spec.mat_ix2]
  show k0_pay1 (F := Ideal) (iblk m c 1 t0) (iblk m c 2 t0) (ix2 p q) = _
  rw [x_blk, w1_blk]
  exact Cert.PayIdeal.pay1_apply _ _ p q

/-- The first layer: row r is computed at point r / 400 from the adjacency's row 400 · (r / 400) + r % 400 = r. -/
theorem Hfull_eq : Hfull (F := Ideal) m c = Cert.Spec.h1 (A0 m c) (A1 m c) (A2 m c) (A3 m c) := by
  funext j
  obtain ⟨r, q, rfl⟩ : ∃ (r : Fin 10000) (q : Fin 128), j = ix2 r q := ⟨j 0, j 1, eq_ix2 j⟩
  unfold Cert.Spec.h1
  rw [Cert.Spec.mat_ix2]
  have hr := r.isLt
  have hb : r.val / 400 < cfg0.N := by rw [N50]; omega
  have hm : r.val % 400 < 400 := Nat.mod_lt _ (by omega)
  show k0_pay4 (F := Ideal) (iblk m c 0 ⟨r.val / 400, hb⟩) (Hand.S1 m c) (iblk m c 3 ⟨r.val / 400, hb⟩)
    (ix2 (⟨r.val % 400, hm⟩ : Fin 400) q) = _
  refine (Cert.PayIdeal.pay4_apply _ _ _ _ q).trans ?_
  unfold Cert.Spec.layer
  rw [b1_blk, S1_eq]
  refine congrArg (fun s => max (s + A3 m c (ix1 q)) 0) ?_
  refine mm_congr _ _ _ _ _ _ _ _ (fun k => adj_row m c _ _ r ?_ k) (fun _ => rfl)
  show r.val = 400 * (if r.val / 400 < 25 then r.val / 400 else 49 - r.val / 400) + r.val % 400
  rw [if_pos (by omega)]
  omega

/-- The first scratch in the second phase: the first layer times the second weight matrix. -/
theorem S2_eq : S2 (F := Ideal) m c
    = Cert.Spec.mat (Cert.Spec.mm (Cert.Spec.h1 (A0 m c) (A1 m c) (A2 m c) (A3 m c)) (A4 m c)) := by
  funext j
  obtain ⟨p, q, rfl⟩ : ∃ (p : Fin 10000) (q : Fin 128), j = ix2 p q := ⟨j 0, j 1, eq_ix2 j⟩
  rw [Cert.Spec.mat_ix2]
  show k0_pay2 (F := Ideal) (Hfull m c) (iblk m c 4 t25) (ix2 p q) = _
  rw [w2_blk, Hfull_eq]
  exact Cert.PayIdeal.pay2_apply _ _ p q

/-- A block of the second layer: at point t of the second phase, row p of the block is row 400 · (49 - t) + p of the
    representation. -/
theorem rep_blk (t : Fin cfg0.N) (ht : 25 ≤ t.val) (p : Fin 400) (r : Fin 10000) (hr : r.val = 400 * (49 - t.val) + p.val)
    (q : Fin 128) :
    k0_pay5 (F := Ideal) (iblk m c 0 t) (S2 m c) (iblk m c 5 t) (ix2 p q) = R m c (ix2 r q) := by
  unfold R Cert.Spec.rep
  rw [Cert.Spec.mat_ix2]
  refine (Cert.PayIdeal.pay5_apply _ _ _ p q).trans ?_
  unfold Cert.Spec.layer
  rw [b2_blk, S2_eq]
  refine congrArg (fun s => max (s + A5 m c (ix1 q)) 0) ?_
  refine mm_congr _ _ _ _ _ _ _ _ (fun k => adj_row m c t p r ?_ k) (fun _ => rfl)
  rw [if_neg (by omega)]
  exact hr

/-- The representation's block the second phase stores. -/
theorem O12_apply (t : Fin cfg0.N) (ht : 25 ≤ t.val) (p : Fin 400) (q : Fin 128) :
    O12 (F := Ideal) m c t (ix2 p q)
      = R m c (ix2 ⟨400 * (49 - t.val) + p.val, by have h1 := t.isLt; have h2 : cfg0.N = 50 := N50; have h3 := p.isLt; omega⟩ q) :=
  rep_blk m c t ht p _ rfl q

/-- The first head's block: a hidden layer of the representation's rows against zero, a one-column product, a bias. -/
theorem O13_apply (t : Fin cfg0.N) (ht : 25 ≤ t.val) (p : Fin 400) :
    O13 (F := Ideal) m c t (ix2 p 0)
      = Cert.Spec.tauOf (R m c) (A6 m c) (A7 m c) (A8 m c) (A9 m c)
          (ix1 ⟨400 * (49 - t.val) + p.val, by have h1 := t.isLt; have h2 : cfg0.N = 50 := N50; have h3 := p.isLt; omega⟩) := by
  unfold Cert.Spec.tauOf
  rw [Cert.Spec.vct_ix1]
  show k0_pay6 (F := Ideal) (iblk m c 0 t) (S2 m c) (iblk m c 5 t) (iblk m c 6 t) (iblk m c 7 t) (iblk m c 8 t)
    (iblk m c 9 t) (ix2 p 0) = _
  refine (Cert.PayIdeal.pay6_apply _ _ _ _ _ _ _ p).trans ?_
  rw [bt2_blk]
  refine congrArg (fun s => s + A9 m c (ix1 0)) ?_
  refine mm_congr _ _ _ _ _ _ _ _ (fun k => ?_) (fun k => congrFun (wt2_blk m c t) (ix2 k 0))
  rw [Cert.Spec.mat_ix2, Cert.Spec.mat_ix2]
  unfold Cert.Spec.layer
  rw [bt1_blk]
  refine congrArg (fun s => max (s + A7 m c (ix1 k)) 0) ?_
  exact mm_congr _ _ _ _ _ _ _ _ (fun j => rep_blk m c t ht p _ rfl j) (fun j => congrFun (wt1_blk m c t) (ix2 j k))

/-- The second head's block: the logistic function of a one-column product of the representation's rows plus a bias. -/
theorem O14_apply (t : Fin cfg0.N) (ht : 25 ≤ t.val) (p : Fin 400) :
    O14 (F := Ideal) m c t (ix2 p 0)
      = Cert.Spec.eOf (R m c) (A10 m c) (A11 m c)
          (ix1 ⟨400 * (49 - t.val) + p.val, by have h1 := t.isLt; have h2 : cfg0.N = 50 := N50; have h3 := p.isLt; omega⟩) := by
  unfold Cert.Spec.eOf
  rw [Cert.Spec.vct_ix1]
  show k0_pay7 (F := Ideal) (iblk m c 0 t) (S2 m c) (iblk m c 5 t) (iblk m c 10 t) (iblk m c 11 t) (ix2 p 0) = _
  refine (Cert.PayIdeal.pay7_apply _ _ _ _ _ p).trans ?_
  rw [bp_blk]
  refine congrArg (fun s => Ideal.logistic (s + A11 m c (ix1 0))) ?_
  exact mm_congr _ _ _ _ _ _ _ _ (fun j => rep_blk m c t ht p _ rfl j) (fun j => congrFun (wp_blk m c t) (ix2 j 0))

end Cert.KernelIdeal.HandV

end
-- ==== Proof.KI.Finals.lean ====
/-
  From the blocks the points write back to the whole output arrays, and the host lines after the region.

  The three outputs (10000 × 128, 10000 × 1, 10000 × 1) are written in blocks of 400 rows. At grid point (phase, i)
  their block index is 24 − i · phase: throughout phase 0 it stays at 24 and nothing is written back; at point
  t = 25 + i of phase 1 it is 24 − i = 49 − t, and that block is written back there. The 25 blocks 24, 23, …, 0 tile the
  10000 rows, so each array ends holding the function G whose rows 400 · (49 − t) … 400 · (49 − t) + 399 are what point t
  of phase 1 stored. After the region @main flattens the two column outputs to vectors of 10000 entries and makes a
  vector of 10000 zeros.
-/
import proofs.«161254_g33749853012156_cont_8to1_b_320_22_alg».proof.Proof.KI.Data
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandW

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-! ## The host lines' operations read at an index -/

/-- A [10000,1] array reshaped to [10000], read at r, is the array at (r, 0). -/
theorem col_apply (X : S10000x1.Idx → Elt F .f32) (r : Fin 10000) :
    shapeCast S10000 X shapeCasts_S10000x1_S10000 (ix1 r) = X (ix2 r 0) :=
  shapeCast_apply X _ _ _ (by
    rw [Shape.rowMajor_val_two, Shape.rowMajor_val_one]
    show r.val * 1 + 0 = r.val
    omega)

/-- The constant 0 broadcast to 10000 entries is 0 at every entry. -/
theorem zeros_apply (i : S10000.Idx) :
    broadcastInDim S10000 ![] bcast_S_S10000 (constant (F := Ideal) S_ .f32 0x00000000#32) i = 0 := by
  refine (broadcastInDim_apply _ _ _ i ix0 (fun a => a.elim0)).trans ?_
  rw [constant_apply]
  exact Ideal.ofBits_zero_f32

/-! ## Output 12: 400 × 128 blocks of a 10000 × 128 array -/

variable (c : Dev nD)

/-- The write-back schedule of the three outputs and their row-block index, decided once over the 50 points: a block
    is written back exactly at the points of phase 1, and point t of phase 1 holds row block 49 - t. -/
theorem out12_sched : ∀ t : Fin cfg0.N, ((cfg0.win 12).flush t = true ↔ 25 ≤ t.val)
    ∧ (25 ≤ t.val → win0_12.index t (0 : Fin 2) = 49 - t.val) ∧ win0_12.index t (1 : Fin 2) = 0 :=
  (by decide +kernel : ∀ t : Fin grid0.N, _)

/-- What a phase-1 point writes back into output 12 is its block of G. -/
theorem flushed12_eq (G : S10000x128.Idx → Elt F .f32)
    (hO : ∀ (t : Fin cfg0.N) (ht : 25 ≤ t.val) (p : Fin 400) (q : Fin 128),
      O12 m c t (ix2 p q) = G (ix2 ⟨400 * (49 - t.val) + p.val, by have := t.isLt; have := N50; omega⟩ q))
    (t : Fin cfg0.N) (hf : (cfg0.win 12).flush t = true) :
    (dats m 0 c).flushed 12 t = ((cfg0.win 12).blk t).view.read (Elt F) G := by
  show (cfg0.win 12).cut (grid0.coords t) ((dats m 0 c).after 12 t) = _
  rw [after_12]
  obtain ⟨e0, e1, e2⟩ := out12_sched t
  have ht : 25 ≤ t.val := e0.mp hf
  funext j
  have e : (cfg0.win 12).xinj (grid0.coords t) j
      = ix2 (⟨(j 0).val, (j 0).isLt⟩ : Fin 400) (⟨(j 1).val, (j 1).isLt⟩ : Fin 128) :=
    funext fun a => match a with | ⟨0, _⟩ => rfl | ⟨1, _⟩ => rfl
  show O12 m c t ((cfg0.win 12).xinj (grid0.coords t) j) = G (((cfg0.win 12).blk t).view.emb j)
  refine (congrArg (O12 m c t) e).trans ((hO t ht _ _).trans (congrArg G (funext fun a => Fin.ext ?_)))
  match a with
  | ⟨0, _⟩ =>
    show 400 * (49 - t.val) + (j 0).val = win0_12.index t (0 : Fin 2) * 400 + 1 * (j 0).val
    rw [e1 ht]; omega
  | ⟨1, _⟩ =>
    show (j 1).val = win0_12.index t (1 : Fin 2) * 128 + 1 * (j 1).val
    rw [e2]; omega

/-- An index of output 12 is in point t's block iff each coordinate is in the block's range on its axis. -/
theorem mem_blk12 (t : Fin cfg0.N) (i : S10000x128.Idx) :
    i ∈ ((cfg0.win 12).blk t).view.set ↔ ∀ a : Fin 2, win0_12.index t a * S400x128.size a ≤ (i a).val ∧ (i a).val < win0_12.index t a * S400x128.size a + S400x128.size a := by
  show i ∈ ((View.whole main_v5_0).slice (win0_12.rect t)).set ↔ _
  rw [View.set_slice_whole, Rect.mem_set_unit]
  exact Iff.rfl

/-- Every row of output 12 is written back by some point of phase 1: row r by point 49 - r / 400. -/
theorem cover12 (i : S10000x128.Idx) :
    ∃ t : Fin cfg0.N, (cfg0.win 12).flush t = true ∧ i ∈ ((cfg0.win 12).blk t).view.set := by
  have hi0 : (i 0).val < 10000 := (i 0).isLt
  have hi1 : (i 1).val < 128 := (i 1).isLt
  obtain ⟨t, hv⟩ : ∃ t : Fin cfg0.N, t.val = 49 - (i 0).val / 400 := ⟨⟨49 - (i 0).val / 400, by rw [N50]; omega⟩, rfl⟩
  obtain ⟨e0, e1, e2⟩ := out12_sched t
  have ht : 25 ≤ t.val := by omega
  refine ⟨t, e0.mpr ht, ?_⟩
  rw [mem_blk12]
  intro a
  match a with
  | ⟨0, _⟩ =>
    show win0_12.index t (0 : Fin 2) * 400 ≤ (i 0).val ∧ (i 0).val < win0_12.index t (0 : Fin 2) * 400 + 400
    rw [e1 ht]; omega
  | ⟨1, _⟩ =>
    show win0_12.index t (1 : Fin 2) * 128 ≤ (i 1).val ∧ (i 1).val < win0_12.index t (1 : Fin 2) * 128 + 128
    rw [e2]; omega

/-- If every phase-1 point's block of output 12 is the 400 rows 400·(49 − t) … of G, the array ends at G. -/
theorem final12 (G : S10000x128.Idx → Elt F .f32)
    (hO : ∀ (t : Fin cfg0.N) (ht : 25 ≤ t.val) (p : Fin 400) (q : Fin 128),
      O12 m c t (ix2 p q) = G (ix2 ⟨400 * (49 - t.val) + p.val, by have := t.isLt; have := N50; omega⟩ q)) :
    (dats m 0 c).arrAt 12 cfg0.N = G :=
  (dats m 0 c).arrAt_eq_of_cover 12 G (fun t hf => flushed12_eq m c G hO t hf) cover12

/-! ## Outputs 13 and 14: 400 × 1 blocks of 10000 × 1 arrays -/

/-- The same schedule for output 13: written back exactly at the points of phase 1, point t holding row block 49 - t. -/
theorem out13_sched : ∀ t : Fin cfg0.N, ((cfg0.win 13).flush t = true ↔ 25 ≤ t.val)
    ∧ (25 ≤ t.val → win0_13.index t (0 : Fin 2) = 49 - t.val) ∧ win0_13.index t (1 : Fin 2) = 0 :=
  (by decide +kernel : ∀ t : Fin grid0.N, _)

/-- What a phase-1 point writes back into output 13 is its block of G. -/
theorem flushed13_eq (G : S10000x1.Idx → Elt F .f32)
    (hO : ∀ (t : Fin cfg0.N) (ht : 25 ≤ t.val) (p : Fin 400),
      O13 m c t (ix2 p 0) = G (ix2 ⟨400 * (49 - t.val) + p.val, by have := t.isLt; have := N50; omega⟩ 0))
    (t : Fin cfg0.N) (hf : (cfg0.win 13).flush t = true) :
    (dats m 0 c).flushed 13 t = ((cfg0.win 13).blk t).view.read (Elt F) G := by
  show (cfg0.win 13).cut (grid0.coords t) ((dats m 0 c).after 13 t) = _
  rw [after_13]
  obtain ⟨e0, e1, e2⟩ := out13_sched t
  have ht : 25 ≤ t.val := e0.mp hf
  funext j
  have hj1 : (j 1).val < 1 := (j 1).isLt
  have e : (cfg0.win 13).xinj (grid0.coords t) j = ix2 (⟨(j 0).val, (j 0).isLt⟩ : Fin 400) (0 : Fin 1) :=
    funext fun a => match a with
      | ⟨0, _⟩ => rfl
      | ⟨1, _⟩ => Fin.ext (by show (j 1).val = 0; omega)
  show O13 m c t ((cfg0.win 13).xinj (grid0.coords t) j) = G (((cfg0.win 13).blk t).view.emb j)
  refine (congrArg (O13 m c t) e).trans ((hO t ht _).trans (congrArg G (funext fun a => Fin.ext ?_)))
  match a with
  | ⟨0, _⟩ =>
    show 400 * (49 - t.val) + (j 0).val = win0_13.index t (0 : Fin 2) * 400 + 1 * (j 0).val
    rw [e1 ht]; omega
  | ⟨1, _⟩ =>
    show (0 : ℕ) = win0_13.index t (1 : Fin 2) * 1 + 1 * (j 1).val
    rw [e2]; omega

/-- An index of output 13 is in point t's block iff each coordinate is in the block's range on its axis. -/
theorem mem_blk13 (t : Fin cfg0.N) (i : S10000x1.Idx) :
    i ∈ ((cfg0.win 13).blk t).view.set ↔ ∀ a : Fin 2, win0_13.index t a * S400x1.size a ≤ (i a).val ∧ (i a).val < win0_13.index t a * S400x1.size a + S400x1.size a := by
  show i ∈ ((View.whole main_v5_1).slice (win0_13.rect t)).set ↔ _
  rw [View.set_slice_whole, Rect.mem_set_unit]
  exact Iff.rfl

/-- Every row of output 13 is written back by some point of phase 1: row r by point 49 - r / 400. -/
theorem cover13 (i : S10000x1.Idx) :
    ∃ t : Fin cfg0.N, (cfg0.win 13).flush t = true ∧ i ∈ ((cfg0.win 13).blk t).view.set := by
  have hi0 : (i 0).val < 10000 := (i 0).isLt
  have hi1 : (i 1).val < 1 := (i 1).isLt
  obtain ⟨t, hv⟩ : ∃ t : Fin cfg0.N, t.val = 49 - (i 0).val / 400 := ⟨⟨49 - (i 0).val / 400, by rw [N50]; omega⟩, rfl⟩
  obtain ⟨e0, e1, e2⟩ := out13_sched t
  have ht : 25 ≤ t.val := by omega
  refine ⟨t, e0.mpr ht, ?_⟩
  rw [mem_blk13]
  intro a
  match a with
  | ⟨0, _⟩ =>
    show win0_13.index t (0 : Fin 2) * 400 ≤ (i 0).val ∧ (i 0).val < win0_13.index t (0 : Fin 2) * 400 + 400
    rw [e1 ht]; omega
  | ⟨1, _⟩ =>
    show win0_13.index t (1 : Fin 2) * 1 ≤ (i 1).val ∧ (i 1).val < win0_13.index t (1 : Fin 2) * 1 + 1
    rw [e2]; omega

/-- If every phase-1 point's block of output 13 is the 400 rows 400·(49 − t) … of G, the array ends at G. -/
theorem final13 (G : S10000x1.Idx → Elt F .f32)
    (hO : ∀ (t : Fin cfg0.N) (ht : 25 ≤ t.val) (p : Fin 400),
      O13 m c t (ix2 p 0) = G (ix2 ⟨400 * (49 - t.val) + p.val, by have := t.isLt; have := N50; omega⟩ 0)) :
    (dats m 0 c).arrAt 13 cfg0.N = G :=
  (dats m 0 c).arrAt_eq_of_cover 13 G (fun t hf => flushed13_eq m c G hO t hf) cover13

/-- The same schedule for output 14: written back exactly at the points of phase 1, point t holding row block 49 - t. -/
theorem out14_sched : ∀ t : Fin cfg0.N, ((cfg0.win 14).flush t = true ↔ 25 ≤ t.val)
    ∧ (25 ≤ t.val → win0_14.index t (0 : Fin 2) = 49 - t.val) ∧ win0_14.index t (1 : Fin 2) = 0 :=
  (by decide +kernel : ∀ t : Fin grid0.N, _)

/-- What a phase-1 point writes back into output 14 is its block of G. -/
theorem flushed14_eq (G : S10000x1.Idx → Elt F .f32)
    (hO : ∀ (t : Fin cfg0.N) (ht : 25 ≤ t.val) (p : Fin 400),
      O14 m c t (ix2 p 0) = G (ix2 ⟨400 * (49 - t.val) + p.val, by have := t.isLt; have := N50; omega⟩ 0))
    (t : Fin cfg0.N) (hf : (cfg0.win 14).flush t = true) :
    (dats m 0 c).flushed 14 t = ((cfg0.win 14).blk t).view.read (Elt F) G := by
  show (cfg0.win 14).cut (grid0.coords t) ((dats m 0 c).after 14 t) = _
  rw [after_14]
  obtain ⟨e0, e1, e2⟩ := out14_sched t
  have ht : 25 ≤ t.val := e0.mp hf
  funext j
  have hj1 : (j 1).val < 1 := (j 1).isLt
  have e : (cfg0.win 14).xinj (grid0.coords t) j = ix2 (⟨(j 0).val, (j 0).isLt⟩ : Fin 400) (0 : Fin 1) :=
    funext fun a => match a with
      | ⟨0, _⟩ => rfl
      | ⟨1, _⟩ => Fin.ext (by show (j 1).val = 0; omega)
  show O14 m c t ((cfg0.win 14).xinj (grid0.coords t) j) = G (((cfg0.win 14).blk t).view.emb j)
  refine (congrArg (O14 m c t) e).trans ((hO t ht _).trans (congrArg G (funext fun a => Fin.ext ?_)))
  match a with
  | ⟨0, _⟩ =>
    show 400 * (49 - t.val) + (j 0).val = win0_14.index t (0 : Fin 2) * 400 + 1 * (j 0).val
    rw [e1 ht]; omega
  | ⟨1, _⟩ =>
    show (0 : ℕ) = win0_14.index t (1 : Fin 2) * 1 + 1 * (j 1).val
    rw [e2]; omega

/-- An index of output 14 is in point t's block iff each coordinate is in the block's range on its axis. -/
theorem mem_blk14 (t : Fin cfg0.N) (i : S10000x1.Idx) :
    i ∈ ((cfg0.win 14).blk t).view.set ↔ ∀ a : Fin 2, win0_14.index t a * S400x1.size a ≤ (i a).val ∧ (i a).val < win0_14.index t a * S400x1.size a + S400x1.size a := by
  show i ∈ ((View.whole main_v5_2).slice (win0_14.rect t)).set ↔ _
  rw [View.set_slice_whole, Rect.mem_set_unit]
  exact Iff.rfl

/-- Every row of output 14 is written back by some point of phase 1: row r by point 49 - r / 400. -/
theorem cover14 (i : S10000x1.Idx) :
    ∃ t : Fin cfg0.N, (cfg0.win 14).flush t = true ∧ i ∈ ((cfg0.win 14).blk t).view.set := by
  have hi0 : (i 0).val < 10000 := (i 0).isLt
  have hi1 : (i 1).val < 1 := (i 1).isLt
  obtain ⟨t, hv⟩ : ∃ t : Fin cfg0.N, t.val = 49 - (i 0).val / 400 := ⟨⟨49 - (i 0).val / 400, by rw [N50]; omega⟩, rfl⟩
  obtain ⟨e0, e1, e2⟩ := out14_sched t
  have ht : 25 ≤ t.val := by omega
  refine ⟨t, e0.mpr ht, ?_⟩
  rw [mem_blk14]
  intro a
  match a with
  | ⟨0, _⟩ =>
    show win0_14.index t (0 : Fin 2) * 400 ≤ (i 0).val ∧ (i 0).val < win0_14.index t (0 : Fin 2) * 400 + 400
    rw [e1 ht]; omega
  | ⟨1, _⟩ =>
    show win0_14.index t (1 : Fin 2) * 1 ≤ (i 1).val ∧ (i 1).val < win0_14.index t (1 : Fin 2) * 1 + 1
    rw [e2]; omega

/-- If every phase-1 point's block of output 14 is the 400 rows 400·(49 − t) … of G, the array ends at G. -/
theorem final14 (G : S10000x1.Idx → Elt F .f32)
    (hO : ∀ (t : Fin cfg0.N) (ht : 25 ≤ t.val) (p : Fin 400),
      O14 m c t (ix2 p 0) = G (ix2 ⟨400 * (49 - t.val) + p.val, by have := t.isLt; have := N50; omega⟩ 0)) :
    (dats m 0 c).arrAt 14 cfg0.N = G :=
  (dats m 0 c).arrAt_eq_of_cover 14 G (fun t hf => flushed14_eq m c G hO t hf) cover14

/-! ## After the region -/

/-- After @main's last lines the first reshape's result is output 13's array, flattened. -/
theorem tail_v6 (c : Dev nD) :
    Pipeline.afterTail₀ cfgs (dats m) 0 (V0 m) [hostOps1] c main_v6
      = shapeCast S10000 ((dats m 0 c).arrAt 13 cfg0.N) shapeCasts_S10000x1_S10000 := by
  unfold Pipeline.afterTail₀
  show StableHlo.after hostOps1 _ (Proc.devRef .tc main_v6) = _
  after_results
  exact congrArg (fun X : S10000x1.Idx → Elt F .f32 => shapeCast S10000 X shapeCasts_S10000x1_S10000)
    (Pipeline.withArrays_arr spec0 launch0.win.arr_inj c (V0 m c) (fun w => (dats m 0 c).arrAt w cfg0.N) 13)

/-- The second reshape's result is output 14's array, flattened. -/
theorem tail_v7 (c : Dev nD) :
    Pipeline.afterTail₀ cfgs (dats m) 0 (V0 m) [hostOps1] c main_v7
      = shapeCast S10000 ((dats m 0 c).arrAt 14 cfg0.N) shapeCasts_S10000x1_S10000 := by
  unfold Pipeline.afterTail₀
  show StableHlo.after hostOps1 _ (Proc.devRef .tc main_v7) = _
  after_results
  exact congrArg (fun X : S10000x1.Idx → Elt F .f32 => shapeCast S10000 X shapeCasts_S10000x1_S10000)
    (Pipeline.withArrays_arr spec0 launch0.win.arr_inj c (V0 m c) (fun w => (dats m 0 c).arrAt w cfg0.N) 14)

/-- The last line's result is the constant 0 broadcast to 10000 entries. -/
theorem tail_v8 (c : Dev nD) :
    Pipeline.afterTail₀ cfgs (dats m) 0 (V0 m) [hostOps1] c main_v8
      = broadcastInDim S10000 ![] bcast_S_S10000 (constant (F := F) S_ .f32 0x00000000#32) := by
  unfold Pipeline.afterTail₀
  show StableHlo.after hostOps1 _ (Proc.devRef .tc main_v8) = _
  after_results

/-- The results after @main's last lines, from the frame run's post. -/
theorem tail_results (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_v5_0) = (dats m 0 c).arrAt 12 cfg0.N
    ∧ r.2.mem ((c.tc : Thread nD τ).loc main_v6) = shapeCast S10000 ((dats m 0 c).arrAt 13 cfg0.N) shapeCasts_S10000x1_S10000
    ∧ r.2.mem ((c.tc : Thread nD τ).loc main_v7) = shapeCast S10000 ((dats m 0 c).arrAt 14 cfg0.N) shapeCasts_S10000x1_S10000
    ∧ r.2.mem ((c.tc : Thread nD τ).loc main_v8) = broadcastInDim S10000 ![] bcast_S_S10000 (constant (F := F) S_ .f32 0x00000000#32) :=
  ⟨(h c).1 12,
    ((h c).2 main_v6 (Pipeline.mem_restRefs_of main_v6 (by decide) (by decide))).trans (tail_v6 m c),
    ((h c).2 main_v7 (Pipeline.mem_restRefs_of main_v7 (by decide) (by decide))).trans (tail_v7 m c),
    ((h c).2 main_v8 (Pipeline.mem_restRefs_of main_v8 (by decide) (by decide))).trans (tail_v8 m c)⟩

end Cert.KernelIdeal.HandW

end
-- ==== Proof.KI.Named.lean ====
/-
  The idealized kernel's results, named. After the run the representation's array holds the second layer, the two
  one-column arrays hold the two heads, and the host lines after the region read the columns out as vectors and
  produce the zero vector; the argument arrays are as they were. Every value is the specification's function of the
  argument arrays.
-/
import proofs.«161254_g33749853012156_cont_8to1_b_320_22_alg».proof.Proof.KI.Frame
import proofs.«161254_g33749853012156_cont_8to1_b_320_22_alg».proof.Proof.KI.Values
import proofs.«161254_g33749853012156_cont_8to1_b_320_22_alg».proof.Proof.KI.Finals

set_option maxRecDepth 16384

noncomputable section

namespace Cert.KernelIdeal.HandA

open Cert.KernelIdeal Cert.KernelIdeal.Gen Cert.KernelIdeal.Hand Cert.KernelIdeal.HandV Cert.KernelIdeal.HandW
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- A vector as a one-column array. -/
def colOf (v : Cert.Spec.Vct 10000) : S10000x1.Idx → EReal := fun i => v (ix1 ⟨(i 0).val, idx2_lt0 i⟩)

/-- Read out as a vector, the one-column array of v is v. -/
theorem col_of (v : Cert.Spec.Vct 10000) : shapeCast S10000 (colOf v) shapeCasts_S10000x1_S10000 = v := funext fun i => by
  have e : i = ix1 (⟨(i 0).val, (i 0).isLt⟩ : Fin 10000) := funext fun d => by match d with | ⟨0, _⟩ => rfl
  rw [e]
  exact col_apply (F := Ideal) (colOf v) _

/-- The two heads, from the kernel's argument arrays. -/
def tauK (c : Dev nD) : Cert.Spec.Vct 10000 := Cert.Spec.tauOf (R m c) (A6 m c) (A7 m c) (A8 m c) (A9 m c)
def eK (c : Dev nD) : Cert.Spec.Vct 10000 := Cert.Spec.eOf (R m c) (A10 m c) (A11 m c)

/-- The three output arrays after the run. -/
theorem rep_final (c : Dev nD) : (dats m 0 c).arrAt 12 cfg0.N = R m c :=
  final12 m c (R m c) (fun t ht p q => O12_apply m c t ht p q)
theorem tau_final (c : Dev nD) : (dats m 0 c).arrAt 13 cfg0.N = colOf (tauK m c) :=
  final13 m c (colOf (tauK m c)) (fun t ht p => O13_apply m c t ht p)
theorem e_final (c : Dev nD) : (dats m 0 c).arrAt 14 cfg0.N = colOf (eK m c) :=
  final14 m c (colOf (eK m c)) (fun t ht p => O14_apply m c t ht p)

/-- The run with every result named and the arguments unchanged. -/
theorem run_named : θ_run defs (onTc (τ := τ) (main (F := Ideal))) ⟨m, fun _ => 0, ρ⟩ (fun r => ∀ c : Dev nD,
      r.2.mem ((c.tc : Thread nD τ).loc main_v7) = eK m c
      ∧ r.2.mem ((c.tc : Thread nD τ).loc main_v8) = Cert.Spec.zeros
      ∧ r.2.mem ((c.tc : Thread nD τ).loc main_v6) = tauK m c
      ∧ r.2.mem ((c.tc : Thread nD τ).loc main_v6) = tauK m c
      ∧ r.2.mem ((c.tc : Thread nD τ).loc main_v6) = tauK m c
      ∧ r.2.mem ((c.tc : Thread nD τ).loc main_v8) = Cert.Spec.zeros
      ∧ r.2.mem ((c.tc : Thread nD τ).loc main_v8) = Cert.Spec.zeros
      ∧ r.2.mem ((c.tc : Thread nD τ).loc main_v5_0) = R m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨h12, h6, h7, h8⟩ := tail_results m r h c
    have e6 : r.2.mem ((c.tc : Thread nD τ).loc main_v6) = tauK m c := h6.trans (by rw [tau_final]; exact col_of _)
    have e7 : r.2.mem ((c.tc : Thread nD τ).loc main_v7) = eK m c := h7.trans (by rw [e_final]; exact col_of _)
    have e8 : r.2.mem ((c.tc : Thread nD τ).loc main_v8) = Cert.Spec.zeros := h8.trans (funext fun i => zeros_apply i)
    exact ⟨e7, e8, e6, e6, e6, e8, e8, h12.trans (rep_final m c),
      ((h c).1 1).trans ((((dats m) 0 c).arrAt_in 1 rfl _).trans ((A_eq m c 1).trans (V_main_arg0 m c))),
      ((h c).1 0).trans ((((dats m) 0 c).arrAt_in 0 rfl _).trans ((A_eq m c 0).trans (V_main_arg1 m c))),
      ((h c).1 2).trans ((((dats m) 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans ((((dats m) 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans ((((dats m) 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans ((((dats m) 0 c).arrAt_in 8 rfl _).trans ((A_eq m c 8).trans (V_main_arg8 m c))),
      (((h c).2 main_arg9 (Pipeline.mem_restRefs_of main_arg9 (by decide) (by decide))).trans (W_main_arg9 m (dats m) c)),
      ((h c).1 10).trans ((((dats m) 0 c).arrAt_in 10 rfl _).trans ((A_eq m c 10).trans (V_main_arg10 m c))),
      (((h c).2 main_arg11 (Pipeline.mem_restRefs_of main_arg11 (by decide) (by decide))).trans (W_main_arg11 m (dats m) c))⟩)
    (run_main (F := Ideal) m ρ)

end Cert.KernelIdeal.HandA

end
-- ==== Proof.RefSpec.lean ====
/-
  The reference computes the specification.

  The reference program is a straight line of host operations: three kinds of matrix product (each with one
  contracted axis), a bias broadcast along the rows in two steps, a maximum with the zero array, a reshape of a
  one-column matrix to a vector, and the logistic function spelt as 1 / (1 + exp (−z)). Read at an entry, each of
  these is the corresponding line of the specification: a product is the plain sum over the contracted coordinate,
  the broadcast bias at (p, q) is the bias at q, the maximum with the zero array is max · 0, the reshape reads
  row r of the column, and the quotient is the logistic function by its definition. Composing these readings
  layer by layer gives the three results.
-/
import proofs.«161254_g33749853012156_cont_8to1_b_320_22_alg».proof.Proof.Gen.ReferenceIdeal.Run
import proofs.«161254_g33749853012156_cont_8to1_b_320_22_alg».proof.Proof.Gen.ReferenceIdeal.Read
import proofs.«161254_g33749853012156_cont_8to1_b_320_22_alg».proof.Proof.Spec
import proofs.«161254_g33749853012156_cont_8to1_b_320_22_alg».proof.Proof.LibDotPlain
import Idealize.ShloMosaic.Lib.ValueIdx
import Idealize.ShloMosaic.Lib.Pipeline.Value
import Idealize.ShloMosaic.PureOps.Ideal.Laws

noncomputable section

open scoped BigOperators

namespace Cert.RefSpec

open Cert.ReferenceIdeal Cert.ReferenceIdeal.Gen Idealize.ShloMosaic Idealize.ShloMosaic.TcCoe Idealize.SL.Sem
  Idealize.ShloMosaic.StableHlo Idealize.ShloMosaic.ValueIdx

/-! ## The three products, read at an entry -/

/-- [10000, 128] × [128, 128]: entry (p, q) is the sum over the 128 contracted coordinates. -/
theorem dotA_apply (l : FVec Ideal S10000x128 .f32) (r : FVec Ideal S128x128 .f32) (p : Fin 10000) (q : Fin 128) :
    Host.dotGeneral dot_S10000x128_S128x128_S10000x128_1_0_0_1_n_n none l r (ix2 p q) = Cert.Spec.mm l r p q := by
  simp only [Host.dotGeneral]
  rw [Ideal.dotGeneral_apply]
  exact Cert.LibDotPlain.sum_contr_plain dot_S10000x128_S128x128_S10000x128_1_0_0_1_n_n rfl rfl
    Read.lhs_main_v0_0 Read.lhs_main_v0_1 Read.rhs_main_v0_0 Read.rhs_main_v0_1 l r p q

/-- [10000, 10000] × [10000, 128]: entry (p, q) is the sum over the 10000 contracted coordinates. -/
theorem dotB_apply (l : FVec Ideal S10000x10000 .f32) (r : FVec Ideal S10000x128 .f32) (p : Fin 10000) (q : Fin 128) :
    Host.dotGeneral dot_S10000x10000_S10000x128_S10000x128_1_0_0_1_n_n none l r (ix2 p q) = Cert.Spec.mm l r p q := by
  simp only [Host.dotGeneral]
  rw [Ideal.dotGeneral_apply]
  exact Cert.LibDotPlain.sum_contr_plain dot_S10000x10000_S10000x128_S10000x128_1_0_0_1_n_n rfl rfl
    Read.lhs_main_v1_0 Read.lhs_main_v1_1 Read.rhs_main_v1_0 Read.rhs_main_v1_1 l r p q

/-- [10000, 128] × [128, 1]: entry (p, q) is the sum over the 128 contracted coordinates. -/
theorem dotC_apply (l : FVec Ideal S10000x128 .f32) (r : FVec Ideal S128x1 .f32) (p : Fin 10000) (q : Fin 1) :
    Host.dotGeneral dot_S10000x128_S128x1_S10000x1_1_0_0_1_n_n none l r (ix2 p q) = Cert.Spec.mm l r p q := by
  simp only [Host.dotGeneral]
  rw [Ideal.dotGeneral_apply]
  exact Cert.LibDotPlain.sum_contr_plain dot_S10000x128_S128x1_S10000x1_1_0_0_1_n_n rfl rfl
    Read.lhs_main_v17_0 Read.lhs_main_v17_1 Read.rhs_main_v17_0 Read.rhs_main_v17_1 l r p q

/-! ## The bias broadcasts, the maximum with zero, the reshape -/

/-- The host's relu: the maximum with the zero word broadcast to the whole array. -/
abbrev hRelu (z : FVec Ideal S10000x128 .f32) : FVec Ideal S10000x128 .f32 :=
  maximumf z (broadcastInDim S10000x128 ![] bcast_S_S10000x128 (constant (F := Ideal) S_ .f32 0x00000000#32))
/-- The host's row broadcast of a bias of length 128: [128] to [1, 128] to [10000, 128]. -/
abbrev hBias (b : FVec Ideal S128 .f32) : FVec Ideal S10000x128 .f32 :=
  broadcastInDim S10000x128 ![0, 1] bcast_S1x128_S10000x128_0_1 (broadcastInDim S1x128 ![1] bcast_S128_S1x128_1 b)
/-- The host's row broadcast of a bias of length 1: [1] to [1, 1] to [10000, 1]. -/
abbrev hBias1 (b : FVec Ideal S1 .f32) : FVec Ideal S10000x1 .f32 :=
  broadcastInDim S10000x1 ![0, 1] bcast_S1x1_S10000x1_0_1 (broadcastInDim S1x1 ![1] bcast_S1_S1x1_1 b)

/-- The broadcast bias at (p, q) is the bias at q. -/
theorem bias_apply (b : FVec Ideal S128 .f32) (p : Fin 10000) (q : Fin 128) : hBias b (ix2 p q) = b (ix1 q) := by
  refine (broadcastInDim_apply _ bcast_S1x128_S10000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The broadcast bias of length 1 is everywhere its one entry. -/
theorem bias1_apply (b : FVec Ideal S1 .f32) (p : Fin 10000) (q : Fin 1) : hBias1 b (ix2 p q) = b (ix1 0) := by
  refine (broadcastInDim_apply _ bcast_S1x1_S10000x1_0_1 _ (ix2 p q) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else q.val; rw [if_pos rfl])).trans ?_
  exact broadcastInDim_apply _ bcast_S1_S1x1_1 b (ix2 (0 : Fin 1) (0 : Fin 1)) (ix1 0) (fun a => match a with
    | ⟨0, _⟩ => by show 0 = if (1 : Nat) = 1 then 0 else 0; rw [if_pos rfl])

/-- The maximum with the zero array, at an entry. -/
theorem relu_apply (z : FVec Ideal S10000x128 .f32) (i : S10000x128.Idx) : hRelu z i = max (z i) 0 :=
  congrArg (max (z i)) ((broadcastInDim_apply _ bcast_S_S10000x128 (constant (F := Ideal) S_ .f32 0x00000000#32) i ix0
    (fun a => a.elim0)).trans Ideal.ofBits_zero_f32)

/-- A one-column matrix reshaped to a vector: entry r is row r of the column. -/
theorem col_apply (y : FVec Ideal S10000x1 .f32) (r : Fin 10000) :
    shapeCast S10000 y shapeCasts_S10000x1_S10000 (ix1 r) = y (ix2 r (0 : Fin 1)) :=
  shapeCast_apply y shapeCasts_S10000x1_S10000 (ix1 r) (ix2 r (0 : Fin 1))
    (by rewrite [Shape.rowMajor_val_two, Shape.rowMajor_val_one]; show r.val * 1 + 0 = r.val; omega)

/-! ## One layer -/

/-- A product [10000, 128] × [128, 128] as a whole array. -/
theorem dotA_eq (l : FVec Ideal S10000x128 .f32) (r : FVec Ideal S128x128 .f32) :
    Host.dotGeneral dot_S10000x128_S128x128_S10000x128_1_0_0_1_n_n none l r = Cert.Spec.mat (Cert.Spec.mm l r) := by
  funext i
  obtain ⟨p, q, rfl⟩ : ∃ (p : Fin 10000) (q : Fin 128), i = ix2 p q := ⟨i 0, i 1, eq_ix2 i⟩
  exact dotA_apply l r p q

/-- A layer whose product is [10000, 10000] × [10000, 128]. -/
theorem layerB_eq (l : FVec Ideal S10000x10000 .f32) (r : FVec Ideal S10000x128 .f32) (b : FVec Ideal S128 .f32) :
    hRelu (addf (Host.dotGeneral dot_S10000x10000_S10000x128_S10000x128_1_0_0_1_n_n none l r) (hBias b))
      = Cert.Spec.mat (Cert.Spec.layer l r b) := by
  funext i
  obtain ⟨p, q, rfl⟩ : ∃ (p : Fin 10000) (q : Fin 128), i = ix2 p q := ⟨i 0, i 1, eq_ix2 i⟩
  rw [relu_apply, addf_apply, dotB_apply, bias_apply]
  rfl

/-- A layer whose product is [10000, 128] × [128, 128]. -/
theorem layerA_eq (l : FVec Ideal S10000x128 .f32) (r : FVec Ideal S128x128 .f32) (b : FVec Ideal S128 .f32) :
    hRelu (addf (Host.dotGeneral dot_S10000x128_S128x128_S10000x128_1_0_0_1_n_n none l r) (hBias b))
      = Cert.Spec.mat (Cert.Spec.layer l r b) := by
  funext i
  obtain ⟨p, q, rfl⟩ : ∃ (p : Fin 10000) (q : Fin 128), i = ix2 p q := ⟨i 0, i 1, eq_ix2 i⟩
  rw [relu_apply, addf_apply, dotA_apply, bias_apply]
  rfl

/-- A head's affine part: the product [10000, 128] × [128, 1] plus its bias, reshaped to a vector, at entry r. -/
theorem head_apply (l : FVec Ideal S10000x128 .f32) (w : FVec Ideal S128x1 .f32) (b : FVec Ideal S1 .f32) (r : Fin 10000) :
    shapeCast S10000 (addf (Host.dotGeneral dot_S10000x128_S128x1_S10000x1_1_0_0_1_n_n none l w) (hBias1 b))
        shapeCasts_S10000x1_S10000 (ix1 r)
      = Cert.Spec.mm l w r 0 + b (ix1 0) := by
  rw [col_apply, addf_apply, dotC_apply, bias1_apply]

/-! ## The representation -/

/-- The host's first layer. -/
abbrev hH1 (x : FVec Ideal S10000x128 .f32) (adj : FVec Ideal S10000x10000 .f32) (W1 : FVec Ideal S128x128 .f32)
    (b1 : FVec Ideal S128 .f32) : FVec Ideal S10000x128 .f32 :=
  hRelu (addf (Host.dotGeneral dot_S10000x10000_S10000x128_S10000x128_1_0_0_1_n_n none adj
    (Host.dotGeneral dot_S10000x128_S128x128_S10000x128_1_0_0_1_n_n none x W1)) (hBias b1))

/-- The host's second layer. -/
abbrev hRep (x : FVec Ideal S10000x128 .f32) (adj : FVec Ideal S10000x10000 .f32) (W1 : FVec Ideal S128x128 .f32)
    (b1 : FVec Ideal S128 .f32) (W2 : FVec Ideal S128x128 .f32) (b2 : FVec Ideal S128 .f32) : FVec Ideal S10000x128 .f32 :=
  hRelu (addf (Host.dotGeneral dot_S10000x10000_S10000x128_S10000x128_1_0_0_1_n_n none adj
    (Host.dotGeneral dot_S10000x128_S128x128_S10000x128_1_0_0_1_n_n none (hH1 x adj W1 b1) W2)) (hBias b2))

/-- The host's first layer is the specification's. -/
theorem h1_eq (x : FVec Ideal S10000x128 .f32) (adj : FVec Ideal S10000x10000 .f32) (W1 : FVec Ideal S128x128 .f32)
    (b1 : FVec Ideal S128 .f32) : hH1 x adj W1 b1 = Cert.Spec.h1 x adj W1 b1 :=
  (congrArg (fun y => hRelu (addf (Host.dotGeneral dot_S10000x10000_S10000x128_S10000x128_1_0_0_1_n_n none adj y) (hBias b1)))
    (dotA_eq x W1)).trans (layerB_eq adj _ b1)

/-- The host's second layer is the specification's representation. -/
theorem rep_eq (x : FVec Ideal S10000x128 .f32) (adj : FVec Ideal S10000x10000 .f32) (W1 : FVec Ideal S128x128 .f32)
    (b1 : FVec Ideal S128 .f32) (W2 : FVec Ideal S128x128 .f32) (b2 : FVec Ideal S128 .f32) :
    hRep x adj W1 b1 W2 b2 = Cert.Spec.rep x adj W1 b1 W2 b2 :=
  (congrArg (fun y => hRelu (addf (Host.dotGeneral dot_S10000x10000_S10000x128_S10000x128_1_0_0_1_n_n none adj y) (hBias b2)))
    ((congrArg (fun y => Host.dotGeneral dot_S10000x128_S128x128_S10000x128_1_0_0_1_n_n none y W2) (h1_eq x adj W1 b1)).trans
      (dotA_eq _ W2))).trans (layerB_eq adj _ b2)

/-! ## The two heads and the zero vector -/

/-- The host's first head, from a representation. -/
abbrev hTau (R : FVec Ideal S10000x128 .f32) (Wt1 : FVec Ideal S128x128 .f32) (bt1 : FVec Ideal S128 .f32)
    (Wt2 : FVec Ideal S128x1 .f32) (bt2 : FVec Ideal S1 .f32) : FVec Ideal S10000 .f32 :=
  shapeCast S10000 (addf (Host.dotGeneral dot_S10000x128_S128x1_S10000x1_1_0_0_1_n_n none
    (hRelu (addf (Host.dotGeneral dot_S10000x128_S128x128_S10000x128_1_0_0_1_n_n none R Wt1) (hBias bt1))) Wt2) (hBias1 bt2))
    shapeCasts_S10000x1_S10000

theorem tau_eq (R : FVec Ideal S10000x128 .f32) (Wt1 : FVec Ideal S128x128 .f32) (bt1 : FVec Ideal S128 .f32)
    (Wt2 : FVec Ideal S128x1 .f32) (bt2 : FVec Ideal S1 .f32) : hTau R Wt1 bt1 Wt2 bt2 = Cert.Spec.tauOf R Wt1 bt1 Wt2 bt2 := by
  funext i
  obtain ⟨r, rfl⟩ : ∃ r : Fin 10000, i = ix1 r := ⟨i 0, eq_ix1 i⟩
  refine (congrArg (fun y => shapeCast S10000 (addf (Host.dotGeneral dot_S10000x128_S128x1_S10000x1_1_0_0_1_n_n none y Wt2)
    (hBias1 bt2)) shapeCasts_S10000x1_S10000 (ix1 r)) (layerA_eq R Wt1 bt1)).trans ?_
  exact head_apply _ Wt2 bt2 r

/-- The word 0x3F800000 broadcast to a vector: the constant one. -/
abbrev hOne : FVec Ideal S10000 .f32 := broadcastInDim S10000 ![] bcast_S_S10000 (constant (F := Ideal) S_ .f32 0x3F800000#32)

theorem hOne_apply (i : S10000.Idx) : hOne i = 1 := by
  refine (broadcastInDim_apply _ bcast_S_S10000 (constant (F := Ideal) S_ .f32 0x3F800000#32) i ix0 (fun a => a.elim0)).trans ?_
  show Ideal.ofBits .f32 0x3F800000#32 = 1
  simp [Ideal.ofBits, Ideal.ieee, -EReal.coe_mul]; norm_num

/-- The host's second head, from a representation: 1 / (1 + exp (−z)) spelt in host operations. -/
abbrev hE (R : FVec Ideal S10000x128 .f32) (Wp : FVec Ideal S128x1 .f32) (bp : FVec Ideal S1 .f32) : FVec Ideal S10000 .f32 :=
  Host.divf hOne (addf hOne (Host.exp (Host.negf (shapeCast S10000
    (addf (Host.dotGeneral dot_S10000x128_S128x1_S10000x1_1_0_0_1_n_n none R Wp) (hBias1 bp)) shapeCasts_S10000x1_S10000))))

theorem e_eq (R : FVec Ideal S10000x128 .f32) (Wp : FVec Ideal S128x1 .f32) (bp : FVec Ideal S1 .f32) :
    hE R Wp bp = Cert.Spec.eOf R Wp bp := by
  funext i
  obtain ⟨r, rfl⟩ : ∃ r : Fin 10000, i = ix1 r := ⟨i 0, eq_ix1 i⟩
  show FloatOps.hostDivf (hOne (ix1 r)) (FloatOps.addf (hOne (ix1 r)) (FloatOps.hostUnary .exp (FloatOps.hostNegf
    (shapeCast S10000 (addf (Host.dotGeneral dot_S10000x128_S128x1_S10000x1_1_0_0_1_n_n none R Wp) (hBias1 bp))
      shapeCasts_S10000x1_S10000 (ix1 r))))) = _
  rw [hOne_apply, head_apply]
  rfl

/-- The zero word broadcast to a vector is the zero vector. -/
theorem zeros_eq : broadcastInDim S10000 ![] bcast_S_S10000 (constant (F := Ideal) S_ .f32 0x00000000#32) = Cert.Spec.zeros := by
  funext i
  rw [broadcastInDim_apply _ bcast_S_S10000 _ i ix0 (fun a => a.elim0), constant_apply, Ideal.ofBits_zero_f32]
  rfl

/-! ## The run -/

/-- The representation, from the reference's argument arrays. -/
def R (m : (ℓ : Loc nD τ sig) → Buf (Elt Ideal) ℓ) (c : Dev nD) : Cert.Spec.Mat 10000 128 :=
  Cert.Spec.rep (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The second head's result, from the argument arrays. -/
theorem res_e (x : FVec Ideal S10000x128 .f32) (adj : FVec Ideal S10000x10000 .f32) (W1 : FVec Ideal S128x128 .f32)
    (b1 : FVec Ideal S128 .f32) (W2 : FVec Ideal S128x128 .f32) (b2 : FVec Ideal S128 .f32)
    (Wp : FVec Ideal S128x1 .f32) (bp : FVec Ideal S1 .f32) :
    hE (hRep x adj W1 b1 W2 b2) Wp bp = Cert.Spec.eOf (Cert.Spec.rep x adj W1 b1 W2 b2) Wp bp :=
  (e_eq _ Wp bp).trans (congrArg (fun y => Cert.Spec.eOf y Wp bp) (rep_eq x adj W1 b1 W2 b2))

/-- The first head's result, from the argument arrays. -/
theorem res_tau (x : FVec Ideal S10000x128 .f32) (adj : FVec Ideal S10000x10000 .f32) (W1 : FVec Ideal S128x128 .f32)
    (b1 : FVec Ideal S128 .f32) (W2 : FVec Ideal S128x128 .f32) (b2 : FVec Ideal S128 .f32)
    (Wt1 : FVec Ideal S128x128 .f32) (bt1 : FVec Ideal S128 .f32) (Wt2 : FVec Ideal S128x1 .f32) (bt2 : FVec Ideal S1 .f32) :
    hTau (hRep x adj W1 b1 W2 b2) Wt1 bt1 Wt2 bt2 = Cert.Spec.tauOf (Cert.Spec.rep x adj W1 b1 W2 b2) Wt1 bt1 Wt2 bt2 :=
  (tau_eq _ Wt1 bt1 Wt2 bt2).trans (congrArg (fun y => Cert.Spec.tauOf y Wt1 bt1 Wt2 bt2) (rep_eq x adj W1 b1 W2 b2))

set_option maxRecDepth 16384 in
/-- Every weakly fair execution of the reference terminates with its results at the specification of its
    argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32) = Cert.Spec.eOf (R m c) (m ((c.tc : Thread nD τ).loc main_arg10)) (m ((c.tc : Thread nD τ).loc main_arg11))
      ∧ r.2.mem ((c.tc : Thread nD τ).loc main_v33) = Cert.Spec.zeros
      ∧ r.2.mem ((c.tc : Thread nD τ).loc main_v21) = Cert.Spec.tauOf (R m c) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v21) = Cert.Spec.tauOf (R m c) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v21) = Cert.Spec.tauOf (R m c) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v33) = Cert.Spec.zeros
      ∧ r.2.mem ((c.tc : Thread nD τ).loc main_v33) = Cert.Spec.zeros
      ∧ r.2.mem ((c.tc : Thread nD τ).loc main_v11) = R m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => by
    obtain ⟨h32, h33, h21, h21', h21'', h33', h33'', h11, hargs⟩ := h c
    exact ⟨h32.trans (res_e _ _ _ _ _ _ _ _), h33.trans zeros_eq, h21.trans (res_tau _ _ _ _ _ _ _ _ _ _),
      h21'.trans (res_tau _ _ _ _ _ _ _ _ _ _), h21''.trans (res_tau _ _ _ _ _ _ _ _ _ _), h33'.trans zeros_eq,
      h33''.trans zeros_eq, h11.trans (rep_eq _ _ _ _ _ _), hargs⟩)
    (Cert.ReferenceIdeal.Value.run (F := Ideal) m ρ)

end Cert.RefSpec

end
-- ==== Proof.lean ====
/-
  A two-layer graph convolution over a dense 10000 × 10000 adjacency with two small heads,
      h1  = max (adj · (x · W1) + b1) 0,      rep = max (adj · (h1 · W2) + b2) 0,
      tau = max (rep · Wt1 + bt1) 0 · Wt2 + bt2,      e = 1 / (1 + exp (−(rep · Wp + bp))),
  computed by ONE kernel on a grid of 2 phases × 25 blocks of 400 rows against the plain array program.

  The kernel keeps two 10000 × 128 scratch arrays between grid points. The first holds the transform the phase
  multiplies the adjacency by (x · W1 in phase 0, h1 · W2 in phase 1), computed at the phase's first point; the second
  collects h1, 400 rows per point of phase 0. Phase 1 walks the row blocks in reverse and writes 400 rows of rep, tau
  and e per point. Each row of each result is therefore the same sum of products, the same maximum with zero and the
  same logistic function as in the array program: no sum is regrouped, so the two sides are equal on the extended reals
  for every input, and the finiteness of the inputs is never used.

  The frames of the two kernel programs are proved once, at any float instance, by running the body in its four cases
  (first point of phase 0, later points of phase 0, first point of phase 1, later points of phase 1) under an invariant
  that names what the two scratch arrays hold between points: after k points of phase 0 the first 400·k rows of the
  second scratch are the first layer's, and nothing is said of the rest. The reference's frame is its run with the
  results dropped. The kernel's idealization rewrote nothing, so there is nothing to preserve.
-/
import proofs.«161254_g33749853012156_cont_8to1_b_320_22_alg».proof.Defs
import proofs.«161254_g33749853012156_cont_8to1_b_320_22_alg».proof.Proof.Gen.Kernel
import proofs.«161254_g33749853012156_cont_8to1_b_320_22_alg».proof.Proof.Gen.KernelIdeal
import proofs.«161254_g33749853012156_cont_8to1_b_320_22_alg».proof.Proof.Gen.ReferenceIdeal
import proofs.«161254_g33749853012156_cont_8to1_b_320_22_alg».proof.Proof.Gen.Pre_finite_inputs
import proofs.«161254_g33749853012156_cont_8to1_b_320_22_alg».proof.Proof.Gen.ReferenceIdeal.Run
import proofs.«161254_g33749853012156_cont_8to1_b_320_22_alg».proof.Proof.Gen.ReferenceIdeal.Read
import proofs.«161254_g33749853012156_cont_8to1_b_320_22_alg».proof.Proof.K.Frame
import proofs.«161254_g33749853012156_cont_8to1_b_320_22_alg».proof.Proof.KI.Named
import proofs.«161254_g33749853012156_cont_8to1_b_320_22_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_k : Cert.frame_Kernel := fun m ρ _ =>
  Cert.Kernel.Gen.frame_of m ρ (Cert.Kernel.Hand.dats m) (Cert.Kernel.Hand.A_eq m) (Cert.Kernel.Hand.run_main (F := Bits) m ρ)

/-- So does its reading at the extended reals. -/
theorem frame_ki : Cert.frame_KernelIdeal := fun m ρ _ =>
  Cert.KernelIdeal.Gen.frame_of m ρ (Cert.KernelIdeal.Hand.dats m) (Cert.KernelIdeal.Hand.A_eq m) (Cert.KernelIdeal.Hand.run_main (F := Ideal) m ρ)

/-- The array program's frame is its run with the eight results dropped. -/
theorem frame_ri : Cert.frame_ReferenceIdeal := fun m ρ _ =>
  (θ_run Cert.ReferenceIdeal.defs _ _).mono (fun _ h c => (h c).2.2.2.2.2.2.2.2) (Cert.ReferenceIdeal.Value.run (F := Ideal) m ρ)

/-- The idealization rewrote no operation. -/
theorem preserves : Cert.preserves_Kernel_KernelIdeal := trivial

/-- From memories that agree on the arguments both programs end with every result at the same function of the
    argument arrays: the kernel's from its named run, the array program's from its run read against the same
    specification, the agreement rewritten. -/
theorem algebraic : Cert.algebraic_KernelIdeal_ReferenceIdeal := by
  intro m ρ m' ρ' _ hagree
  refine ⟨fun c => Cert.KernelIdeal.HandA.eK m c, fun _ => Cert.Spec.zeros, fun c => Cert.KernelIdeal.HandA.tauK m c,
    fun c => Cert.KernelIdeal.HandA.tauK m c, fun c => Cert.KernelIdeal.HandA.tauK m c, fun _ => Cert.Spec.zeros,
    fun _ => Cert.Spec.zeros, fun c => Cert.KernelIdeal.HandV.R m c, Cert.KernelIdeal.HandA.run_named m ρ, ?_⟩
  refine (θ_run Cert.ReferenceIdeal.defs _ _).mono (fun r h c => ?_) (Cert.RefSpec.run m' ρ')
  obtain ⟨h1, h2, h3, h4, h5, h6, h7, h8, hargs⟩ := h c
  obtain ⟨a0, a1, a2, a3, a4, a5, a6, a7, a8, a9, a10, a11⟩ := hagree c
  have eR : Cert.RefSpec.R m' c = Cert.KernelIdeal.HandV.R m c := by
    unfold Cert.RefSpec.R Cert.KernelIdeal.HandV.R Cert.KernelIdeal.HandV.A0 Cert.KernelIdeal.HandV.A1 Cert.KernelIdeal.HandV.A2
      Cert.KernelIdeal.HandV.A3 Cert.KernelIdeal.HandV.A4 Cert.KernelIdeal.HandV.A5
    rw [a0, a1, a2, a3, a4, a5]
  have eT : Cert.Spec.tauOf (Cert.RefSpec.R m' c) (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) = Cert.KernelIdeal.HandA.tauK m c := by
    rw [eR, a6, a7, a8, a9]; rfl
  have eE : Cert.Spec.eOf (Cert.RefSpec.R m' c) (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11)) = Cert.KernelIdeal.HandA.eK m c := by
    rw [eR, a10, a11]; rfl
  exact ⟨h1.trans eE, h2, h3.trans eT, h4.trans eT, h5.trans eT, h6, h7, h8.trans eR, hargs⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
